-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S4000x128 : Shape := ⟨2, ![4000, 128]⟩
abbrev S4000x1 : Shape := ⟨2, ![4000, 1]⟩

abbrev nBuf : Space → Nat
  | .hbm => 90
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S100000x1, .f32⟩
  | .hbm, ⟨48, _⟩ => ⟨S1x128, .f32⟩
  | .hbm, ⟨49, _⟩ => ⟨S100000x128, .f32⟩
  | .hbm, ⟨50, _⟩ => ⟨S100000x1, .f32⟩
  | .hbm, ⟨51, _⟩ => ⟨S100000x128, .f32⟩
  | .hbm, ⟨52, _⟩ => ⟨S100000x128, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .f32⟩
  | .hbm, ⟨62, _⟩ => ⟨S_, .f32⟩
  | .hbm, ⟨63, _⟩ => ⟨S100000x128, .f32⟩
  | .hbm, ⟨64, _⟩ => ⟨S1600000x1, .i32⟩
  | .hbm, ⟨65, _⟩ => ⟨S100000x128, .f32⟩
  | .hbm, ⟨66, _⟩ => ⟨S100000x1, .f32⟩
  | .hbm, ⟨67, _⟩ => ⟨S1x128, .f32⟩
  | .hbm, ⟨68, _⟩ => ⟨S100000x128, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x128, .f32⟩
  | .hbm, ⟨81, _⟩ => ⟨S_, .f32⟩
  | .hbm, ⟨82, _⟩ => ⟨S100000x128, .f32⟩
  | .hbm, ⟨83, _⟩ => ⟨S1600000x1, .i32⟩
  | .hbm, ⟨84, _⟩ => ⟨S100000x128, .f32⟩
  | .hbm, ⟨85, _⟩ => ⟨S100000x1, .f32⟩
  | .hbm, ⟨86, _⟩ => ⟨S1x128, .f32⟩
  | .hbm, ⟨87, _⟩ => ⟨S1x128, .f32⟩
  | .hbm, ⟨88, _⟩ => ⟨S1x128, .f32⟩
  | .hbm, ⟨89, _⟩ => ⟨S1x128, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S128x128, .f32⟩
  | .local _ .vmem, ⟨5, _⟩ => ⟨S1x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x1, .f32⟩
  | .local _ .vmem, ⟨11, _⟩ => ⟨S4000x1, .f32⟩
  | .local _ .vmem, ⟨12, _⟩ => ⟨S128x128, .f32⟩
  | .local _ .vmem, ⟨13, _⟩ => ⟨S1x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x1, .f32⟩
  | .local _ .vmem, ⟨19, _⟩ => ⟨S4000x1, .f32⟩
  | .local _ .vmem, ⟨20, _⟩ => ⟨S1x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_cst_4 : Ref sig .tc := ⟨.hbm, 25, rfl⟩
abbrev main_v11 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_6 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_c_9 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_10 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_11 : Ref sig .tc := ⟨.hbm, 72, rfl⟩
abbrev main_v50 : Ref sig .tc := ⟨.hbm, 73, rfl⟩
abbrev main_v51 : Ref sig .tc := ⟨.hbm, 74, rfl⟩
abbrev main_c_12 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_13 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S100000_S100000x1 : S100000.ShapeCasts S100000x1
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S128 : S4000x128.Reduces [0] S128
  bcast_S128_S1x128_1 : S128.BroadcastsInDim S1x128 (![1] : Fin 1 → Fin S1x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S1x128_S128x128_S1x128_1_0_0_1_n_n_wf : DotDims.WF S1x128 S128x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .f32 = 32 ∨ (Rect.block (s := S100000x128) S4000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .f32 = 32 ∨ (Rect.block (s := S100000x128) S4000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf

abbrev win0_0 : Pipeline.Window sig grid0 :=
  Pipeline.Window.ofSpec (Memref.whole main_v27) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v43) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v59) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v61) S1x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩

abbrev nBuf : Space → Nat
  | .hbm => 112
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S100000x1, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S_, .f32⟩
  | .hbm, ⟨55, _⟩ => ⟨S100000x128, .f32⟩
  | .hbm, ⟨56, _⟩ => ⟨S100000x128, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x128, .f32⟩
  | .hbm, ⟨69, _⟩ => ⟨S_, .f32⟩
  | .hbm, ⟨70, _⟩ => ⟨S100000x128, .f32⟩
  | .hbm, ⟨71, _⟩ => ⟨S1600000x1, .i32⟩
  | .hbm, ⟨72, _⟩ => ⟨S100000x128, .f32⟩
  | .hbm, ⟨73, _⟩ => ⟨S100000x1, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S100000x128, .f32⟩
  | .hbm, ⟨82, _⟩ => ⟨S100000x128, .f32⟩
  | .hbm, ⟨83, _⟩ => ⟨S100000x1, .f32⟩
  | .hbm, ⟨84, _⟩ => ⟨S100000x128, .f32⟩
  | .hbm, ⟨85, _⟩ => ⟨S100000x128, .f32⟩
  | .hbm, ⟨86, _⟩ => ⟨S_, .i32⟩
  | .hbm, ⟨87, _⟩ => ⟨S1600000, .i32⟩
  | .hbm, ⟨88, _⟩ => ⟨S1600000, .i1⟩
  | .hbm, ⟨89, _⟩ => ⟨S_, .i32⟩
  | .hbm, ⟨90, _⟩ => ⟨S1600000, .i32⟩
  | .hbm, ⟨91, _⟩ => ⟨S1600000, .i32⟩
  | .hbm, ⟨92, _⟩ => ⟨S1600000, .i32⟩
  | .hbm, ⟨93, _⟩ => ⟨S1600000x1, .i32⟩
  | .hbm, ⟨94, _⟩ => ⟨S1600000x128, .f32⟩
  | .hbm, ⟨95, _⟩ => ⟨S_, .f32⟩
  | .hbm, ⟨96, _⟩ => ⟨S100000x128, .f32⟩
  | .hbm, ⟨97, _⟩ => ⟨S1600000x1, .i32⟩
  | .hbm, ⟨98, _⟩ => ⟨S100000x128, .f32⟩
  | .hbm, ⟨99, _⟩ => ⟨S100000x1, .f32⟩
  | .hbm, ⟨100, _⟩ => ⟨S100000x128, .f32⟩
  | .hbm, ⟨101, _⟩ => ⟨S100000x128, .f32⟩
  | .hbm, ⟨102, _⟩ => ⟨S100000x128, .f32⟩
  | .hbm, ⟨103, _⟩ => ⟨S1x128, .f32⟩
  | .hbm, ⟨104, _⟩ => ⟨S100000x128, .f32⟩
  | .hbm, ⟨105, _⟩ => ⟨S100000x128, .f32⟩
  | .hbm, ⟨106, _⟩ => ⟨S_, .f32⟩
  | .hbm, ⟨107, _⟩ => ⟨S128, .f32⟩
  | .hbm, ⟨108, _⟩ => ⟨S1x128, .f32⟩
  | .hbm, ⟨109, _⟩ => ⟨S_, .f32⟩
  | .hbm, ⟨110, _⟩ => ⟨S1x128, .f32⟩
  | .hbm, ⟨111, _⟩ => ⟨S1x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_cst_4 : Ref sig .tc := ⟨.hbm, 25, rfl⟩
abbrev main_v11 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_6 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call0_cst : Ref sig .tc := ⟨.hbm, 54, rfl⟩
abbrev main_call0_v0 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_8 : Ref sig .tc := ⟨.hbm, 60, rfl⟩
abbrev main_v39 : Ref sig .tc := ⟨.hbm, 61, rfl⟩
abbrev main_v40 : Ref sig .tc := ⟨.hbm, 62, rfl⟩
abbrev main_c_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_call1_cst : Ref sig .tc := ⟨.hbm, 80, rfl⟩
abbrev main_call1_v0 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c_11 : Ref sig .tc := ⟨.hbm, 86, rfl⟩
abbrev main_v60 : Ref sig .tc := ⟨.hbm, 87, rfl⟩
abbrev main_v61 : Ref sig .tc := ⟨.hbm, 88, rfl⟩
abbrev main_c_12 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_13 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_14 : Ref sig .tc := ⟨.hbm, 106, rfl⟩
abbrev main_v77 : Ref sig .tc := ⟨.hbm, 107, rfl⟩
abbrev main_v78 : Ref sig .tc := ⟨.hbm, 108, rfl⟩
abbrev main_cst_15 : Ref sig .tc := ⟨.hbm, 109, rfl⟩
abbrev main_v79 : Ref sig .tc := ⟨.hbm, 110, rfl⟩
abbrev main_v80 : Ref sig .tc := ⟨.hbm, 111, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S1x128 : S_.BroadcastsInDim S1x128 (![] : Fin 0 → Fin S1x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KRun.lean ====
/-
  The idealized kernel's run with its result named: every weakly fair execution of the program ends with the
  result array at what the last stretch of host operations leaves there, and the argument arrays as launched.
  The contents at each boundary between a stretch of host operations and a kernel region are the fold the frame
  walks: `W7` at the result's buffer is the value the later modules read back, stretch by stretch and region by region.
-/
import proofs.«109770_j54692113547689_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the program over its seven segments, the final state read at the result's buffer as well as at the
    arguments': the result holds the last boundary's contents `W7`, each argument its launch contents. -/
theorem run_named : θ_run defs (onTc (τ := τ) (main (F := F))) ⟨m, fun _ => 0, ρ⟩ (fun r => ∀ c : Dev nD,
      r.2.mem ((c.tc : Thread nD τ).loc main_v64) = W7 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v64 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)

end Cert.KernelIdeal.Hand

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibBiasDot.lean ====
/-
  A matrix product with a bias row added, read at one entry.

  The linear-layer body that many kernels share: an `M × K` by `K × N` product into the zero accumulator, plus a
  bias vector of length `N` viewed as a `1 × N` row and repeated down the `M` rows. At the ideal values its entry at
  row `p`, column `q` is the sum over `k` of the left operand at `(p, k)` times the right operand at `(k, q)`, plus
  the bias at `q`. `lin` names that whole-array function.
-/
import Idealize.ShloMosaic.Lib.ValueIdx
import Idealize.ShloMosaic.Lib.Pipeline.Value
import Idealize.ShloMosaic.PureOps.Ideal.Laws
import proofs.«109770_j54692113547689_1_alg».proof.Proof.LibPlainDot

noncomputable section

open scoped BigOperators

namespace Cert.Lib.BiasDot

open Idealize.ShloMosaic Idealize.ShloMosaic.ValueIdx

variable {M K N : Nat}

/-- The linear layer as one function of its three arrays: entry `(p, q)` is `∑ k, A (p, k) · W (k, q) + b q`. -/
def lin (A : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun i => (∑ k : Fin K, A (ix2 (i 0) k) * W (ix2 k (i 1))) + b (ix1 (i 1))

theorem lin_apply (A : (⟨2, ![M, K]⟩ : Shape).Idx → EReal) (W : (⟨2, ![K, N]⟩ : Shape).Idx → EReal)
    (b : (⟨1, ![N]⟩ : Shape).Idx → EReal) (p : Fin M) (q : Fin N) :
    lin A W b (ix2 p q) = (∑ k : Fin K, A (ix2 p k) * W (ix2 k q)) + b (ix1 q) := rfl

/-- A vector of length `N` viewed as a `1 × N` row and repeated down `M` rows reads, at `(p, q)`, the vector at `q`. -/
theorem rowBroadcast_apply {α : Type} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) := by
  refine (broadcastTo_apply _ hb (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine (shapeCast_addUnit_apply ![N] b hc (ix2 (0 : Fin 1) q)).trans (congrArg b ?_)
    funext a
    match a with
    | ⟨0, _⟩ => rfl

/-- The product into zero plus the repeated bias row, at entry `(p, q)`. -/
theorem biasDot_apply {φ₁ φ₂ : FTy} (prec : Option ContractPrecision)
    (l : FVec Ideal ⟨2, ![M, K]⟩ φ₁) (r : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    addf (FloatOps.matmul (DotDims.plain M K N) prec l r (constant ⟨2, ![M, N]⟩ .f32 0x00000000#32))
        (broadcastTo ⟨2, ![M, N]⟩ (shapeCast ⟨2, ![1, N]⟩ b hc) hb) (ix2 p q)
      = (∑ k : Fin K, l (ix2 p k) * r (ix2 k q)) + b (ix1 q) := by
  rw [addf_apply, Cert.Lib.PlainDot.matmul_zero_apply, rowBroadcast_apply]

end Cert.Lib.BiasDot

end
-- ==== Proof.LibDense.lean ====
/-
  The dense layers of the network as whole-array functions on the extended reals, and the host's spelling of each.

  A matrix with `M` rows and `N` columns is a function of its two coordinates. The layers are: a product plus a bias
  row (`lin`, from the bias-and-product module), the same with the contraction split over two pairs of operands
  (`lin2`), the plain product (`mm`), adding a row to every row of a matrix (`addRow`), and the positive part
  (`relu`). The host writes a layer as a `dot_general`, the bias broadcast in two steps to the matrix's shape,
  an addition, and a maximum with a broadcast zero; entry by entry these are the functions above.

  Two identities join the kernel's arrangement to the host's. A product whose left operand is two blocks set side by
  side, against a weight matrix, is the sum of the two blocks' products against the matching row ranges of the weight:
  the sum over the contraction index splits at the seam, which needs only that addition of extended reals is
  associative and commutative. And a product plus a row of zeros is the product.
-/
import Idealize.ShloMosaic.Lib.ValueIdx
import Idealize.ShloMosaic.Lib.Pipeline.Value
import Idealize.ShloMosaic.PureOps.Ideal.Laws
import proofs.«109770_j54692113547689_1_alg».proof.Proof.LibBiasDot

noncomputable section

open scoped BigOperators

namespace Cert.Lib.Dense

open Idealize.ShloMosaic Idealize.ShloMosaic.ValueIdx Cert.Lib.BiasDot

variable {M K K' N : Nat}

/-- The positive part, entry by entry. -/
def relu {s : Shape} (f : s.Idx → EReal) : s.Idx → EReal := fun i => max (f i) 0

/-- A row added to every row of a matrix. -/
def addRow (X : (⟨2, ![M, N]⟩ : Shape).Idx → EReal) (B : (⟨1, ![N]⟩ : Shape).Idx → EReal) :
    (⟨2, ![M, N]⟩ : Shape).Idx → EReal := fun i => X i + B (ix1 (i 1))

/-- The plain product: entry `(p, q)` is `∑ k, A (p, k) · W (k, q)`. -/
def mm (A : (⟨2, ![M, K]⟩ : Shape).Idx → EReal) (W : (⟨2, ![K, N]⟩ : Shape).Idx → EReal) :
    (⟨2, ![M, N]⟩ : Shape).Idx → EReal := fun i => ∑ k : Fin K, A (ix2 (i 0) k) * W (ix2 k (i 1))

/-- Two products added, plus a bias row: entry `(p, q)` is `∑ k, A (p, k) · Wa (k, q) + ∑ k, C (p, k) · Wb (k, q) + b q`. -/
def lin2 (A : (⟨2, ![M, K]⟩ : Shape).Idx → EReal) (Wa : (⟨2, ![K, N]⟩ : Shape).Idx → EReal)
    (C : (⟨2, ![M, K']⟩ : Shape).Idx → EReal) (Wb : (⟨2, ![K', N]⟩ : Shape).Idx → EReal)
    (B : (⟨1, ![N]⟩ : Shape).Idx → EReal) : (⟨2, ![M, N]⟩ : Shape).Idx → EReal :=
  fun i => ((∑ k : Fin K, A (ix2 (i 0) k) * Wa (ix2 k (i 1))) + (∑ k : Fin K', C (ix2 (i 0) k) * Wb (ix2 k (i 1))))
    + B (ix1 (i 1))

/-! ## The host's spelling, read at an entry -/

/-- A vector of length `N` broadcast to a `1 × N` row and then down `M` rows reads, at `(p, q)`, the vector at `q`. -/
theorem hostRow_apply {α : Type} (B : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 B) (ix2 p q) = B (ix1 q) := by
  refine (broadcastInDim_apply ![0, 1] h2 _ (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine broadcastInDim_apply ![1] h1 B (ix2 (0 : Fin 1) q) (ix1 q) (fun a => ?_)
    match a with
    | ⟨0, _⟩ =>
      show q.val = if N = 1 then 0 else q.val
      split
      · have := q.isLt; omega
      · rfl

/-- The zero scalar broadcast to any shape is zero everywhere. -/
theorem hostZero_apply {t : Shape} (dims : Fin 0 → Fin t.rank) (h : (⟨0, ![]⟩ : Shape).BroadcastsInDim t dims) (j : t.Idx) :
    broadcastInDim t dims h (constant (F := Ideal) ⟨0, ![]⟩ .f32 0x00000000#32) j = 0 := by
  refine (broadcastInDim_apply (s := ⟨0, ![]⟩) dims h _ j (fun a => a.elim0) (fun a => a.elim0)).trans ?_
  rw [constant_apply, Ideal.ofBits_zero_f32]

/-- The host's linear layer with the positive part: product, bias broadcast in two steps, sum, maximum with zero. -/
theorem host_lin_relu (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none X W)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin X W B) := by
  subst hd
  funext i
  obtain ⟨p, q, rfl⟩ : ∃ (p : Fin M) (q : Fin N), i = ix2 p q := ⟨i 0, i 1, eq_ix2 i⟩
  rw [maximumf_apply, addf_apply, hostZero_apply, hostRow_apply]
  exact congrArg (fun z => max (z + B (ix1 q)) 0) (Cert.Lib.PlainDot.dotGeneral_apply none _ X W p q)

/-- The host's bias-and-positive-part layer. -/
theorem host_addRow_relu (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf X (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (addRow X B) := by
  funext i
  obtain ⟨p, q, rfl⟩ : ∃ (p : Fin M) (q : Fin N), i = ix2 p q := ⟨i 0, i 1, eq_ix2 i⟩
  rw [maximumf_apply, addf_apply, hostZero_apply, hostRow_apply]
  rfl

/-- The host's bias layer. -/
theorem host_addRow (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 B)) = addRow X B := by
  funext i
  obtain ⟨p, q, rfl⟩ : ∃ (p : Fin M) (q : Fin N), i = ix2 p q := ⟨i 0, i 1, eq_ix2 i⟩
  rw [addf_apply, hostRow_apply]
  rfl

/-- The host's plain product. -/
theorem host_mm (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) :
    Host.dotGeneral d none X W = mm X W := by
  subst hd
  funext i
  obtain ⟨p, q, rfl⟩ : ∃ (p : Fin M) (q : Fin N), i = ix2 p q := ⟨i 0, i 1, eq_ix2 i⟩
  exact Cert.Lib.PlainDot.dotGeneral_apply none _ X W p q

/-! ## A left operand of two blocks side by side -/

section Concat

variable (A : (⟨2, ![M, K]⟩ : Shape).Idx → EReal) (C : (⟨2, ![M, K']⟩ : Shape).Idx → EReal)
  (Wc : (⟨2, ![K + K', N]⟩ : Shape).Idx → EReal)
  (hcat : Shape.Concatenates [(⟨2, ![M, K]⟩ : Shape), ⟨2, ![M, K']⟩] ⟨2, ![M, K + K']⟩ 1)
  (hs1 : (⟨2, ![K + K', N]⟩ : Shape).Slices ![0, 0] ⟨2, ![K, N]⟩)
  (hs2 : (⟨2, ![K + K', N]⟩ : Shape).Slices ![K, 0] ⟨2, ![K', N]⟩)

/-- Left of the seam the two blocks set side by side read the first block. -/
theorem concat_left (p : Fin M) (k : Fin K) :
    concatenate ⟨2, ![M, K + K']⟩ 1 [⟨⟨2, ![M, K]⟩, A⟩, ⟨⟨2, ![M, K']⟩, C⟩] hcat (ix2 p (Fin.castAdd K' k)) = A (ix2 p k) :=
  concatenate_pair_apply_left 1 A C hcat _ rfl (ix2 p k) (fun b => by
    match b with
    | ⟨0, _⟩ => rfl
    | ⟨1, _⟩ => rfl)

/-- Right of the seam they read the second block, the column counted from the seam. -/
theorem concat_right (p : Fin M) (k : Fin K') :
    concatenate ⟨2, ![M, K + K']⟩ 1 [⟨⟨2, ![M, K]⟩, A⟩, ⟨⟨2, ![M, K']⟩, C⟩] hcat (ix2 p (Fin.natAdd K k)) = C (ix2 p k) :=
  concatenate_pair_apply_right 1 A C hcat _ rfl rfl (ix2 p k) (fun b hb => by
    match b, hb with
    | ⟨0, _⟩, _ => rfl
    | ⟨1, _⟩, h => exact absurd rfl h) (by show k.val + K = K + k.val; omega)

/-- The first `K` rows of the weight. -/
theorem slice_top (k : Fin K) (q : Fin N) :
    extractStridedSlice ⟨2, ![K, N]⟩ ![0, 0] Wc hs1 (ix2 k q) = Wc (ix2 (Fin.castAdd K' k) q) :=
  extractStridedSlice_apply ![0, 0] Wc hs1 (ix2 k q) (ix2 (Fin.castAdd K' k) q) (fun a => by
    match a with
    | ⟨0, _⟩ => show k.val = 0 + k.val; omega
    | ⟨1, _⟩ => show q.val = 0 + q.val; omega)

/-- The last `K'` rows of the weight. -/
theorem slice_bot (k : Fin K') (q : Fin N) :
    extractStridedSlice ⟨2, ![K', N]⟩ ![K, 0] Wc hs2 (ix2 k q) = Wc (ix2 (Fin.natAdd K k) q) :=
  extractStridedSlice_apply ![K, 0] Wc hs2 (ix2 k q) (ix2 (Fin.natAdd K k) q) (fun a => by
    match a with
    | ⟨0, _⟩ => show K + k.val = K + k.val; rfl
    | ⟨1, _⟩ => show q.val = 0 + q.val; omega)

/-- The sum over the contraction index of the side-by-side operand against the weight splits at the seam into the two
    blocks' sums against the two row ranges of the weight. -/
theorem sum_concat (p : Fin M) (q : Fin N) :
    (∑ k : Fin (K + K'), concatenate ⟨2, ![M, K + K']⟩ 1 [⟨⟨2, ![M, K]⟩, A⟩, ⟨⟨2, ![M, K']⟩, C⟩] hcat (ix2 p k) * Wc (ix2 k q))
      = (∑ k : Fin K, A (ix2 p k) * extractStridedSlice ⟨2, ![K, N]⟩ ![0, 0] Wc hs1 (ix2 k q))
        + (∑ k : Fin K', C (ix2 p k) * extractStridedSlice ⟨2, ![K', N]⟩ ![K, 0] Wc hs2 (ix2 k q)) := by
  rw [Fin.sum_univ_add]
  refine congrArg₂ (· + ·) (Finset.sum_congr rfl fun k _ => ?_) (Finset.sum_congr rfl fun k _ => ?_)
  · rw [concat_left, slice_top]
  · rw [concat_right, slice_bot]

end Concat

/-- The host's second layer: the side-by-side operand against the whole weight, bias, positive part — is the two-product
    layer of the two blocks against the two row ranges of the weight. -/
theorem host_concat_lin2_relu {Kt : Nat} (hK : Kt = K + K')
    (d : DotDims ⟨2, ![M, Kt]⟩ ⟨2, ![Kt, N]⟩ ⟨2, ![M, N]⟩) (hd : d = hK ▸ DotDims.plain M (K + K') N)
    (A : FVec Ideal ⟨2, ![M, K]⟩ .f32) (C : FVec Ideal ⟨2, ![M, K']⟩ .f32) (Wc : FVec Ideal ⟨2, ![Kt, N]⟩ .f32)
    (B : FVec Ideal ⟨1, ![N]⟩ .f32)
    (hcat : Shape.Concatenates [(⟨2, ![M, K]⟩ : Shape), ⟨2, ![M, K']⟩] ⟨2, ![M, Kt]⟩ 1)
    (hs1 : (⟨2, ![Kt, N]⟩ : Shape).Slices ![0, 0] ⟨2, ![K, N]⟩)
    (hs2 : (⟨2, ![Kt, N]⟩ : Shape).Slices ![K, 0] ⟨2, ![K', N]⟩)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none
          (concatenate ⟨2, ![M, Kt]⟩ 1 [⟨⟨2, ![M, K]⟩, A⟩, ⟨⟨2, ![M, K']⟩, C⟩] hcat) Wc)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin2 A (extractStridedSlice ⟨2, ![K, N]⟩ ![0, 0] Wc hs1) C (extractStridedSlice ⟨2, ![K', N]⟩ ![K, 0] Wc hs2) B) := by
  subst hK
  subst hd
  funext i
  obtain ⟨p, q, rfl⟩ : ∃ (p : Fin M) (q : Fin N), i = ix2 p q := ⟨i 0, i 1, eq_ix2 i⟩
  rw [maximumf_apply, addf_apply, hostZero_apply, hostRow_apply]
  refine congrArg (fun z => max (z + B (ix1 q)) 0) ?_
  exact (Cert.Lib.PlainDot.dotGeneral_apply none _ _ Wc p q).trans (sum_concat A C Wc hcat hs1 hs2 p q)

/-! ## A zero bias row -/

/-- A product plus a row of zeros is the product. -/
theorem lin_zero (X : (⟨2, ![M, K]⟩ : Shape).Idx → EReal) (W : (⟨2, ![K, N]⟩ : Shape).Idx → EReal)
    (Z : (⟨1, ![N]⟩ : Shape).Idx → EReal) (hZ : ∀ j, Z j = 0) : lin X W Z = mm X W := by
  funext i
  show (∑ k : Fin K, X (ix2 (i 0) k) * W (ix2 k (i 1))) + Z (ix1 (i 1)) = _
  rw [hZ, add_zero]
  rfl

end Cert.Lib.Dense

end
-- ==== Proof.LibRowLayers.lean ====
/-
  The two dense layers a vector unit computes on a block of rows, as whole-array functions on the extended reals.

  A block of `M` rows with `K` features, a `K × N` weight and a `1 × N` bias row give `relu (x · W + b)`: entry
  `(p, q)` is the larger of `0` and `∑ k, x (p, k) · W (k, q) + b (0, q)`. The narrowing of the operands to a shorter float
  format before the product is the identity on extended reals, the product accumulates into zero, and the bias row is
  repeated down the rows. A second product and bias on top of that, without the positive part, gives the output layer.

  An entry of either layer depends on one row of the block only, so a block of rows of a taller array computes the
  same entries as the layer of the whole array at those rows.
-/
import Idealize.ShloMosaic.Lib.ValueIdx
import Idealize.ShloMosaic.Lib.Pipeline.Value
import Idealize.ShloMosaic.PureOps.Ideal.Laws
import proofs.«109770_j54692113547689_1_alg».proof.Proof.LibDense

noncomputable section

open scoped BigOperators

namespace Cert.Lib.RowLayers

open Idealize.ShloMosaic Idealize.ShloMosaic.ValueIdx Cert.Lib.BiasDot Cert.Lib.Dense

variable {m M K N N' : Nat}

/-- A `1 × N` row read as a vector of length `N`. -/
def rowVec (R : (⟨2, ![1, N]⟩ : Shape).Idx → EReal) : (⟨1, ![N]⟩ : Shape).Idx → EReal :=
  fun j => R (ix2 (0 : Fin 1) (j 0))

/-- A vector of length `N` reshaped to a `1 × N` row and read back as a vector is the vector. -/
theorem rowVec_reshape (b : (⟨1, ![N]⟩ : Shape).Idx → EReal) (hc : (⟨1, ![N]⟩ : Shape).ShapeCasts ⟨2, ![1, N]⟩) :
    rowVec (shapeCast ⟨2, ![1, N]⟩ b hc) = b := by
  funext j
  refine (shapeCast_addUnit_apply ![N] b hc (ix2 (0 : Fin 1) (j 0))).trans (congrArg b ?_)
  funext a
  match a with
  | ⟨0, _⟩ => rfl

/-- A `1 × N` row repeated down `M` rows reads, at `(p, q)`, the row at `q`. -/
theorem rowRepeat_apply {α : Type} (R : (⟨2, ![1, N]⟩ : Shape).Idx → α)
    (hc : (⟨2, ![1, N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ R hc) hb (ix2 p q) = R (ix2 (0 : Fin 1) q) := by
  rw [shapeCast_self]
  refine broadcastTo_apply _ hb (ix2 p q) (ix2 (0 : Fin 1) q) (fun a => ?_)
  match a with
  | ⟨0, _⟩ => exact (if_pos rfl).symm
  | ⟨1, _⟩ =>
    show q.val = if N = 1 then 0 else q.val
    split
    · have := q.isLt; omega
    · rfl

/-- The product into zero plus the repeated bias row is the linear layer of the block, the weight and the row. -/
theorem linLayer_eq (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32) (x2 : FVec Ideal ⟨2, ![1, N]⟩ .f32)
    (hb0 hb1 : FTy.bf16.bits < FTy.f32.bits)
    (h2 : (⟨2, ![1, N]⟩ : Shape).ShapeCasts ⟨2, ![1, N]⟩) (hbr : (⟨2, ![1, N]⟩ : Shape).Broadcasts ⟨2, ![M, N]⟩) :
    addf (FloatOps.matmul d none (truncf .bf16 x0 hb0) (truncf .bf16 x1 hb1) (constant ⟨2, ![M, N]⟩ .f32 0x00000000#32))
        (broadcastTo ⟨2, ![M, N]⟩ (shapeCast ⟨2, ![1, N]⟩ x2 h2) hbr)
      = lin x0 x1 (rowVec x2) := by
  subst hd
  funext i
  obtain ⟨p, q, rfl⟩ : ∃ (p : Fin M) (q : Fin N), i = ix2 p q := ⟨i 0, i 1, eq_ix2 i⟩
  rw [addf_apply, rowRepeat_apply, Cert.Lib.PlainDot.matmul_zero_apply]
  rfl

/-- The same followed by the maximum with a splat zero is the positive part of the linear layer. -/
theorem reluLayer_eq (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32) (x2 : FVec Ideal ⟨2, ![1, N]⟩ .f32)
    (hb0 hb1 : FTy.bf16.bits < FTy.f32.bits)
    (h2 : (⟨2, ![1, N]⟩ : Shape).ShapeCasts ⟨2, ![1, N]⟩) (hbr : (⟨2, ![1, N]⟩ : Shape).Broadcasts ⟨2, ![M, N]⟩) :
    maximumf (addf (FloatOps.matmul d none (truncf .bf16 x0 hb0) (truncf .bf16 x1 hb1) (constant ⟨2, ![M, N]⟩ .f32 0x00000000#32))
        (broadcastTo ⟨2, ![M, N]⟩ (shapeCast ⟨2, ![1, N]⟩ x2 h2) hbr))
      (broadcast ⟨2, ![M, N]⟩ (Scalar.ofBits (F := Ideal) .f32 0x00000000#32))
      = relu (lin x0 x1 (rowVec x2)) := by
  rw [linLayer_eq d hd x0 x1 x2 hb0 hb1 h2 hbr]
  funext i
  rw [maximumf_apply, broadcast_apply]
  show max _ (Ideal.ofBits .f32 0x00000000#32) = _
  rw [Ideal.ofBits_zero_f32]
  rfl

/-- The first layer on a block of rows is the first layer of the whole array at those rows: entry `j` of the block's
    layer is entry `i` of the array's when the block's row `j 0` is the array's row `i 0` and the columns agree. -/
theorem layer_block (x0 : (⟨2, ![m, K]⟩ : Shape).Idx → EReal) (x1 : (⟨2, ![K, N]⟩ : Shape).Idx → EReal)
    (x2 : (⟨2, ![1, N]⟩ : Shape).Idx → EReal)
    (A : (⟨2, ![M, K]⟩ : Shape).Idx → EReal) (W : (⟨2, ![K, N]⟩ : Shape).Idx → EReal) (R : (⟨2, ![1, N]⟩ : Shape).Idx → EReal)
    (j : (⟨2, ![m, N]⟩ : Shape).Idx) (i : (⟨2, ![M, N]⟩ : Shape).Idx)
    (h0 : ∀ k : Fin K, x0 (ix2 (j 0) k) = A (ix2 (i 0) k)) (h1 : ∀ k : Fin K, x1 (ix2 k (j 1)) = W (ix2 k (i 1)))
    (h2 : x2 (ix2 (0 : Fin 1) (j 1)) = R (ix2 (0 : Fin 1) (i 1))) :
    relu (lin x0 x1 (rowVec x2)) j = relu (lin A W (rowVec R)) i := by
  show max ((∑ k : Fin K, x0 (ix2 (j 0) k) * x1 (ix2 k (j 1))) + x2 (ix2 (0 : Fin 1) (j 1))) 0
    = max ((∑ k : Fin K, A (ix2 (i 0) k) * W (ix2 k (i 1))) + R (ix2 (0 : Fin 1) (i 1))) 0
  rw [h2]
  exact congrArg (fun z => max (z + R (ix2 (0 : Fin 1) (i 1))) 0) (Finset.sum_congr rfl fun k _ => by rw [h0 k, h1 k])

/-- The two layers on a block of rows are the two layers of the whole array at those rows. -/
theorem head_block (x0 : (⟨2, ![m, K]⟩ : Shape).Idx → EReal) (x1 : (⟨2, ![K, N]⟩ : Shape).Idx → EReal)
    (x2 : (⟨2, ![1, N]⟩ : Shape).Idx → EReal) (x3 : (⟨2, ![N, N']⟩ : Shape).Idx → EReal) (x4 : (⟨2, ![1, N']⟩ : Shape).Idx → EReal)
    (A : (⟨2, ![M, K]⟩ : Shape).Idx → EReal) (W : (⟨2, ![K, N]⟩ : Shape).Idx → EReal) (R : (⟨2, ![1, N]⟩ : Shape).Idx → EReal)
    (W' : (⟨2, ![N, N']⟩ : Shape).Idx → EReal) (R' : (⟨2, ![1, N']⟩ : Shape).Idx → EReal)
    (j : (⟨2, ![m, N']⟩ : Shape).Idx) (i : (⟨2, ![M, N']⟩ : Shape).Idx)
    (h0 : ∀ k : Fin K, x0 (ix2 (j 0) k) = A (ix2 (i 0) k)) (h1 : x1 = W) (h2 : x2 = R)
    (h3 : ∀ k : Fin N, x3 (ix2 k (j 1)) = W' (ix2 k (i 1)))
    (h4 : x4 (ix2 (0 : Fin 1) (j 1)) = R' (ix2 (0 : Fin 1) (i 1))) :
    lin (relu (lin x0 x1 (rowVec x2))) x3 (rowVec x4) j = lin (relu (lin A W (rowVec R))) W' (rowVec R') i := by
  subst h1
  subst h2
  show (∑ k : Fin N, relu (lin x0 x1 (rowVec x2)) (ix2 (j 0) k) * x3 (ix2 k (j 1))) + x4 (ix2 (0 : Fin 1) (j 1))
    = (∑ k : Fin N, relu (lin A x1 (rowVec x2)) (ix2 (i 0) k) * W' (ix2 k (i 1))) + R' (ix2 (0 : Fin 1) (i 1))
  rw [h4]
  refine congrArg (fun z => z + R' (ix2 (0 : Fin 1) (i 1))) (Finset.sum_congr rfl fun k _ => ?_)
  rw [h3 k]
  exact congrArg (fun z => z * W' (ix2 k (i 1)))
    (layer_block x0 x1 x2 A x1 x2 (ix2 (j 0) k) (ix2 (i 0) k) h0 (fun _ => rfl) rfl)

end Cert.Lib.RowLayers

end
-- ==== Proof.LibGnnLayers.lean ====
/-
  The layers of a degree-normalised graph network as whole-array functions on the extended reals.

  A matrix with `M` rows and `N` columns is a function of its two coordinates. A node's row is transformed by a
  dense layer whose weight is stored by OUTPUT rows (`x · Wᵀ + b`): entry `(p, q)` is `∑ k, X (p, k) · W (q, k) + b q`.
  The deeper layers take the row-wise concatenation of all earlier activations, so their weight has `256` or `384`
  columns; the sum over the concatenated axis splits at the seams into one sum of `128` terms per block
  (`dense2`, `dense3`), which needs only that addition of extended reals is associative — no finiteness.

  Around the dense part a layer scales every row by that node's factor (`scaleRows`: `H (p, q) · s p`) and joins the
  aggregated messages `A` with the dense part `L` as `A · s + s₂ · L` row by row (`combine`).

  `lin3` is the three-product companion of the two-product layer: three products with weights stored by input rows,
  added left to right, plus a bias vector.
-/
import Idealize.ShloMosaic.Lib.ValueIdx
import Idealize.ShloMosaic.PureOps.Ideal.Laws
import proofs.«109770_j54692113547689_1_alg».proof.Proof.LibRowLayers

noncomputable section

open scoped BigOperators

namespace Cert.Gnn

open Idealize.ShloMosaic Idealize.ShloMosaic.ValueIdx

variable {M K K' K'' N : Nat}

/-- An `a × b` matrix of extended reals. -/
abbrev Mat (a b : Nat) : Type := (⟨2, ![a, b]⟩ : Shape).Idx → EReal
/-- A vector of `a` extended reals. -/
abbrev Vect (a : Nat) : Type := (⟨1, ![a]⟩ : Shape).Idx → EReal

/-- Every row of `H` times that row's entry of the column `s`. -/
def scaleRows (H : Mat M N) (s : Mat M 1) : Mat M N := fun i => H i * s (ix2 (i 0) (0 : Fin 1))

/-- The aggregated messages and the dense part joined row by row: `A · s + s₂ · L`. -/
def combine (A : Mat M N) (s s2 : Mat M 1) (L : Mat M N) : Mat M N :=
  fun i => A i * s (ix2 (i 0) (0 : Fin 1)) + s2 (ix2 (i 0) (0 : Fin 1)) * L i

/-- Three products added left to right, plus a bias vector (weights stored by input rows). -/
def lin3 (A : Mat M K) (Wa : Mat K N) (C : Mat M K') (Wb : Mat K' N) (E : Mat M K'') (Wc : Mat K'' N) (B : Vect N) :
    Mat M N :=
  fun i => (((∑ k : Fin K, A (ix2 (i 0) k) * Wa (ix2 k (i 1))) + (∑ k : Fin K', C (ix2 (i 0) k) * Wb (ix2 k (i 1))))
      + (∑ k : Fin K'', E (ix2 (i 0) k) * Wc (ix2 k (i 1)))) + B (ix1 (i 1))

/-- The dense layer with its weight stored by output rows: `∑ k, X (p, k) · W (q, k) + b q`. -/
def dense1 (X : Mat M K) (W : Mat N K) (b : Vect N) : Mat M N :=
  fun i => (∑ k : Fin K, X (ix2 (i 0) k) * W (ix2 (i 1) k)) + b (ix1 (i 1))

/-- Column `k` of the first block of a 256- or 384-column weight. -/
abbrev col0 {n : Nat} (h : 128 ≤ n) (k : Fin 128) : Fin n := ⟨k.val, Nat.lt_of_lt_of_le k.isLt h⟩
/-- Column `128 + k`: the second block. -/
abbrev col1 {n : Nat} (h : 256 ≤ n) (k : Fin 128) : Fin n :=
  ⟨128 + k.val, Nat.lt_of_lt_of_le (Nat.add_lt_add_left k.isLt 128) h⟩
/-- Column `256 + k`: the third block. -/
abbrev col2 {n : Nat} (h : 384 ≤ n) (k : Fin 128) : Fin n :=
  ⟨256 + k.val, Nat.lt_of_lt_of_le (Nat.add_lt_add_left k.isLt 256) h⟩

/-- The dense layer on two blocks of 128 features against a 256-column weight stored by output rows. -/
def dense2 (X Y : Mat M 128) (W : Mat N 256) (b : Vect N) : Mat M N :=
  fun i => ((∑ k : Fin 128, X (ix2 (i 0) k) * W (ix2 (i 1) (col0 (by decide) k)))
      + (∑ k : Fin 128, Y (ix2 (i 0) k) * W (ix2 (i 1) (col1 (by decide) k)))) + b (ix1 (i 1))

/-- The dense layer on three blocks of 128 features against a 384-column weight stored by output rows. -/
def dense3 (X Y Z : Mat M 128) (W : Mat N 384) (b : Vect N) : Mat M N :=
  fun i => (((∑ k : Fin 128, X (ix2 (i 0) k) * W (ix2 (i 1) (col0 (by decide) k)))
      + (∑ k : Fin 128, Y (ix2 (i 0) k) * W (ix2 (i 1) (col1 (by decide) k))))
      + (∑ k : Fin 128, Z (ix2 (i 0) k) * W (ix2 (i 1) (col2 (by decide) k)))) + b (ix1 (i 1))

/-- A sum over 256 positions splits at 128. -/
theorem sum_split256 (f : Fin 256 → EReal) :
    (∑ k : Fin 256, f k) = (∑ k : Fin 128, f (col0 (by decide) k)) + (∑ k : Fin 128, f (col1 (by decide) k)) :=
  Fin.sum_univ_add (a := 128) (b := 128) f

/-- A sum over 384 positions splits at 128 and 256. -/
theorem sum_split384 (f : Fin 384 → EReal) :
    (∑ k : Fin 384, f k) = ((∑ k : Fin 128, f (col0 (by decide) k)) + (∑ k : Fin 128, f (col1 (by decide) k)))
      + (∑ k : Fin 128, f (col2 (by decide) k)) := by
  have h1 := Fin.sum_univ_add (a := 256) (b := 128) f
  have h2 := Fin.sum_univ_add (a := 128) (b := 128) (fun k : Fin 256 => f (Fin.castAdd 128 k))
  exact h1.trans (congrArg (· + _) h2)

end Cert.Gnn

end
-- ==== Proof.LibUnitLin.lean ====
/-
  A matrix unit's linear layers with a loaded bias row, read as whole-array functions on the extended reals.

  A product into a zero accumulator read at an entry is the plain sum of products. Two such products added, plus a
  `1 × N` bias row repeated down the `M` rows, are the two-product layer `lin2` of the four operands and the row read
  as a vector; one product plus the row is `lin`. The operands may be of any float formats. Narrowing an array to a
  shorter float format is the identity on extended reals, and the splat of the zero word is the zero array.
-/
import Idealize.ShloMosaic.Lib.ValueIdx
import Idealize.ShloMosaic.Lib.ValueLayout
import Idealize.ShloMosaic.Lib.Pipeline.Value
import Idealize.ShloMosaic.PureOps.Ideal.Laws
import proofs.«109770_j54692113547689_1_alg».proof.Proof.LibRowLayers

noncomputable section

open scoped BigOperators

namespace Cert.Lib.UnitLin

open Idealize.ShloMosaic Idealize.ShloMosaic.ValueIdx Cert.Lib.BiasDot Cert.Lib.Dense Cert.Lib.RowLayers

variable {M K K' N : Nat}

/-- Two products into zero, added, plus the repeated bias row: the two-product layer. -/
theorem unitLin2_eq {φ₁ φ₂ φ₃ φ₄ : FTy} (d1 : DotDims ⟨2, ![M, K]⟩ ⟨2, ![K, N]⟩ ⟨2, ![M, N]⟩) (hd1 : d1 = DotDims.plain M K N)
    (d2 : DotDims ⟨2, ![M, K']⟩ ⟨2, ![K', N]⟩ ⟨2, ![M, N]⟩) (hd2 : d2 = DotDims.plain M K' N)
    (X1 : FVec Ideal ⟨2, ![M, K]⟩ φ₁) (W1 : FVec Ideal ⟨2, ![K, N]⟩ φ₂) (X2 : FVec Ideal ⟨2, ![M, K']⟩ φ₃) (W2 : FVec Ideal ⟨2, ![K', N]⟩ φ₄)
    (R : FVec Ideal ⟨2, ![1, N]⟩ .f32) (hb : (⟨2, ![1, N]⟩ : Shape).Broadcasts ⟨2, ![M, N]⟩) :
    addf (addf (FloatOps.matmul d1 none X1 W1 (constant ⟨2, ![M, N]⟩ .f32 0x00000000#32))
          (FloatOps.matmul d2 none X2 W2 (constant ⟨2, ![M, N]⟩ .f32 0x00000000#32)))
        (broadcastTo ⟨2, ![M, N]⟩ R hb)
      = lin2 X1 W1 X2 W2 (rowVec R) := by
  subst hd1
  subst hd2
  funext i
  obtain ⟨p, q, rfl⟩ : ∃ (p : Fin M) (q : Fin N), i = ix2 p q := ⟨i 0, i 1, eq_ix2 i⟩
  rw [addf_apply, addf_apply, broadcastTo_1b_ab_apply, Cert.Lib.PlainDot.matmul_zero_apply, Cert.Lib.PlainDot.matmul_zero_apply]
  rfl

/-- One product into zero plus the repeated bias row: the linear layer. -/
theorem unitLin_eq {φ₁ φ₂ : FTy} (d : DotDims ⟨2, ![M, K]⟩ ⟨2, ![K, N]⟩ ⟨2, ![M, N]⟩) (hd : d = DotDims.plain M K N)
    (X : FVec Ideal ⟨2, ![M, K]⟩ φ₁) (W : FVec Ideal ⟨2, ![K, N]⟩ φ₂)
    (R : FVec Ideal ⟨2, ![1, N]⟩ .f32) (hb : (⟨2, ![1, N]⟩ : Shape).Broadcasts ⟨2, ![M, N]⟩) :
    addf (FloatOps.matmul d none X W (constant ⟨2, ![M, N]⟩ .f32 0x00000000#32)) (broadcastTo ⟨2, ![M, N]⟩ R hb)
      = lin X W (rowVec R) := by
  subst hd
  funext i
  obtain ⟨p, q, rfl⟩ : ∃ (p : Fin M) (q : Fin N), i = ix2 p q := ⟨i 0, i 1, eq_ix2 i⟩
  rw [addf_apply, broadcastTo_1b_ab_apply, Cert.Lib.PlainDot.matmul_zero_apply]
  rfl

/-- Narrowing to the shorter float format is the identity on extended reals. -/
theorem narrow_eq {s : Shape} (X : FVec Ideal s .f32) (h : FTy.bf16.bits < FTy.f32.bits) :
    ((truncf .bf16 X h : FVec Ideal s .bf16) : s.Idx → EReal) = X := rfl

/-- The splat of the zero word is zero everywhere. -/
theorem zeroSplat_eq {s : Shape} :
    (broadcast s (Scalar.ofBits (F := Ideal) .f32 0x00000000#32) : s.Idx → EReal) = fun _ => 0 := by
  funext i
  show Ideal.ofBits .f32 0x00000000#32 = 0
  exact Ideal.ofBits_zero_f32

end Cert.Lib.UnitLin

end
-- ==== Proof.LibRowBlocks.lean ====
/-
  Lemmas shared by the three regions of the network's kernel.

  A block of rows of a taller array computes, for each of the layers below, the same entries as the layer of the
  whole array at those rows: an entry of a product depends on one row of the left operand and on the whole
  weight and bias, and an entry of a row scaling depends on that row's factor only. So an entry of a layer of a
  block is the entry of the layer of the array whose row the block's row is.

  Also: a column of `a` factors repeated along `b` lanes reads, at `(p, q)`, the column at `p`.
-/
import Idealize.ShloMosaic.Lib.ValueIdx
import Idealize.ShloMosaic.Lib.ValueLayout
import Idealize.ShloMosaic.Lib.Pipeline.Value
import Idealize.ShloMosaic.PureOps.Ideal.Laws
import proofs.«109770_j54692113547689_1_alg».proof.Proof.LibGnnLayers
import proofs.«109770_j54692113547689_1_alg».proof.Proof.LibUnitLin

noncomputable section

open scoped BigOperators

namespace Cert.Gnn.Kern

open Cert.Gnn Cert.Lib.BiasDot Cert.Lib.Dense Cert.Lib.RowLayers Idealize.ShloMosaic Idealize.ShloMosaic.ValueIdx

variable {m M K K' K'' N : Nat} {α : Type}

/-- The zero offsets of a whole-buffer access, however spelt. -/
theorem hz2 : (![0, 0] : Fin 2 → Nat) = fun _ => 0 := funext fun a => by fin_cases a <;> rfl

/-- An `[a, 1]` column repeated along `b` lanes reads, at `(p, q)`, the column at `p`. -/
theorem colRepeat_apply {a b : Nat} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A matrix times a column repeated along its lanes is the row scaling. -/
theorem mulCol_eq {a b : Nat} (H : (⟨2, ![a, b]⟩ : Shape).Idx → EReal) (s : (⟨2, ![a, 1]⟩ : Shape).Idx → EReal)
    (h : (⟨2, ![a, 1]⟩ : Shape).Broadcasts ⟨2, ![a, b]⟩) :
    (fun i => H i * broadcastTo ⟨2, ![a, b]⟩ s h i) = scaleRows H s := by
  funext i
  obtain ⟨p, q, rfl⟩ : ∃ (p : Fin a) (q : Fin b), i = ix2 p q := ⟨i 0, i 1, eq_ix2 i⟩
  rw [colRepeat_apply]
  rfl

/-- The aggregate times one column plus another column times the dense part is the row-by-row join. -/
theorem combine_eq {a b : Nat} (A L : (⟨2, ![a, b]⟩ : Shape).Idx → EReal) (s s2 : (⟨2, ![a, 1]⟩ : Shape).Idx → EReal)
    (h h' : (⟨2, ![a, 1]⟩ : Shape).Broadcasts ⟨2, ![a, b]⟩) :
    (fun i => A i * broadcastTo ⟨2, ![a, b]⟩ s h i + broadcastTo ⟨2, ![a, b]⟩ s2 h' i * L i) = combine A s s2 L := by
  funext i
  obtain ⟨p, q, rfl⟩ : ∃ (p : Fin a) (q : Fin b), i = ix2 p q := ⟨i 0, i 1, eq_ix2 i⟩
  rw [colRepeat_apply, colRepeat_apply]
  rfl

/-! ## A block of rows computes the array's entries at those rows -/

/-- The linear layer. -/
theorem lin_block (x0 : Mat m K) (x1 : Mat K N) (x2 : Mat 1 N) (A : Mat M K) (W : Mat K N) (R : Mat 1 N)
    (j : (⟨2, ![m, N]⟩ : Shape).Idx) (i : (⟨2, ![M, N]⟩ : Shape).Idx)
    (h0 : ∀ k : Fin K, x0 (ix2 (j 0) k) = A (ix2 (i 0) k)) (h1 : ∀ k : Fin K, x1 (ix2 k (j 1)) = W (ix2 k (i 1)))
    (h2 : x2 (ix2 (0 : Fin 1) (j 1)) = R (ix2 (0 : Fin 1) (i 1))) :
    lin x0 x1 (rowVec x2) j = lin A W (rowVec R) i := by
  show (∑ k : Fin K, x0 (ix2 (j 0) k) * x1 (ix2 k (j 1))) + x2 (ix2 (0 : Fin 1) (j 1))
    = (∑ k : Fin K, A (ix2 (i 0) k) * W (ix2 k (i 1))) + R (ix2 (0 : Fin 1) (i 1))
  rw [h2]
  exact congrArg (fun z => z + R (ix2 (0 : Fin 1) (i 1))) (Finset.sum_congr rfl fun k _ => by rw [h0 k, h1 k])

/-- The two-product layer. -/
theorem lin2_block (x0 : Mat m K) (w0 : Mat K N) (y0 : Mat m K') (w1 : Mat K' N) (x2 : Mat 1 N)
    (A : Mat M K) (Wa : Mat K N) (C : Mat M K') (Wb : Mat K' N) (R : Mat 1 N)
    (j : (⟨2, ![m, N]⟩ : Shape).Idx) (i : (⟨2, ![M, N]⟩ : Shape).Idx)
    (h0 : ∀ k : Fin K, x0 (ix2 (j 0) k) = A (ix2 (i 0) k)) (h1 : ∀ k : Fin K, w0 (ix2 k (j 1)) = Wa (ix2 k (i 1)))
    (h0' : ∀ k : Fin K', y0 (ix2 (j 0) k) = C (ix2 (i 0) k)) (h1' : ∀ k : Fin K', w1 (ix2 k (j 1)) = Wb (ix2 k (i 1)))
    (h2 : x2 (ix2 (0 : Fin 1) (j 1)) = R (ix2 (0 : Fin 1) (i 1))) :
    lin2 x0 w0 y0 w1 (rowVec x2) j = lin2 A Wa C Wb (rowVec R) i := by
  show ((∑ k : Fin K, x0 (ix2 (j 0) k) * w0 (ix2 k (j 1))) + (∑ k : Fin K', y0 (ix2 (j 0) k) * w1 (ix2 k (j 1))))
      + x2 (ix2 (0 : Fin 1) (j 1))
    = ((∑ k : Fin K, A (ix2 (i 0) k) * Wa (ix2 k (i 1))) + (∑ k : Fin K', C (ix2 (i 0) k) * Wb (ix2 k (i 1))))
      + R (ix2 (0 : Fin 1) (i 1))
  rw [h2]
  refine congrArg (fun z => z + R (ix2 (0 : Fin 1) (i 1))) (congrArg₂ (· + ·) ?_ ?_)
  · exact Finset.sum_congr rfl fun k _ => by rw [h0 k, h1 k]
  · exact Finset.sum_congr rfl fun k _ => by rw [h0' k, h1' k]

/-- The three-product layer. -/
theorem lin3_block (x0 : Mat m K) (w0 : Mat K N) (y0 : Mat m K') (w1 : Mat K' N) (z0 : Mat m K'') (w2 : Mat K'' N)
    (x2 : Mat 1 N)
    (A : Mat M K) (Wa : Mat K N) (C : Mat M K') (Wb : Mat K' N) (E : Mat M K'') (Wc : Mat K'' N) (R : Mat 1 N)
    (j : (⟨2, ![m, N]⟩ : Shape).Idx) (i : (⟨2, ![M, N]⟩ : Shape).Idx)
    (h0 : ∀ k : Fin K, x0 (ix2 (j 0) k) = A (ix2 (i 0) k)) (h1 : ∀ k : Fin K, w0 (ix2 k (j 1)) = Wa (ix2 k (i 1)))
    (h0' : ∀ k : Fin K', y0 (ix2 (j 0) k) = C (ix2 (i 0) k)) (h1' : ∀ k : Fin K', w1 (ix2 k (j 1)) = Wb (ix2 k (i 1)))
    (h0'' : ∀ k : Fin K'', z0 (ix2 (j 0) k) = E (ix2 (i 0) k))
    (h1'' : ∀ k : Fin K'', w2 (ix2 k (j 1)) = Wc (ix2 k (i 1)))
    (h2 : x2 (ix2 (0 : Fin 1) (j 1)) = R (ix2 (0 : Fin 1) (i 1))) :
    lin3 x0 w0 y0 w1 z0 w2 (rowVec x2) j = lin3 A Wa C Wb E Wc (rowVec R) i := by
  show (((∑ k : Fin K, x0 (ix2 (j 0) k) * w0 (ix2 k (j 1))) + (∑ k : Fin K', y0 (ix2 (j 0) k) * w1 (ix2 k (j 1))))
      + (∑ k : Fin K'', z0 (ix2 (j 0) k) * w2 (ix2 k (j 1)))) + x2 (ix2 (0 : Fin 1) (j 1))
    = (((∑ k : Fin K, A (ix2 (i 0) k) * Wa (ix2 k (i 1))) + (∑ k : Fin K', C (ix2 (i 0) k) * Wb (ix2 k (i 1))))
      + (∑ k : Fin K'', E (ix2 (i 0) k) * Wc (ix2 k (i 1)))) + R (ix2 (0 : Fin 1) (i 1))
  rw [h2]
  refine congrArg (fun z => z + R (ix2 (0 : Fin 1) (i 1))) (congrArg₂ (· + ·) (congrArg₂ (· + ·) ?_ ?_) ?_)
  · exact Finset.sum_congr rfl fun k _ => by rw [h0 k, h1 k]
  · exact Finset.sum_congr rfl fun k _ => by rw [h0' k, h1' k]
  · exact Finset.sum_congr rfl fun k _ => by rw [h0'' k, h1'' k]

/-- The row scaling. -/
theorem scaleRows_block (h : Mat m N) (s : Mat m 1) (H : Mat M N) (S : Mat M 1)
    (j : (⟨2, ![m, N]⟩ : Shape).Idx) (i : (⟨2, ![M, N]⟩ : Shape).Idx)
    (hh : h j = H i) (hs : s (ix2 (j 0) (0 : Fin 1)) = S (ix2 (i 0) (0 : Fin 1))) :
    scaleRows h s j = scaleRows H S i := by
  show h j * s (ix2 (j 0) (0 : Fin 1)) = H i * S (ix2 (i 0) (0 : Fin 1))
  rw [hh, hs]

/-- The row-by-row join. -/
theorem combine_block (a l : Mat m N) (s s2 : Mat m 1) (A L : Mat M N) (S S2 : Mat M 1)
    (j : (⟨2, ![m, N]⟩ : Shape).Idx) (i : (⟨2, ![M, N]⟩ : Shape).Idx)
    (ha : a j = A i) (hl : l j = L i) (hs : s (ix2 (j 0) (0 : Fin 1)) = S (ix2 (i 0) (0 : Fin 1)))
    (hs2 : s2 (ix2 (j 0) (0 : Fin 1)) = S2 (ix2 (i 0) (0 : Fin 1))) :
    combine a s s2 l j = combine A S S2 L i := by
  show a j * s (ix2 (j 0) (0 : Fin 1)) + s2 (ix2 (j 0) (0 : Fin 1)) * l j
    = A i * S (ix2 (i 0) (0 : Fin 1)) + S2 (ix2 (i 0) (0 : Fin 1)) * L i
  rw [ha, hl, hs, hs2]

/-! ## Three products into zero, added, plus the repeated bias row -/

/-- The three-product layer of a matrix unit. -/
theorem unitLin3_eq {φ₁ φ₂ φ₃ φ₄ φ₅ φ₆ : FTy}
    (d1 : DotDims ⟨2, ![M, K]⟩ ⟨2, ![K, N]⟩ ⟨2, ![M, N]⟩) (hd1 : d1 = DotDims.plain M K N)
    (d2 : DotDims ⟨2, ![M, K']⟩ ⟨2, ![K', N]⟩ ⟨2, ![M, N]⟩) (hd2 : d2 = DotDims.plain M K' N)
    (d3 : DotDims ⟨2, ![M, K'']⟩ ⟨2, ![K'', N]⟩ ⟨2, ![M, N]⟩) (hd3 : d3 = DotDims.plain M K'' N)
    (X1 : FVec Ideal ⟨2, ![M, K]⟩ φ₁) (W1 : FVec Ideal ⟨2, ![K, N]⟩ φ₂) (X2 : FVec Ideal ⟨2, ![M, K']⟩ φ₃)
    (W2 : FVec Ideal ⟨2, ![K', N]⟩ φ₄) (X3 : FVec Ideal ⟨2, ![M, K'']⟩ φ₅) (W3 : FVec Ideal ⟨2, ![K'', N]⟩ φ₆)
    (R : FVec Ideal ⟨2, ![1, N]⟩ .f32) (hb : (⟨2, ![1, N]⟩ : Shape).Broadcasts ⟨2, ![M, N]⟩) :
    addf (addf (addf (FloatOps.matmul d1 none X1 W1 (constant ⟨2, ![M, N]⟩ .f32 0x00000000#32))
            (FloatOps.matmul d2 none X2 W2 (constant ⟨2, ![M, N]⟩ .f32 0x00000000#32)))
          (FloatOps.matmul d3 none X3 W3 (constant ⟨2, ![M, N]⟩ .f32 0x00000000#32)))
        (broadcastTo ⟨2, ![M, N]⟩ R hb)
      = lin3 X1 W1 X2 W2 X3 W3 (rowVec R) := by
  subst hd1
  subst hd2
  subst hd3
  funext i
  obtain ⟨p, q, rfl⟩ : ∃ (p : Fin M) (q : Fin N), i = ix2 p q := ⟨i 0, i 1, eq_ix2 i⟩
  rw [addf_apply, addf_apply, addf_apply, broadcastTo_1b_ab_apply, Cert.Lib.PlainDot.matmul_zero_apply,
    Cert.Lib.PlainDot.matmul_zero_apply, Cert.Lib.PlainDot.matmul_zero_apply]
  rfl

end Cert.Gnn.Kern

end
-- ==== Proof.LibLeast.lean ====
/-
  General facts about reductions of an `M × N` array read at an index, at the ideal values.

  * Summing along the lanes gives, at row `p`, the sum of the row's `N` entries (`rowSum_apply`).
  * Taking the minimum along the lanes gives, at row `p`, the least of the row's entries and the starting value
    (`rowMin_apply`); along the rows, at column `q`, the least of the column's entries and the starting value
    (`colMin_apply`). The least value is the fold of `min` from the starting value over the axis's coordinates.
-/
import Idealize.ShloMosaic.Lib.ValueIdx
import Idealize.ShloMosaic.PureOps.Ideal.Laws

noncomputable section

open scoped BigOperators

namespace Cert.Lib.Least

open Idealize.ShloMosaic Idealize.ShloMosaic.ValueIdx

variable {M N : Nat}

/-- The row index `p` with lane `k` put back is `(p, k)`. -/
theorem lift_lane (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- The column index `q` with row `k` put back is `(k, q)`. -/
theorem lift_row (h : (⟨2, ![M, N]⟩ : Shape).Reduces [0] ⟨1, ![N]⟩) (q : Fin N) (k : Fin M) :
    h.lift (ix1 q) k = ix2 k q := by
  funext a
  apply Fin.ext
  match a with
  | ⟨0, _⟩ => rfl
  | ⟨1, _⟩ => rfl

/-- The sum along the lanes, at row `p`. -/
theorem rowSum_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ)
    (p : Fin M) :
    multiReduction .add [1] ⟨1, ![M]⟩ src acc h hφ hacc (ix1 p) = ∑ k : Fin N, src (ix2 p k) := by
  rw [Ideal.multiReduction_add_single]
  exact Finset.sum_congr rfl fun k _ => congrArg src (lift_lane h p k)

/-- The minimum along the lanes, at row `p`: the least of the row's entries and the starting value. -/
theorem rowMin_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.minimumf.neutral φ hφ)
    (p : Fin M) :
    multiReduction .minimumf [1] ⟨1, ![M]⟩ src acc h hφ hacc (ix1 p)
      = (Finset.univ : Finset (Fin N)).fold min (Ideal.ofBits φ acc) fun k => src (ix2 p k) := by
  rw [multiReduction_minimumf_eq_fold]
  refine (h.fold_filter_drop_single _ _ src (ix1 p)).trans ?_
  have hf : (src ∘ h.lift (ix1 p)) = fun k : Fin N => src (ix2 p k) := funext fun (k : Fin N) => congrArg src (lift_lane h p k)
  exact congrArg (fun f => Finset.fold min (Ideal.ofBits φ acc) f (Finset.univ : Finset (Fin N))) hf

/-- The minimum along the rows, at column `q`: the least of the column's entries and the starting value. -/
theorem colMin_apply {φ : FTy} (src : FVec Ideal ⟨2, ![M, N]⟩ φ) (acc : BitVec φ.bits)
    (h : (⟨2, ![M, N]⟩ : Shape).Reduces [0] ⟨1, ![N]⟩) (hφ : FKind.Formats φ) (hacc : acc = FKind.minimumf.neutral φ hφ)
    (q : Fin N) :
    multiReduction .minimumf [0] ⟨1, ![N]⟩ src acc h hφ hacc (ix1 q)
      = (Finset.univ : Finset (Fin M)).fold min (Ideal.ofBits φ acc) fun k => src (ix2 k q) := by
  rw [multiReduction_minimumf_eq_fold]
  refine (h.fold_filter_drop_single _ _ src (ix1 q)).trans ?_
  have hf : (src ∘ h.lift (ix1 q)) = fun k : Fin M => src (ix2 k q) := funext fun (k : Fin M) => congrArg src (lift_row h q k)
  exact congrArg (fun f => Finset.fold min (Ideal.ofBits φ acc) f (Finset.univ : Finset (Fin M))) hf

/-! ## The same at f32, with the accumulator's word written out

A printed reduction carries its accumulator as a literal word and a proof that the word equals itself; these forms take
the proof with that type, so that they apply to a printed term as it stands. -/

/-- The sum along the lanes of an f32 array, from the zero word. -/
theorem rowSum_f32 (src : FVec Ideal ⟨2, ![M, N]⟩ .f32) (h : (⟨2, ![M, N]⟩ : Shape).Reduces [1] ⟨1, ![M]⟩)
    (hφ : FKind.Formats .f32) (hacc : (0x00000000#32 : BitVec 32) = 0x00000000#32) (p : Fin M) :
    multiReduction .add [1] ⟨1, ![M]⟩ src 0x00000000#32 h hφ hacc (ix1 p) = ∑ k : Fin N, src (ix2 p k) :=
  rowSum_apply src _ h hφ hacc p

/-- The sum down the rows of an `M × 1` f32 column, from the zero word. -/
theorem colSum_f32 (src : FVec Ideal ⟨2, ![M, 1]⟩ .f32) (h : (⟨2, ![M, 1]⟩ : Shape).Reduces [0] ⟨1, ![1]⟩)
    (hφ : FKind.Formats .f32) (hacc : (0x00000000#32 : BitVec 32) = 0x00000000#32) :
    multiReduction .add [0] ⟨1, ![1]⟩ src 0x00000000#32 h hφ hacc (ix1 (0 : Fin 1)) = ∑ k : Fin M, src (ix2 k (0 : Fin 1)) := by
  refine (Ideal.multiReduction_add_single src _ h hφ hacc (ix1 (0 : Fin 1))).trans ?_
  exact Finset.sum_congr rfl fun k _ => congrArg src (lift_row h (0 : Fin 1) k)

/-- The minimum along the lanes of an f32 array, from the word of +∞. -/
theorem rowMin_f32 (src : FVec Ideal ⟨2, ![M, N]⟩ .f32) (h : (⟨2, ![M, N]⟩ : Shape).Reduces [1] ⟨1, ![M]⟩)
    (hφ : FKind.Formats .f32) (hacc : (0x7F800000#32 : BitVec 32) = 0x7F800000#32) (p : Fin M) :
    multiReduction .minimumf [1] ⟨1, ![M]⟩ src 0x7F800000#32 h hφ hacc (ix1 p)
      = (Finset.univ : Finset (Fin N)).fold min (Ideal.ofBits .f32 0x7F800000#32) fun k => src (ix2 p k) :=
  rowMin_apply src _ h hφ hacc p

/-- The minimum down the rows of an f32 array, from the word of +∞. -/
theorem colMin_f32 (src : FVec Ideal ⟨2, ![M, N]⟩ .f32) (h : (⟨2, ![M, N]⟩ : Shape).Reduces [0] ⟨1, ![N]⟩)
    (hφ : FKind.Formats .f32) (hacc : (0x7F800000#32 : BitVec 32) = 0x7F800000#32) (q : Fin N) :
    multiReduction .minimumf [0] ⟨1, ![N]⟩ src 0x7F800000#32 h hφ hacc (ix1 q)
      = (Finset.univ : Finset (Fin M)).fold min (Ideal.ofBits .f32 0x7F800000#32) fun k => src (ix2 k q) :=
  colMin_apply src _ h hφ hacc q

end Cert.Lib.Least

end
-- ==== Proof.LibColSum.lean ====
/-
  The sum down the rows of an `M × N` array, read at a column, at the ideal values.

  A float `add` reduction over axis 0 of an `M × N` array gives, at column `q`, the sum of the column's `M` entries: the
  accumulator's word is the neutral element and does not appear.
-/
import Idealize.ShloMosaic.Lib.ValueIdx
import Idealize.ShloMosaic.PureOps.Ideal.Laws
import proofs.«109770_j54692113547689_1_alg».proof.Proof.LibLeast

noncomputable section

open scoped BigOperators

namespace Cert.Lib.ColSum

open Idealize.ShloMosaic Idealize.ShloMosaic.ValueIdx

variable {M N : Nat}

/-- The sum down the rows, at column `q`. -/
theorem colSum_apply {φ : FTy} (src : FVec Ideal ⟨2, ![M, N]⟩ φ) (acc : BitVec φ.bits)
    (h : (⟨2, ![M, N]⟩ : Shape).Reduces [0] ⟨1, ![N]⟩) (hφ : FKind.Formats φ) (hacc : acc = FKind.add.neutral φ hφ)
    (q : Fin N) :
    multiReduction .add [0] ⟨1, ![N]⟩ src acc h hφ hacc (ix1 q) = ∑ k : Fin M, src (ix2 k q) :=
  (Ideal.multiReduction_add_single src acc h hφ hacc (ix1 q)).trans
    (Finset.sum_congr rfl fun k _ => congrArg src (Cert.Lib.Least.lift_row h q k))

/-- The same for an f32 array from the zero word, the accumulator hypothesis typed as a printed term carries it. -/
theorem colSum_f32 (src : FVec Ideal ⟨2, ![M, N]⟩ .f32) (h : (⟨2, ![M, N]⟩ : Shape).Reduces [0] ⟨1, ![N]⟩)
    (hφ : FKind.Formats .f32) (hacc : (0x00000000#32 : BitVec 32) = 0x00000000#32) (q : Fin N) :
    multiReduction .add [0] ⟨1, ![N]⟩ src 0x00000000#32 h hφ hacc (ix1 q) = ∑ k : Fin M, src (ix2 k q) :=
  colSum_apply src _ h hφ hacc q

end Cert.Lib.ColSum

end
-- ==== Proof.KBlocks.lean ====
/-
  What the three kernel bodies compute on their blocks, as functions on the extended reals.

  The first two kernels take a block of 4000 rows of the aggregated table, the matching 4000 × 1 column of
  destination-side factors, the 128 × 128 weight and the 1 × 128 bias row, and give the positive part of
  `(rows · factor) · W + b`: `blockLayer`. Narrowing the operands of the product to a shorter float format is the
  identity on extended reals and the product accumulates into zero.

  The third kernel keeps a 1 × 128 row of running sums: it starts the row at the zero word, adds at every block the
  sum down the block's 4000 rows of `row · factor`, and at the last block multiplies the row by the named reciprocal
  of the node count, which denotes 1/100000.
-/
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import proofs.«109770_j54692113547689_1_alg».proof.Proof.Gen.KernelIdeal.Skeleton
import proofs.«109770_j54692113547689_1_alg».proof.Proof.LibRowLayers
import proofs.«109770_j54692113547689_1_alg».proof.Proof.LibRowBlocks
import proofs.«109770_j54692113547689_1_alg».proof.Proof.LibColSum

noncomputable section

open scoped BigOperators

namespace Cert.KernelIdeal.Hand

open Cert.KernelIdeal Cert.KernelIdeal.Gen
open Idealize.ShloMosaic Idealize.ShloMosaic.ValueIdx
open Cert.Lib.BiasDot Cert.Lib.Dense Cert.Lib.RowLayers Cert.Gnn Cert.Gnn.Kern

/-- The zero offsets of a whole-buffer access. -/
theorem hz : (![0, 0] : Fin 2 → Nat) = fun _ => 0 := funext fun a => by fin_cases a <;> rfl

/-- One dense layer on a block of rows: the rows scaled by their factors, times the weight, plus the bias row, and the
    positive part. -/
def blockLayer {M : Nat} (x0 : Mat M 128) (x1 : Mat M 1) (x2 : Mat 128 128) (x3 : Mat 1 128) : Mat M 128 :=
  relu (lin (scaleRows x0 x1) x2 (rowVec x3))

/-- The first kernel's stored value is the dense layer of its blocks. -/
theorem pay0_eq (x0 : Vec Ideal S4000x128 .f32) (x1 : Vec Ideal S4000x1 .f32) (x2 : Vec Ideal S128x128 .f32)
    (x3 : Vec Ideal S1x128 .f32) : k0_pay1 (F := Ideal) x0 x1 x2 x3 = blockLayer x0 x1 x2 x3 := by
  refine (reluLayer_eq dot_S4000x128_S128x128_S4000x128_1_0_0_1_n_n rfl
    (mulf (shapeCast S4000x128 x0 shapeCasts_S4000x128_S4000x128)
      (broadcastTo S4000x128 (shapeCast S4000x1 x1 shapeCasts_S4000x1_S4000x1) broadcasts_S4000x1_S4000x128))
    x2 x3 bitsLt_bf16_f32 bitsLt_bf16_f32 shapeCasts_S1x128_S1x128 broadcasts_S1x128_S4000x128).trans ?_
  unfold blockLayer
  rw [shapeCast_self, shapeCast_self]
  exact congrArg (fun X => relu (lin X x2 (rowVec x3))) (mulCol_eq x0 x1 broadcasts_S4000x1_S4000x128)

/-- The second kernel's stored value is the same layer of its blocks. -/
theorem pay1_eq (x0 : Vec Ideal S4000x128 .f32) (x1 : Vec Ideal S4000x1 .f32) (x2 : Vec Ideal S128x128 .f32)
    (x3 : Vec Ideal S1x128 .f32) : k1_pay1 (F := Ideal) x0 x1 x2 x3 = blockLayer x0 x1 x2 x3 := by
  refine (reluLayer_eq dot_S4000x128_S128x128_S4000x128_1_0_0_1_n_n rfl
    (mulf (shapeCast S4000x128 x0 shapeCasts_S4000x128_S4000x128)
      (broadcastTo S4000x128 (shapeCast S4000x1 x1 shapeCasts_S4000x1_S4000x1) broadcasts_S4000x1_S4000x128))
    x2 x3 bitsLt_bf16_f32 bitsLt_bf16_f32 shapeCasts_S1x128_S1x128 broadcasts_S1x128_S4000x128).trans ?_
  unfold blockLayer
  rw [shapeCast_self, shapeCast_self]
  exact congrArg (fun X => relu (lin X x2 (rowVec x3))) (mulCol_eq x0 x1 broadcasts_S4000x1_S4000x128)

/-- The third kernel starts its row of running sums at the zero word. -/
theorem pay2_1_apply (j : S1x128.Idx) : k2_pay1 (F := Ideal) j = Ideal.ofBits .f32 0x00000000#32 := rfl

/-- At every block the row of running sums gains, in column `q`, the sum down the block's rows of `row · factor`. -/
theorem pay2_2_apply (x0 : Vec Ideal S4000x128 .f32) (x1 : Vec Ideal S4000x1 .f32) (acc : Vec Ideal S1x128 .f32)
    (q : Fin 128) :
    k2_pay2 (F := Ideal) x0 x1 acc (ix2 (0 : Fin 1) q)
      = acc (ix2 (0 : Fin 1) q) + ∑ r : Fin 4000, x0 (ix2 r q) * x1 (ix2 r (0 : Fin 1)) := by
  unfold k2_pay2
  rw [addf_apply, shapeCast_self, shapeCast_self, shapeCast_self]
  refine congrArg (acc (ix2 (0 : Fin 1) q) + ·) ?_
  refine (shapeCast_addUnit_apply ![128] _ shapeCasts_S128_S1x128 (ix2 (0 : Fin 1) q)).trans ?_
  have e : (fun a : Fin 1 => (ix2 (0 : Fin 1) q) (Fin.succ a)) = ix1 q := by
    funext a
    match a with
    | ⟨0, _⟩ => rfl
  refine (congrArg _ e).trans ?_
  refine (Cert.Lib.ColSum.colSum_f32 _ reduces_S4000x128_S128 (.inl rfl) rfl q).trans ?_
  refine Finset.sum_congr rfl fun r _ => ?_
  rw [mulf_apply, colRepeat_apply]

/-- The named reciprocal of the node count denotes 1/100000. -/
theorem inv_n : Named.named (F := Ideal) κ "inv_100000" (φ := .f32) 0x3727C5AC#32 = ((1 / 100000 : ℝ) : EReal) :=
  IdealRules.named_const.ideal_named_scalar _ _ _ _ rfl

/-- At the last block the row of running sums is multiplied by 1/100000. -/
theorem pay2_3_apply (acc : Vec Ideal S1x128 .f32) (j : S1x128.Idx) :
    k2_pay3 (F := Ideal) acc j = acc j * ((1 / 100000 : ℝ) : EReal) := by
  unfold k2_pay3
  rw [mulf_apply, shapeCast_self, broadcast_apply, inv_n]

end Cert.KernelIdeal.Hand

end
-- ==== Proof.KLayer.lean ====
/-
  The output array of each of the first two kernel regions, as one function of the arrays the region found.

  The grid has 25 points; point `t` takes rows `4000 t … 4000 t + 3999` of the aggregated table and of the column of
  destination-side factors, and the whole weight and bias row, and writes back the same rows of the output. An entry of
  the dense layer depends on one row of the table, that row's factor, and the whole weight and bias, so what a point
  writes back is its block of the layer of the whole arrays; the 25 blocks tile the array.
-/
import Idealize.ShloMosaic.Lib.Pipeline.Value
import proofs.«109770_j54692113547689_1_alg».proof.Proof.Gen.KernelIdeal.Frame
import proofs.«109770_j54692113547689_1_alg».proof.Proof.KBlocks

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.BiasDot Cert.Lib.Dense Cert.Lib.RowLayers Cert.Gnn Cert.Gnn.Kern

variable (V : (c : Dev nD) → (b : Ref sig .tc) → Buf (Elt Ideal) ((c : Thread nD τ).loc b))

/-! ## Region 0 -/

/-- The printed index maps of region 0, decided over its grid: the row blocks follow the grid point, the weight and
    the bias row do not move. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The block of the aggregated table at point `t` is its rows `4000 t … 4000 t + 3999`. -/
theorem iblk0_0_apply (c : Dev nD) (t : Fin cfg0.N) (y : S4000x128.Idx) (i : S100000x128.Idx)
    (h0 : (i 0).val = t.val * 4000 + (y 0).val) (h1 : (i 1).val = (y 1).val) :
    (iblk0 V c 0 t : Vec Ideal S4000x128 .f32) y = (V c main_v27 : S100000x128.Idx → EReal) i := by
  obtain ⟨e0, e1, -⟩ := idx_facts0 t
  unfold iblk0
  rw [View.read_apply]
  show V c main_v27 _ = V c main_v27 i
  congr 1
  funext a
  apply Fin.ext
  match a with
  | ⟨0, _⟩ => show win0_0.index t (0 : Fin 2) * 4000 + 1 * (y 0).val = (i 0).val; rw [e0, h0]; omega
  | ⟨1, _⟩ => show win0_0.index t (1 : Fin 2) * 128 + 1 * (y 1).val = (i 1).val; rw [e1, h1]; omega

/-- The block of the factor column at point `t` is its rows `4000 t … 4000 t + 3999`. -/
theorem iblk0_1_apply (c : Dev nD) (t : Fin cfg0.N) (y : S4000x1.Idx) (i : S100000x1.Idx)
    (h0 : (i 0).val = t.val * 4000 + (y 0).val) (h1 : (i 1).val = (y 1).val) :
    (iblk0 V c 1 t : Vec Ideal S4000x1 .f32) y = (V c main_v28 : S100000x1.Idx → EReal) i := by
  obtain ⟨-, -, e0, e1, -⟩ := idx_facts0 t
  unfold iblk0
  rw [View.read_apply]
  show V c main_v28 _ = V c main_v28 i
  congr 1
  funext a
  apply Fin.ext
  match a with
  | ⟨0, _⟩ => show win0_1.index t (0 : Fin 2) * 4000 + 1 * (y 0).val = (i 0).val; rw [e0, h0]; omega
  | ⟨1, _⟩ => show win0_1.index t (1 : Fin 2) * 1 + 1 * (y 1).val = (i 1).val; rw [e1, h1]; omega

/-- The weight's block at every point is the whole weight. -/
theorem iblk0_2_apply (c : Dev nD) (t : Fin cfg0.N) (y : S128x128.Idx) :
    (iblk0 V c 2 t : Vec Ideal S128x128 .f32) y = (V c main_arg3 : S128x128.Idx → EReal) y := by
  obtain ⟨-, -, -, -, e0, e1, -⟩ := idx_facts0 t
  unfold iblk0
  rw [View.read_apply]
  show V c main_arg3 _ = V c main_arg3 y
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The bias row's block at every point is the whole row. -/
theorem iblk0_3_apply (c : Dev nD) (t : Fin cfg0.N) (y : S1x128.Idx) :
    (iblk0 V c 3 t : Vec Ideal S1x128 .f32) y = (V c main_v29 : S1x128.Idx → EReal) y := by
  obtain ⟨-, -, -, -, -, -, e0, e1, -⟩ := idx_facts0 t
  unfold iblk0
  rw [View.read_apply]
  show V c main_v29 _ = V c main_v29 y
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- What point `t` writes back is block `t` of the dense layer of the whole arrays: an entry of the layer depends on one
    row of the table and that row's factor only. -/
theorem flushed0_eq (c : Dev nD) (t : Fin cfg0.N) :
    (dat0 V c).flushed 4 t = ((cfg0.win 4).blk t).view.read (Elt Ideal)
      (blockLayer (V c main_v27) (V c main_v28) (V c main_arg3) (V c main_v29)) := by
  show (cfg0.win 4).cut (grid0.coords t) ((dat0 V c).after 4 t) = _
  rw [after0_4]
  unfold out0_4
  rw [View.canon_unit_zero hz]
  simp only [View.ld_unit_zero (S := S4000x128) hz, View.ld_unit_zero (S := S4000x1) hz,
    View.ld_unit_zero (S := S128x128) hz, View.ld_unit_zero (S := S1x128) hz]
  rw [pay0_eq]
  obtain ⟨-, -, -, -, -, -, -, -, e0, e1⟩ := idx_facts0 t
  funext j
  rw [View.read_apply]
  have hi0 : ((((cfg0.win 4).blk t).view.emb j : S100000x128.Idx) 0).val = t.val * 4000 + (j 0).val := by
    show win0_4.index t (0 : Fin 2) * 4000 + 1 * (j 0).val = _
    rw [e0]; omega
  have hi1 : ((((cfg0.win 4).blk t).view.emb j : S100000x128.Idx) 1).val = (j 1).val := by
    show win0_4.index t (1 : Fin 2) * 128 + 1 * (j 1).val = _
    rw [e1]; omega
  generalize (((cfg0.win 4).blk t).view.emb j : S100000x128.Idx) = i at hi0 hi1
  have hj1 : j 1 = i 1 := Fin.ext hi1.symm
  refine layer_block _ _ _ _ _ _ j i (fun k => ?_) (fun k => ?_) ?_
  · refine scaleRows_block _ _ _ _ _ _ ?_ ?_
    · exact iblk0_0_apply V c t _ _ hi0 rfl
    · exact iblk0_1_apply V c t _ _ hi0 rfl
  · rw [hj1]; exact iblk0_2_apply V c t _
  · rw [hj1]; exact iblk0_3_apply V c t _

/-- An index of the output array is in point `t`'s block iff each coordinate is in the block's range on its axis. -/
theorem mem_blk0 (t : Fin cfg0.N) (i : S100000x128.Idx) :
    i ∈ ((cfg0.win 4).blk t).view.set ↔ ∀ a : Fin 2, win0_4.index t a * S4000x128.size a ≤ (i a).val
      ∧ (i a).val < win0_4.index t a * S4000x128.size a + S4000x128.size a := by
  show i ∈ ((View.whole main_v30).slice (win0_4.rect t)).set ↔ _
  rw [View.set_slice_whole, Rect.mem_set_unit]
  exact Iff.rfl

/-- The output array after region 0: the dense layer of the arrays the region found. Row `r` is written back by
    point `r / 4000`. -/
theorem final0 (c : Dev nD) :
    (dat0 V c).arrAt 4 cfg0.N = blockLayer (V c main_v27) (V c main_v28) (V c main_arg3) (V c main_v29) :=
  (dat0 V c).arrAt_eq_of_cover 4 _ (fun t _ => flushed0_eq V c t) fun (i : S100000x128.Idx) => by
    have hi0 : (i 0).val < 100000 := (i 0).isLt
    have hi1 : (i 1).val < 128 := (i 1).isLt
    have hN : cfg0.N = 25 := N_0
    have ht : (i 0).val / 4000 < cfg0.N := by rw [hN]; omega
    obtain ⟨-, -, -, -, -, -, -, -, e0, e1⟩ := idx_facts0 ⟨(i 0).val / 4000, ht⟩
    refine ⟨⟨(i 0).val / 4000, ht⟩, flush0_4 _, ?_⟩
    rw [mem_blk0]
    intro a
    match a with
    | ⟨0, _⟩ =>
      show win0_4.index ⟨(i 0).val / 4000, ht⟩ (0 : Fin 2) * 4000 ≤ (i 0).val
        ∧ (i 0).val < win0_4.index ⟨(i 0).val / 4000, ht⟩ (0 : Fin 2) * 4000 + 4000
      rw [e0]; dsimp only; omega
    | ⟨1, _⟩ =>
      show win0_4.index ⟨(i 0).val / 4000, ht⟩ (1 : Fin 2) * 128 ≤ (i 1).val
        ∧ (i 1).val < win0_4.index ⟨(i 0).val / 4000, ht⟩ (1 : Fin 2) * 128 + 128
      rw [e1]; omega

/-! ## Region 1 -/

/-- The printed index maps of region 1, decided over its grid: the row blocks follow the grid point, the weight and
    the bias row do not move. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The block of the aggregated table at point `t` is its rows `4000 t … 4000 t + 3999`. -/
theorem iblk1_0_apply (c : Dev nD) (t : Fin cfg1.N) (y : S4000x128.Idx) (i : S100000x128.Idx)
    (h0 : (i 0).val = t.val * 4000 + (y 0).val) (h1 : (i 1).val = (y 1).val) :
    (iblk1 V c 0 t : Vec Ideal S4000x128 .f32) y = (V c main_v43 : S100000x128.Idx → EReal) i := by
  obtain ⟨e0, e1, -⟩ := idx_facts1 t
  unfold iblk1
  rw [View.read_apply]
  show V c main_v43 _ = V c main_v43 i
  congr 1
  funext a
  apply Fin.ext
  match a with
  | ⟨0, _⟩ => show win1_0.index t (0 : Fin 2) * 4000 + 1 * (y 0).val = (i 0).val; rw [e0, h0]; omega
  | ⟨1, _⟩ => show win1_0.index t (1 : Fin 2) * 128 + 1 * (y 1).val = (i 1).val; rw [e1, h1]; omega

/-- The block of the factor column at point `t` is its rows `4000 t … 4000 t + 3999`. -/
theorem iblk1_1_apply (c : Dev nD) (t : Fin cfg1.N) (y : S4000x1.Idx) (i : S100000x1.Idx)
    (h0 : (i 0).val = t.val * 4000 + (y 0).val) (h1 : (i 1).val = (y 1).val) :
    (iblk1 V c 1 t : Vec Ideal S4000x1 .f32) y = (V c main_v44 : S100000x1.Idx → EReal) i := by
  obtain ⟨-, -, e0, e1, -⟩ := idx_facts1 t
  unfold iblk1
  rw [View.read_apply]
  show V c main_v44 _ = V c main_v44 i
  congr 1
  funext a
  apply Fin.ext
  match a with
  | ⟨0, _⟩ => show win1_1.index t (0 : Fin 2) * 4000 + 1 * (y 0).val = (i 0).val; rw [e0, h0]; omega
  | ⟨1, _⟩ => show win1_1.index t (1 : Fin 2) * 1 + 1 * (y 1).val = (i 1).val; rw [e1, h1]; omega

/-- The weight's block at every point is the whole weight. -/
theorem iblk1_2_apply (c : Dev nD) (t : Fin cfg1.N) (y : S128x128.Idx) :
    (iblk1 V c 2 t : Vec Ideal S128x128 .f32) y = (V c main_arg5 : S128x128.Idx → EReal) y := by
  obtain ⟨-, -, -, -, e0, e1, -⟩ := idx_facts1 t
  unfold iblk1
  rw [View.read_apply]
  show V c main_arg5 _ = V c main_arg5 y
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The bias row's block at every point is the whole row. -/
theorem iblk1_3_apply (c : Dev nD) (t : Fin cfg1.N) (y : S1x128.Idx) :
    (iblk1 V c 3 t : Vec Ideal S1x128 .f32) y = (V c main_v45 : S1x128.Idx → EReal) y := by
  obtain ⟨-, -, -, -, -, -, e0, e1, -⟩ := idx_facts1 t
  unfold iblk1
  rw [View.read_apply]
  show V c main_v45 _ = V c main_v45 y
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- What point `t` writes back is block `t` of the dense layer of the whole arrays: an entry of the layer depends on one
    row of the table and that row's factor only. -/
theorem flushed1_eq (c : Dev nD) (t : Fin cfg1.N) :
    (dat1 V c).flushed 4 t = ((cfg1.win 4).blk t).view.read (Elt Ideal)
      (blockLayer (V c main_v43) (V c main_v44) (V c main_arg5) (V c main_v45)) := by
  show (cfg1.win 4).cut (grid1.coords t) ((dat1 V c).after 4 t) = _
  rw [after1_4]
  unfold out1_4
  rw [View.canon_unit_zero hz]
  simp only [View.ld_unit_zero (S := S4000x128) hz, View.ld_unit_zero (S := S4000x1) hz,
    View.ld_unit_zero (S := S128x128) hz, View.ld_unit_zero (S := S1x128) hz]
  rw [pay1_eq]
  obtain ⟨-, -, -, -, -, -, -, -, e0, e1⟩ := idx_facts1 t
  funext j
  rw [View.read_apply]
  have hi0 : ((((cfg1.win 4).blk t).view.emb j : S100000x128.Idx) 0).val = t.val * 4000 + (j 0).val := by
    show win1_4.index t (0 : Fin 2) * 4000 + 1 * (j 0).val = _
    rw [e0]; omega
  have hi1 : ((((cfg1.win 4).blk t).view.emb j : S100000x128.Idx) 1).val = (j 1).val := by
    show win1_4.index t (1 : Fin 2) * 128 + 1 * (j 1).val = _
    rw [e1]; omega
  generalize (((cfg1.win 4).blk t).view.emb j : S100000x128.Idx) = i at hi0 hi1
  have hj1 : j 1 = i 1 := Fin.ext hi1.symm
  refine layer_block _ _ _ _ _ _ j i (fun k => ?_) (fun k => ?_) ?_
  · refine scaleRows_block _ _ _ _ _ _ ?_ ?_
    · exact iblk1_0_apply V c t _ _ hi0 rfl
    · exact iblk1_1_apply V c t _ _ hi0 rfl
  · rw [hj1]; exact iblk1_2_apply V c t _
  · rw [hj1]; exact iblk1_3_apply V c t _

/-- An index of the output array is in point `t`'s block iff each coordinate is in the block's range on its axis. -/
theorem mem_blk1 (t : Fin cfg1.N) (i : S100000x128.Idx) :
    i ∈ ((cfg1.win 4).blk t).view.set ↔ ∀ a : Fin 2, win1_4.index t a * S4000x128.size a ≤ (i a).val
      ∧ (i a).val < win1_4.index t a * S4000x128.size a + S4000x128.size a := by
  show i ∈ ((View.whole main_v46).slice (win1_4.rect t)).set ↔ _
  rw [View.set_slice_whole, Rect.mem_set_unit]
  exact Iff.rfl

/-- The output array after region 1: the dense layer of the arrays the region found. Row `r` is written back by
    point `r / 4000`. -/
theorem final1 (c : Dev nD) :
    (dat1 V c).arrAt 4 cfg1.N = blockLayer (V c main_v43) (V c main_v44) (V c main_arg5) (V c main_v45) :=
  (dat1 V c).arrAt_eq_of_cover 4 _ (fun t _ => flushed1_eq V c t) fun (i : S100000x128.Idx) => by
    have hi0 : (i 0).val < 100000 := (i 0).isLt
    have hi1 : (i 1).val < 128 := (i 1).isLt
    have hN : cfg1.N = 25 := N_1
    have ht : (i 0).val / 4000 < cfg1.N := by rw [hN]; omega
    obtain ⟨-, -, -, -, -, -, -, -, e0, e1⟩ := idx_facts1 ⟨(i 0).val / 4000, ht⟩
    refine ⟨⟨(i 0).val / 4000, ht⟩, flush1_4 _, ?_⟩
    rw [mem_blk1]
    intro a
    match a with
    | ⟨0, _⟩ =>
      show win1_4.index ⟨(i 0).val / 4000, ht⟩ (0 : Fin 2) * 4000 ≤ (i 0).val
        ∧ (i 0).val < win1_4.index ⟨(i 0).val / 4000, ht⟩ (0 : Fin 2) * 4000 + 4000
      rw [e0]; dsimp only; omega
    | ⟨1, _⟩ =>
      show win1_4.index ⟨(i 0).val / 4000, ht⟩ (1 : Fin 2) * 128 ≤ (i 1).val
        ∧ (i 1).val < win1_4.index ⟨(i 0).val / 4000, ht⟩ (1 : Fin 2) * 128 + 128
      rw [e1]; omega

end Cert.KernelIdeal.Hand

end
-- ==== Proof.LibBatchNormVar.lean ====
/-
  Batch statistics of a column of finitely many REAL entries, read on the extended reals.

  A column `h i` (`i` over a finite index type of `n > 0` elements) has two spellings of its biased variance:
  the mean of the squared deviations from the mean, `(1/n) Σ (h i − μ)²` with `μ = (1/n) Σ h i`, and the mean
  of the squares less the squared mean, `(1/n) Σ (h i)² − μ²`, clamped below at zero. Over the reals the two are
  one number, and it is non-negative, so the clamp is the identity (`var_clamped_eq`). On the extended reals this
  needs every entry to be a real: with an infinite entry `⊤ − ⊤` appears and the two spellings part.

  Beside it: the inclusion of the reals commutes with finite sums (`coe_sum`) and with a quotient by a non-zero
  real at the ideal instance's division (`div_coe_coe`); a real factor `c ≥ 0` distributes over ANY finite sum of
  extended reals, infinite terms included (`mul_sum_of_nonneg_real`); a sum over `T · R` rows is the sum over
  `T` blocks of the sums over the `R` rows of a block (`sum_blocks`, row `r + R · t` in block `t`); and a running
  total that starts at zero and grows by `b t` at step `t` ends at `Σ b t` (`acc_eq_sum`).
-/
import Idealize.ShloMosaic.PureOps.Ideal
import Mathlib.Algebra.BigOperators.Fin
import Mathlib.Tactic.FieldSimp
import Mathlib.Tactic.Ring
import Mathlib.Tactic.Linarith

noncomputable section

namespace ProofLib.BatchNorm

local notation "idiv" => Idealize.ShloMosaic.Ideal.div

variable {ι : Type*}

/-- The inclusion of the reals in the extended reals commutes with finite sums. -/
theorem coe_sum (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- At the ideal instance a real divided by a non-zero real is the real quotient. -/
theorem div_coe_coe (x : ℝ) {n : ℝ} (hn : n ≠ 0) : idiv (x : EReal) (n : EReal) = ((x / n : ℝ) : EReal) := by
  rw [Idealize.ShloMosaic.Ideal.div_coe hn, ← EReal.coe_mul, mul_one_div]

/-- The sum of the squared deviations from any centre `μ`, expanded. -/
theorem real_sum_sq_dev [Fintype ι] (f : ι → ℝ) (μ : ℝ) {n : ℝ} (hcard : (Fintype.card ι : ℝ) = n) :
    ∑ i, (f i - μ) * (f i - μ) = (∑ i, f i * f i) - 2 * μ * (∑ i, f i) + n * (μ * μ) := by
  calc ∑ i, (f i - μ) * (f i - μ) = ∑ i, (f i * f i - 2 * μ * f i + μ * μ) :=
        Finset.sum_congr rfl fun i _ => by ring
    _ = (∑ i, f i * f i) - 2 * μ * (∑ i, f i) + n * (μ * μ) := by
        rw [Finset.sum_add_distrib, Finset.sum_sub_distrib, ← Finset.mul_sum, Finset.sum_const, Finset.card_univ,
          nsmul_eq_mul, hcard]

/-- Over the reals: the mean of the squares less the squared mean is the mean of the squared deviations from the mean. -/
theorem real_var_eq [Fintype ι] (f : ι → ℝ) {n : ℝ} (hn : n ≠ 0) (hcard : (Fintype.card ι : ℝ) = n) :
    (∑ i, f i * f i) / n - ((∑ i, f i) / n) * ((∑ i, f i) / n)
      = (∑ i, (f i - (∑ j, f j) / n) * (f i - (∑ j, f j) / n)) / n := by
  rw [real_sum_sq_dev f _ hcard]
  field_simp
  ring

/-- The mean of squared deviations is non-negative. -/
theorem real_var_nonneg [Fintype ι] (f : ι → ℝ) (μ : ℝ) {n : ℝ} (hn : 0 < n) :
    0 ≤ (∑ i, (f i - μ) * (f i - μ)) / n :=
  div_nonneg (Finset.sum_nonneg fun i _ => mul_self_nonneg _) hn.le

/-- On the extended reals, for a column of REAL entries: the mean of squares less the squared mean, clamped below at
    zero, is the mean of the squared deviations from the mean (divisions the ideal instance's, by the real `n`, the
    number of entries). -/
theorem var_clamped_eq [Fintype ι] (h : ι → EReal) (f : ι → ℝ) (hh : ∀ i, h i = (f i : EReal))
    {n : ℝ} (hn : 0 < n) (hcard : (Fintype.card ι : ℝ) = n) :
    max (idiv (∑ i, h i * h i) (n : EReal) - idiv (∑ i, h i) (n : EReal) * idiv (∑ i, h i) (n : EReal)) 0
      = idiv (∑ i, (h i - idiv (∑ j, h j) (n : EReal)) * (h i - idiv (∑ j, h j) (n : EReal))) (n : EReal) := by
  have hn0 : n ≠ 0 := hn.ne'
  have e1 : ∑ i, h i = ((∑ i, f i : ℝ) : EReal) := by
    rw [coe_sum]; exact Finset.sum_congr rfl fun i _ => hh i
  have e2 : ∑ i, h i * h i = ((∑ i, f i * f i : ℝ) : EReal) := by
    rw [coe_sum]; exact Finset.sum_congr rfl fun i _ => by rw [hh i, EReal.coe_mul]
  have e4 : ∑ i, (h i - (((∑ j, f j) / n : ℝ) : EReal)) * (h i - (((∑ j, f j) / n : ℝ) : EReal))
      = ((∑ i, (f i - (∑ j, f j) / n) * (f i - (∑ j, f j) / n) : ℝ) : EReal) := by
    rw [coe_sum]; exact Finset.sum_congr rfl fun i _ => by rw [hh i, EReal.coe_mul, EReal.coe_sub]
  rw [e1, e2, div_coe_coe _ hn0, div_coe_coe _ hn0, e4, div_coe_coe _ hn0, ← EReal.coe_mul, ← EReal.coe_sub,
    real_var_eq f hn0 hcard]
  exact max_eq_left (EReal.coe_nonneg.mpr (real_var_nonneg f _ hn))

/-- The mean of a column of real entries is a real: the ideal instance's quotient of their sum by `n ≠ 0`. -/
theorem mean_coe [Fintype ι] (h : ι → EReal) (f : ι → ℝ) (hh : ∀ i, h i = (f i : EReal)) {n : ℝ} (hn : n ≠ 0) :
    idiv (∑ i, h i) (n : EReal) = (((∑ i, f i) / n : ℝ) : EReal) := by
  have e1 : ∑ i, h i = ((∑ i, f i : ℝ) : EReal) := by
    rw [coe_sum]; exact Finset.sum_congr rfl fun i _ => hh i
  rw [e1, div_coe_coe _ hn]

/-- A real factor `c ≥ 0` distributes over a finite sum of extended reals, whatever the terms (an infinite term
    included: `c · (⊤ + ⊥) = c · ⊤ + c · ⊥` for `0 ≤ c < ⊤`). -/
theorem mul_sum_of_nonneg_real (c : ℝ) (hc : 0 ≤ c) (s : Finset ι) (g : ι → EReal) :
    (c : EReal) * ∑ i ∈ s, g i = ∑ i ∈ s, (c : EReal) * g i := by
  classical
  refine Finset.induction_on s ?_ ?_
  · simp
  · intro a s ha ih
    rw [Finset.sum_insert ha, Finset.sum_insert ha,
      EReal.left_distrib_of_nonneg_of_ne_top (EReal.coe_nonneg.mpr hc) (EReal.coe_ne_top c), ih]

/-- A sum over `T · R` rows is the sum over `T` blocks of the sums over the `R` rows of each block: row
    `r + R · t` is row `r` of block `t`. -/
theorem sum_blocks {M : Type*} [AddCommMonoid M] (T R : ℕ) (f : Fin (T * R) → M) :
    ∑ i, f i = ∑ t : Fin T, ∑ r : Fin R, f (finProdFinEquiv (t, r)) :=
  (Equiv.sum_comp finProdFinEquiv f).symm.trans (Fintype.sum_prod_type _)

/-- A running total that starts at zero and grows by `b t` at step `t` ends, after `T` steps, at `Σ_{t < T} b t`. -/
theorem acc_eq_sum {M : Type*} [AddCommMonoid M] (b : ℕ → M) (acc : ℕ → M) (h0 : acc 0 = 0) :
    ∀ T : ℕ, (∀ t, t < T → acc (t + 1) = acc t + b t) → acc T = ∑ t ∈ Finset.range T, b t := by
  intro T
  induction T with
  | zero => intro _; simp [h0]
  | succ k ih =>
    intro hs
    rw [hs k (Nat.lt_succ_self k), Finset.sum_range_succ, ih fun t ht => hs t (Nat.lt_succ_of_lt ht)]

end ProofLib.BatchNorm

end
-- ==== Proof.KMean.lean ====
/-
  The output row of the third kernel region: the mean over the nodes of the rows times their factors.

  The grid has 25 points; point `t` takes rows `4000 t … 4000 t + 3999` of the aggregated table and of the column of
  destination-side factors. The 1 × 128 output row stays in its buffer across the points: the first point starts it at
  the zero word and adds, in column `q`, the sum down its block's rows of `row · factor`; every later point adds its own
  block's sum; the last point then multiplies the row by 1/100000 and is the only one written back. Addition of
  extended reals is associative and commutative, so the 25 block sums added in the grid's order are the sum over all
  100000 rows.
-/
import Idealize.ShloMosaic.Lib.Pipeline.Value
import Idealize.ShloMosaic.Lib.Tactic
import proofs.«109770_j54692113547689_1_alg».proof.Proof.Gen.KernelIdeal.Frame
import proofs.«109770_j54692113547689_1_alg».proof.Proof.KBlocks
import proofs.«109770_j54692113547689_1_alg».proof.Proof.LibBatchNormVar

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem Idealize.ShloMosaic.Tactic
open Idealize.ShloMosaic.Pipeline (Dat)
open Cert.Gnn

variable (V : (c : Dev nD) → (b : Ref sig .tc) → Buf (Elt Ideal) ((c : Thread nD τ).loc b))

/-! ## What each case of the body leaves in the output row -/

/-- The first point: the row is started at the zero word, read back, and the block's sums added. -/
theorem out_A (c : Dev nD) (i : grid2.Coords) (a1 : Memref sig .tc .vmem S4000x128 .f32) (h1 : a1.IsWhole)
    (a2 : Memref sig .tc .vmem S4000x1 .f32) (h2 : a2.IsWhole) (a3 : Memref sig .tc .vmem S1x128 .f32) (h3 : a3.IsWhole)
    (hc0 : cond2_0 i) (hc1 : ¬cond2_1 i) (x0 : Vec Ideal S4000x128 .f32) (x1 : Vec Ideal S4000x1 .f32) :
    out2_A_2 (F := Ideal) c i a1 h1 a2 h2 a3 h3 hc0 hc1 x0 x1 = k2_pay2 x0 x1 (k2_pay1 (F := Ideal)) := by
  unfold out2_A_2
  rw [View.read_writes_eq_canon _ _ _ (cover2_A_2 c i a1 h1 a2 h2 a3 h3 hc0 hc1 x0 x1)]
  unfold kernelRun2_A
  dsimp only
  sl_unfold_words
  rw [View.canon_cons_unit_zero (S := S1x128) hz, View.readCov_unit_zero (S := S1x128) _ hz]
  simp only [View.readAt_eq_ld, h1.read_unread, h2.read_unread, View.ld_unit_zero (S := S4000x128) hz,
    View.ld_unit_zero (S := S4000x1) hz]

/-- A middle point: the block's sums added onto the row as the point before left it. -/
theorem out_B (c : Dev nD) (i : grid2.Coords) (a1 : Memref sig .tc .vmem S4000x128 .f32) (h1 : a1.IsWhole)
    (a2 : Memref sig .tc .vmem S4000x1 .f32) (h2 : a2.IsWhole) (a3 : Memref sig .tc .vmem S1x128 .f32) (h3 : a3.IsWhole)
    (hc0 : ¬cond2_0 i) (hc1 : ¬cond2_1 i) (x0 : Vec Ideal S4000x128 .f32) (x1 : Vec Ideal S4000x1 .f32)
    (xo : Vec Ideal S1x128 .f32) :
    out2_B_2 (F := Ideal) c i a1 h1 a2 h2 a3 h3 hc0 hc1 x0 x1 xo = k2_pay2 x0 x1 xo := by
  unfold out2_B_2
  rw [View.read_writes_eq_canon _ _ _ (cover2_B_2 c i a1 h1 a2 h2 a3 h3 hc0 hc1 x0 x1 xo)]
  unfold kernelRun2_B
  dsimp only
  rw [View.canon_unit_zero hz]
  simp only [View.readAt_eq_ld, h1.read_unread, h2.read_unread, h3.read_unread, View.ld_unit_zero (S := S4000x128) hz,
    View.ld_unit_zero (S := S4000x1) hz, View.ld_unit_zero (S := S1x128) hz]

/-- The last point: the block's sums added, the row read back and multiplied by the reciprocal of the node count. -/
theorem out_C (c : Dev nD) (i : grid2.Coords) (a1 : Memref sig .tc .vmem S4000x128 .f32) (h1 : a1.IsWhole)
    (a2 : Memref sig .tc .vmem S4000x1 .f32) (h2 : a2.IsWhole) (a3 : Memref sig .tc .vmem S1x128 .f32) (h3 : a3.IsWhole)
    (hc0 : ¬cond2_0 i) (hc1 : cond2_1 i) (x0 : Vec Ideal S4000x128 .f32) (x1 : Vec Ideal S4000x1 .f32)
    (xo : Vec Ideal S1x128 .f32) :
    out2_C_2 (F := Ideal) c i a1 h1 a2 h2 a3 h3 hc0 hc1 x0 x1 xo = k2_pay3 (k2_pay2 x0 x1 xo) := by
  unfold out2_C_2
  rw [View.read_writes_eq_canon _ _ _ (cover2_C_2 c i a1 h1 a2 h2 a3 h3 hc0 hc1 x0 x1 xo)]
  unfold kernelRun2_C
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S4000x128) hz,
    View.ld_unit_zero (S := S4000x1) hz, View.ld_unit_zero (S := S1x128) hz]

/-! ## The blocks as rows of the arrays -/

/-- The printed index maps of the region, decided over its grid: the row blocks follow the grid point. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0 :=
  (by decide +kernel : ∀ t : Fin grid2.N, _)

/-- Row `r` of block `t` is row `4000 t + r` of the array. -/
def rowAt (t : Fin 25) (r : Fin 4000) : Fin 100000 := ⟨t.val * 4000 + r.val, by have := t.isLt; have := r.isLt; omega⟩

theorem iblk2_0_apply (c : Dev nD) (t : Fin cfg2.N) (r : Fin 4000) (q : Fin 128) :
    (iblk2 V c 0 t : Vec Ideal S4000x128 .f32) (ix2 r q)
      = (V c main_v59 : S100000x128.Idx → EReal) (ix2 (rowAt ⟨t.val, lt_of_lt_of_eq t.isLt N_2⟩ r) q) := by
  obtain ⟨e0, e1, -⟩ := idx_facts2 t
  unfold iblk2
  rw [View.read_apply]
  show V c main_v59 _ = V c main_v59 _
  congr 1
  funext a
  apply Fin.ext
  match a with
  | ⟨0, _⟩ => show win2_0.index t (0 : Fin 2) * 4000 + 1 * r.val = t.val * 4000 + r.val; rw [e0]; omega
  | ⟨1, _⟩ => show win2_0.index t (1 : Fin 2) * 128 + 1 * q.val = q.val; rw [e1]; omega

theorem iblk2_1_apply (c : Dev nD) (t : Fin cfg2.N) (r : Fin 4000) :
    (iblk2 V c 1 t : Vec Ideal S4000x1 .f32) (ix2 r (0 : Fin 1))
      = (V c main_v60 : S100000x1.Idx → EReal) (ix2 (rowAt ⟨t.val, lt_of_lt_of_eq t.isLt N_2⟩ r) (0 : Fin 1)) := by
  obtain ⟨-, -, e0, e1, -⟩ := idx_facts2 t
  unfold iblk2
  rw [View.read_apply]
  show V c main_v60 _ = V c main_v60 _
  congr 1
  funext a
  apply Fin.ext
  match a with
  | ⟨0, _⟩ => show win2_1.index t (0 : Fin 2) * 4000 + 1 * r.val = t.val * 4000 + r.val; rw [e0]; omega
  | ⟨1, _⟩ => show win2_1.index t (1 : Fin 2) * 1 + 1 * 0 = 0; rw [e1]

/-! ## The running sums -/

/-- The sum down block `t`'s rows of `row · factor`, in column `q`. -/
def blockSum (A : S100000x128.Idx → EReal) (S : S100000x1.Idx → EReal) (t : Fin 25) (q : Fin 128) : EReal :=
  ∑ r : Fin 4000, A (ix2 (rowAt t r) q) * S (ix2 (rowAt t r) (0 : Fin 1))

/-- The row of running sums after point `n`, by the cases' values: started at the first point, added to at the others. -/
def chain (c : Dev nD) : (n : ℕ) → n < cfg2.N → Vec Ideal S1x128 .f32
  | 0, h => k2_pay2 (iblk2 V c 0 ⟨0, h⟩) (iblk2 V c 1 ⟨0, h⟩) (k2_pay1 (F := Ideal))
  | n + 1, h => k2_pay2 (iblk2 V c 0 ⟨n + 1, h⟩) (iblk2 V c 1 ⟨n + 1, h⟩) (chain c n (Nat.lt_of_succ_lt h))

/-- Before the last point the output row holds the running sums. -/
theorem outsAt_eq (c : Dev nD) : ∀ (n : ℕ) (h : n < cfg2.N), n < 24 → outsAt2 V c n h = chain V c n h
  | 0, h, _ => (outsAt2_A V c ⟨0, h⟩ rfl (by dsimp only; omega)).trans (out_A ..)
  | n + 1, h, hn => by
    have hB0 : ¬(⟨n + 1, h⟩ : Fin cfg2.N).val % 25 = 0 := by dsimp only; omega
    have hB1 : ¬(⟨n + 1, h⟩ : Fin cfg2.N).val % 25 = 24 := by dsimp only; omega
    rw [outsAt2_B V c ⟨n + 1, h⟩ hB0 hB1, out_B]
    show k2_pay2 _ _ (outsAt2 V c n _) = k2_pay2 _ _ (chain V c n _)
    rw [outsAt_eq c n _ (by omega)]

/-- After the last point it holds them times the reciprocal of the node count. -/
theorem outsAt_last (c : Dev nD) (h : 24 < cfg2.N) : outsAt2 V c 24 h = k2_pay3 (chain V c 24 h) := by
  have hC0 : ¬(⟨24, h⟩ : Fin cfg2.N).val % 25 = 0 := by dsimp only; omega
  have hC1 : (⟨24, h⟩ : Fin cfg2.N).val % 25 = 24 := by dsimp only
  rw [outsAt2_C V c ⟨24, h⟩ hC0 hC1, out_C]
  show k2_pay3 (k2_pay2 _ _ (outsAt2 V c 23 _)) = k2_pay3 (k2_pay2 _ _ (chain V c 23 _))
  rw [outsAt_eq V c 23 _ (by decide)]

/-- The running sums after point `n`, in column `q`: the zero word plus the first `n + 1` block sums. -/
theorem chain_apply (c : Dev nD) (q : Fin 128) : ∀ (n : ℕ) (h : n < cfg2.N),
    chain V c n h (ix2 (0 : Fin 1) q) = Ideal.ofBits .f32 0x00000000#32
      + ∑ t : Fin (n + 1), blockSum (V c main_v59) (V c main_v60)
          ⟨t.val, lt_of_le_of_lt (Nat.le_of_lt_succ t.isLt) (lt_of_lt_of_eq h N_2)⟩ q
  | 0, h => by
    show k2_pay2 _ _ _ (ix2 (0 : Fin 1) q) = _
    rw [pay2_2_apply, pay2_1_apply, Fin.sum_univ_one]
    refine congrArg (Ideal.ofBits .f32 0x00000000#32 + ·) (Finset.sum_congr rfl fun r _ => ?_)
    rw [iblk2_0_apply, iblk2_1_apply]
    rfl
  | n + 1, h => by
    show k2_pay2 _ _ _ (ix2 (0 : Fin 1) q) = _
    rw [pay2_2_apply, chain_apply c q n (Nat.lt_of_succ_lt h), add_assoc]
    refine congrArg (Ideal.ofBits .f32 0x00000000#32 + ·) ?_
    refine Eq.trans ?_ (Fin.sum_univ_castSucc (fun t : Fin (n + 1 + 1) => blockSum (V c main_v59) (V c main_v60)
      ⟨t.val, lt_of_le_of_lt (Nat.le_of_lt_succ t.isLt) (lt_of_lt_of_eq h N_2)⟩ q)).symm
    refine congrArg₂ (· + ·) rfl (Finset.sum_congr rfl fun r _ => ?_)
    rw [iblk2_0_apply, iblk2_1_apply]
    rfl

/-- The 25 block sums are the sum over all 100000 rows. -/
theorem blockSum_total (A : S100000x128.Idx → EReal) (S : S100000x1.Idx → EReal) (q : Fin 128) :
    ∑ t : Fin 25, blockSum A S t q = ∑ n : Fin 100000, A (ix2 n q) * S (ix2 n (0 : Fin 1)) := by
  refine ((ProofLib.BatchNorm.sum_blocks 25 4000 fun n : Fin (25 * 4000) => A (ix2 n q) * S (ix2 n (0 : Fin 1))).trans ?_).symm
  refine Finset.sum_congr rfl fun t _ => Finset.sum_congr rfl fun r _ => ?_
  have e : (finProdFinEquiv (t, r) : Fin (25 * 4000)) = rowAt t r := Fin.ext (by
    show r.val + 4000 * t.val = t.val * 4000 + r.val; omega)
  rw [e]

/-- The mean row: in column `q` the sum over the nodes of `row · factor`, times 1/100000. -/
def meanRow (A : S100000x128.Idx → EReal) (S : S100000x1.Idx → EReal) : S1x128.Idx → EReal :=
  fun i => (∑ n : Fin 100000, A (ix2 n (i 1)) * S (ix2 n (0 : Fin 1))) * ((1 / 100000 : ℝ) : EReal)

/-- What the output row holds after the last point is the mean row of the arrays the region found. -/
theorem last_eq (c : Dev nD) (h : 24 < cfg2.N) : outsAt2 V c 24 h = meanRow (V c main_v59) (V c main_v60) := by
  rw [outsAt_last]
  funext i
  obtain ⟨p, q, rfl⟩ : ∃ (p : Fin 1) (q : Fin 128), i = ix2 p q := ⟨i 0, i 1, eq_ix2 i⟩
  obtain rfl : p = 0 := Subsingleton.elim _ _
  rw [pay2_3_apply, chain_apply, Ideal.ofBits_zero_f32, zero_add]
  show _ = (∑ n : Fin 100000, _) * _
  rw [← blockSum_total]

/-! ## The array after the region -/

/-- The last grid point. -/
def t24 : Fin cfg2.N := ⟨24, by rw [show cfg2.N = 25 from N_2]; decide⟩

/-- What the output row holds after the last point, the point written as a grid point. -/
theorem last_eq' (c : Dev nD) : outsAt2 V c t24.val t24.isLt = meanRow (V c main_v59) (V c main_v60) :=
  last_eq V c _

/-- An index of the output row is in point `t`'s block iff each coordinate is in the block's range on its axis. -/
theorem mem_blk2 (t : Fin cfg2.N) (i : S1x128.Idx) :
    i ∈ ((cfg2.win 2).blk t).view.set ↔ ∀ a : Fin 2, win2_2.index t a * S1x128.size a ≤ (i a).val
      ∧ (i a).val < win2_2.index t a * S1x128.size a + S1x128.size a := by
  show i ∈ ((View.whole main_v61).slice (win2_2.rect t)).set ↔ _
  rw [View.set_slice_whole, Rect.mem_set_unit]
  exact Iff.rfl

/-- The one write-back, at the last point, writes the mean row: the 1 × 128 block read through zero offsets is the array. -/
theorem flushed2_eq (c : Dev nD) (t : Fin cfg2.N) (hf : (cfg2.win 2).flush t = true) :
    (dat2 V c).flushed 2 t = ((cfg2.win 2).blk t).view.read (Elt Ideal) (meanRow (V c main_v59) (V c main_v60)) := by
  have hN : cfg2.N = 25 := N_2
  have h24 : t.val = 24 := by have := (flush2_2 t).mp hf; have := t.isLt; omega
  obtain rfl : t = t24 := Fin.ext h24
  show (cfg2.win 2).cut (grid2.coords t24) ((dat2 V c).after 2 t24) = _
  rw [after2_2, last_eq']
  have hz' : (fun a => win2_2.index t24 a * main_v61.ty.shape.size a) = fun _ => 0 := by
    obtain ⟨-, -, -, -, e0, e1⟩ := idx_facts2 t24
    funext a
    match a with
    | ⟨0, _⟩ => show win2_2.index t24 (0 : Fin 2) * 1 = 0; rw [e0]
    | ⟨1, _⟩ => show win2_2.index t24 (1 : Fin 2) * 128 = 0; rw [e1]
  exact (Memref.read_access_unit_zero (Elt Ideal) main_v61 hz' (fun a => by rw [congrFun hz' a]; simp)
    (meanRow (V c main_v59) (V c main_v60))).symm

/-- So the output array ends holding the mean row. -/
theorem final2 (c : Dev nD) : (dat2 V c).arrAt 2 cfg2.N = meanRow (V c main_v59) (V c main_v60) :=
  (dat2 V c).arrAt_eq_of_cover 2 _ (flushed2_eq V c) fun (i : S1x128.Idx) => by
    refine ⟨t24, (flush2_2 t24).mpr rfl, ?_⟩
    rw [mem_blk2]
    intro a
    have h0 : (i 0 : Nat) < 1 := (i 0).isLt
    have h1 : (i 1 : Nat) < 128 := (i 1).isLt
    obtain ⟨-, -, -, -, e0, e1⟩ := idx_facts2 t24
    match a with
    | ⟨0, _⟩ =>
      show win2_2.index t24 (0 : Fin 2) * 1 ≤ (i 0 : Nat) ∧ (i 0 : Nat) < win2_2.index t24 (0 : Fin 2) * 1 + 1
      rw [e0]; omega
    | ⟨1, _⟩ =>
      show win2_2.index t24 (1 : Fin 2) * 128 ≤ (i 1 : Nat) ∧ (i 1 : Nat) < win2_2.index t24 (1 : Fin 2) * 128 + 128
      rw [e1]; omega

end Cert.KernelIdeal.Hand

end
-- ==== Proof.LibRealOps.lean ====
/-
  The reals are closed under the ideal operations a normalisation uses.

  At the ideal instance a float is an extended real, and most laws that join two spellings of one formula (a variance,
  a product moved across a sum) hold only where every value is a REAL. These lemmas carry "is a real" through the
  operations, one value at a time, each naming the real the result is:
  * `rsqrt_coe_of_pos`: the reciprocal square root of a real `r > 0` is the real `(√r)⁻¹`, which is positive
    (`inv_sqrt_pos`); `rsqrt_add_eps`: so is that of `v + ε` for `v ≥ 0`, `ε > 0` (a variance plus its epsilon);
  * `coe_max`: the maximum of two reals; `dot_coe`: the inner product of two real rows; `sum_ones`: a sum of ones
    over a finite set is the number of its elements (a node's degree, counted by scattering ones);
  * `cmp_ogt_eq_one_iff`: the comparison `x > y` is the flag 1 exactly when `y < x`;
  * `gcn_coeff_coe`: the symmetric-normalisation coefficient `where(d > 0, rsqrt(max(d, 1)), 0)` of a real degree
    `d` is a real, and `gcn_coeff_nonneg`: it is non-negative — what lets it move across a neighbourhood sum.
-/
import Idealize.ShloMosaic.PureOps.Ideal
import Mathlib.Algebra.BigOperators.Fin
import Mathlib.Tactic.Linarith

noncomputable section

namespace ProofLib.RealOps

open Idealize.ShloMosaic

variable {ι : Type*}

/-- The inclusion of the reals in the extended reals commutes with finite sums. -/
theorem coe_sum (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The reciprocal square root of a positive real is the real `(√r)⁻¹`. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

/-- That real is positive. -/
theorem inv_sqrt_pos {r : ℝ} (hr : 0 < r) : 0 < (Real.sqrt r)⁻¹ := inv_pos.mpr (Real.sqrt_pos.mpr hr)

/-- The reciprocal square root of `v + ε`, `v ≥ 0` and `ε > 0` reals: a variance plus its epsilon. -/
theorem rsqrt_add_eps {v eps : ℝ} (hv : 0 ≤ v) (he : 0 < eps) :
    Ideal.rsqrt ((v : EReal) + (eps : EReal)) = (((Real.sqrt (v + eps))⁻¹ : ℝ) : EReal) := by
  rw [← EReal.coe_add, rsqrt_coe_of_pos (add_pos_of_nonneg_of_pos hv he)]

/-- The maximum of two reals, in the extended reals, is their real maximum. -/
theorem coe_max (x y : ℝ) : ((max x y : ℝ) : EReal) = max (x : EReal) (y : EReal) :=
  EReal.coe_strictMono.monotone.map_max

/-- The inner product of two real rows is the real inner product. -/
theorem dot_coe (s : Finset ι) (a b : ι → ℝ) :
    ∑ k ∈ s, (a k : EReal) * (b k : EReal) = ((∑ k ∈ s, a k * b k : ℝ) : EReal) := by
  rw [coe_sum]; exact Finset.sum_congr rfl fun k _ => (EReal.coe_mul _ _).symm

/-- A sum of ones over a finite set is the number of its elements. -/
theorem sum_ones (s : Finset ι) : ∑ _i ∈ s, (1 : EReal) = ((s.card : ℝ) : EReal) := by
  have h1 : ∑ _i ∈ s, (1 : EReal) = ∑ _i ∈ s, ((1 : ℝ) : EReal) := by simp
  rw [h1, ← coe_sum]; simp

/-- The comparison `x > y` is the flag 1 exactly when `y < x`. -/
theorem cmp_ogt_eq_one_iff (x y : EReal) : Ideal.cmp .ogt x y = 1#1 ↔ y < x := by
  unfold Ideal.cmp
  by_cases h : y < x <;> simp [h]

/-- The symmetric-normalisation coefficient of a real degree `d`: `(√(max d 1))⁻¹` where `d > 0`, else `0`. -/
def gcnCoeff (d : ℝ) : ℝ := if 0 < d then (Real.sqrt (max d 1))⁻¹ else 0

/-- `where(d > 0, rsqrt(max(d, 1)), 0)` at a real `d` is the real `gcnCoeff d`. -/
theorem gcn_coeff_coe (d : ℝ) :
    Scalar.select (Ideal.cmp .ogt (d : EReal) 0) (Ideal.rsqrt (max (d : EReal) 1)) (0 : EReal) = ((gcnCoeff d : ℝ) : EReal) := by
  have h1 : (1 : EReal) = ((1 : ℝ) : EReal) := EReal.coe_one.symm
  have hpos : (0 : ℝ) < max d 1 := lt_of_lt_of_le one_pos (le_max_right d 1)
  unfold Scalar.select gcnCoeff
  by_cases hd : 0 < d
  · have hc : Ideal.cmp .ogt (d : EReal) 0 = (1 : BitVec 1) := (cmp_ogt_eq_one_iff _ _).mpr (by exact_mod_cast hd)
    rw [if_pos hc, if_pos hd, h1, ← coe_max, rsqrt_coe_of_pos hpos]
  · have hc : ¬ Ideal.cmp .ogt (d : EReal) 0 = (1 : BitVec 1) := fun e => hd (by exact_mod_cast (cmp_ogt_eq_one_iff _ _).mp e)
    rw [if_neg hc, if_neg hd, EReal.coe_zero]

/-- The coefficient is non-negative. -/
theorem gcn_coeff_nonneg (d : ℝ) : 0 ≤ gcnCoeff d := by
  unfold gcnCoeff
  split
  · exact inv_nonneg.mpr (Real.sqrt_nonneg _)
  · exact le_rfl

end ProofLib.RealOps

end
-- ==== Proof.LibGcnLaw.lean ====
/-
  Two rounds of mean aggregation over the edges of a graph, each followed by a dense layer, as whole-array functions
  on the extended reals, in two arrangements, and the law that joins them.

  The graph is given by two maps: edge `e` reads the row `g e` of a node table, and `L n` is the set of edges whose
  sum lands on node `n`. `agg` of a table `x` is, at `(n, c)`, the starting value `z` plus the sum over `e ∈ L n` of
  `x (g e, c)`. A node's degree is `z` plus one `one` per edge of `L n`, and the mean divides by the larger of the
  degree and `one`.

  * The first arrangement multiplies the aggregated rows by the reciprocal `one / max(deg, one)`, applies
    `relu (· W1 + b1)`, multiplies by `W2` BEFORE aggregating a second time, multiplies by the reciprocal again and adds
    `b2`.
  * The second arrangement divides the aggregated rows by `max(deg, one)`, applies `relu (· W1 + b1)`, aggregates,
    divides again, and only then applies `· W2 + b2`.

  With `z = 0` and `one = 1` the divisor is the real number `max(|L n|, 1) ≥ 1`, so dividing by it and multiplying by
  its reciprocal are the same operation on every extended real, and the two first layers agree with no hypothesis
  on the entries. The second layers differ by moving the product with `W2` and the factor `1 / max(|L n|, 1)` across
  the sum over `L n`: distributivity, which on the extended reals needs the summands to be REAL. They are when the
  features and the weights `W1`, `b1`, `W2` are real; `b2` is added last on both sides and may be anything.
-/
import Idealize.ShloMosaic.Lib.ValueIdx
import Idealize.ShloMosaic.PureOps.Ideal
import proofs.«109770_j54692113547689_1_alg».proof.Proof.LibDense
import proofs.«109770_j54692113547689_1_alg».proof.Proof.LibRealOps

noncomputable section

open scoped BigOperators

namespace Cert.Gcn

open Idealize.ShloMosaic Idealize.ShloMosaic.ValueIdx Cert.Lib.BiasDot Cert.Lib.Dense ProofLib.RealOps

/-! ## Real entries -/

/-- An extended real that is a real number. -/
def IsReal (x : EReal) : Prop := ∃ r : ℝ, x = (r : EReal)

theorem isReal_coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  obtain ⟨a, rfl⟩ := hx; obtain ⟨b, rfl⟩ := hy; exact ⟨Max.max a b, (coe_max a b).symm⟩

theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A real factor `t` and a product with real weights `W k` move across a sum of real terms: with `z = 0`,
    `(z + ∑ e, ∑ k, H e k · W k) · t = ∑ k, ((z + ∑ e, H e k) · t) · W k`. -/
theorem swap_scale {ι κ : Type*} (S : Finset ι) (K : Finset κ) (H : ι → κ → EReal) (W : κ → EReal) (t z : EReal)
    (hz : z = 0) (ht : IsReal t) (hH : ∀ e k, IsReal (H e k)) (hW : ∀ k, IsReal (W k)) :
    (z + ∑ e ∈ S, ∑ k ∈ K, H e k * W k) * t = ∑ k ∈ K, ((z + ∑ e ∈ S, H e k) * t) * W k := by
  subst hz
  obtain ⟨t, rfl⟩ := ht
  choose h hh using hH
  choose w hw using hW
  simp only [hh, hw, zero_add]
  have hl : ∑ e ∈ S, ∑ k ∈ K, ((h e k : ℝ) : EReal) * ((w k : ℝ) : EReal)
      = ((∑ e ∈ S, ∑ k ∈ K, h e k * w k : ℝ) : EReal) := by
    rw [coe_sum]
    exact Finset.sum_congr rfl fun e _ => dot_coe K (h e) w
  have hr : ∀ k, ((∑ e ∈ S, ((h e k : ℝ) : EReal)) * ((t : ℝ) : EReal)) * ((w k : ℝ) : EReal)
      = (((∑ e ∈ S, h e k) * t * w k : ℝ) : EReal) := by
    intro k
    rw [← coe_sum, ← EReal.coe_mul, ← EReal.coe_mul]
  rw [hl, ← EReal.coe_mul, Finset.sum_congr rfl fun k _ => hr k, ← coe_sum]
  refine congrArg _ ?_
  rw [Finset.sum_comm, Finset.sum_mul]
  refine Finset.sum_congr rfl fun k _ => ?_
  rw [Finset.sum_mul, Finset.sum_mul, Finset.sum_mul]
  exact Finset.sum_congr rfl fun e _ => by ring

/-! ## The layers -/

variable {N E : Nat}

/-- The aggregated table: at `(n, c)`, `z` plus the sum over the edges landing on `n` of the row each edge reads. -/
def agg (g : Fin E → Fin N) (L : Fin N → Finset (Fin E)) {C : Nat} (z : EReal)
    (x : (⟨2, ![N, C]⟩ : Shape).Idx → EReal) : (⟨2, ![N, C]⟩ : Shape).Idx → EReal :=
  fun i => z + ∑ e ∈ L (i 0), x (ix2 (g e) (i 1))

/-- Every row multiplied by its own factor. -/
def scaleRows {C : Nat} (s : Fin N → EReal) (x : (⟨2, ![N, C]⟩ : Shape).Idx → EReal) :
    (⟨2, ![N, C]⟩ : Shape).Idx → EReal :=
  fun i => x i * s (i 0)

/-- Every row divided by its own divisor. -/
def divRows {C : Nat} (d : Fin N → EReal) (x : (⟨2, ![N, C]⟩ : Shape).Idx → EReal) :
    (⟨2, ![N, C]⟩ : Shape).Idx → EReal :=
  fun i => Ideal.div (x i) (d (i 0))

/-- A node's degree: `z` plus one `one` per edge landing on it. -/
def degree (L : Fin N → Finset (Fin E)) (z one : EReal) : Fin N → EReal := fun n => z + ∑ _e ∈ L n, one

/-- The divisor of the mean: the larger of the degree and `one`. -/
def divisor (L : Fin N → Finset (Fin E)) (z one : EReal) : Fin N → EReal := fun n => max (degree L z one n) one

/-- Its reciprocal, computed as `one / divisor`. -/
def recip (L : Fin N → Finset (Fin E)) (z one : EReal) : Fin N → EReal := fun n => Ideal.div one (divisor L z one n)

variable {Df Dh Dc : Nat}

/-- The hidden layer of the first arrangement: `relu ((agg x · recip) W1 + b1)`. -/
def hiddenK (g : Fin E → Fin N) (L : Fin N → Finset (Fin E)) (z one : EReal)
    (x : (⟨2, ![N, Df]⟩ : Shape).Idx → EReal) (W1 : (⟨2, ![Df, Dh]⟩ : Shape).Idx → EReal)
    (b1 : (⟨1, ![Dh]⟩ : Shape).Idx → EReal) : (⟨2, ![N, Dh]⟩ : Shape).Idx → EReal :=
  relu (lin (scaleRows (recip L z one) (agg g L z x)) W1 b1)

/-- THE FIRST ARRANGEMENT: the product with `W2` taken before the second aggregation. -/
def outK (g : Fin E → Fin N) (L : Fin N → Finset (Fin E)) (z one : EReal)
    (x : (⟨2, ![N, Df]⟩ : Shape).Idx → EReal) (W1 : (⟨2, ![Df, Dh]⟩ : Shape).Idx → EReal)
    (b1 : (⟨1, ![Dh]⟩ : Shape).Idx → EReal) (W2 : (⟨2, ![Dh, Dc]⟩ : Shape).Idx → EReal)
    (b2 : (⟨1, ![Dc]⟩ : Shape).Idx → EReal) : (⟨2, ![N, Dc]⟩ : Shape).Idx → EReal :=
  addRow (scaleRows (recip L z one) (agg g L z (mm (hiddenK g L z one x W1 b1) W2))) b2

/-- The hidden layer of the second arrangement: `relu ((agg x / divisor) W1 + b1)`. -/
def hiddenR (g : Fin E → Fin N) (L : Fin N → Finset (Fin E)) (z one : EReal)
    (x : (⟨2, ![N, Df]⟩ : Shape).Idx → EReal) (W1 : (⟨2, ![Df, Dh]⟩ : Shape).Idx → EReal)
    (b1 : (⟨1, ![Dh]⟩ : Shape).Idx → EReal) : (⟨2, ![N, Dh]⟩ : Shape).Idx → EReal :=
  relu (lin (divRows (divisor L z one) (agg g L z x)) W1 b1)

/-- THE SECOND ARRANGEMENT: the second aggregation, the division, and then the product with `W2` and the bias. -/
def outR (g : Fin E → Fin N) (L : Fin N → Finset (Fin E)) (z one : EReal)
    (x : (⟨2, ![N, Df]⟩ : Shape).Idx → EReal) (W1 : (⟨2, ![Df, Dh]⟩ : Shape).Idx → EReal)
    (b1 : (⟨1, ![Dh]⟩ : Shape).Idx → EReal) (W2 : (⟨2, ![Dh, Dc]⟩ : Shape).Idx → EReal)
    (b2 : (⟨1, ![Dc]⟩ : Shape).Idx → EReal) : (⟨2, ![N, Dc]⟩ : Shape).Idx → EReal :=
  lin (divRows (divisor L z one) (agg g L z (hiddenR g L z one x W1 b1))) W2 b2

/-! ## The divisor is a real number at least one -/

/-- The real divisor of node `n`: the larger of the number of edges landing on it and one. -/
def divisorR (L : Fin N → Finset (Fin E)) (n : Fin N) : ℝ := max ((L n).card : ℝ) 1

theorem divisorR_ne_zero (L : Fin N → Finset (Fin E)) (n : Fin N) : divisorR L n ≠ 0 :=
  ne_of_gt (lt_of_lt_of_le one_pos (le_max_right _ _))

theorem divisor_eq (L : Fin N → Finset (Fin E)) (z one : EReal) (hz : z = 0) (hone : one = 1) (n : Fin N) :
    divisor L z one n = ((divisorR L n : ℝ) : EReal) := by
  subst hz hone
  unfold divisor degree divisorR
  rw [zero_add, sum_ones, coe_max, EReal.coe_one]

/-- Dividing a row by the divisor is multiplying it by the real `1 / divisorR`. -/
theorem divRows_eq {C : Nat} (L : Fin N → Finset (Fin E)) (z one : EReal) (hz : z = 0) (hone : one = 1)
    (x : (⟨2, ![N, C]⟩ : Shape).Idx → EReal) :
    divRows (divisor L z one) x = scaleRows (fun n => ((1 / divisorR L n : ℝ) : EReal)) x := by
  funext i
  obtain ⟨p, q, rfl⟩ : ∃ (p : Fin N) (q : Fin C), i = ix2 p q := ⟨i 0, i 1, eq_ix2 i⟩
  show Ideal.div (x (ix2 p q)) (divisor L z one p) = x (ix2 p q) * ((1 / divisorR L p : ℝ) : EReal)
  rw [divisor_eq L z one hz hone, Ideal.div_coe (divisorR_ne_zero L p)]

/-- The reciprocal `one / divisor` is the real `1 / divisorR`. -/
theorem recip_eq (L : Fin N → Finset (Fin E)) (z one : EReal) (hz : z = 0) (hone : one = 1) :
    recip L z one = fun n => ((1 / divisorR L n : ℝ) : EReal) := by
  funext n
  show Ideal.div one (divisor L z one n) = _
  rw [divisor_eq L z one hz hone, Ideal.div_coe (divisorR_ne_zero L n), hone, one_mul]

/-! ## The two arrangements agree on real entries -/

theorem hiddenR_eq_hiddenK (g : Fin E → Fin N) (L : Fin N → Finset (Fin E)) (z one : EReal) (hz : z = 0) (hone : one = 1)
    (x : (⟨2, ![N, Df]⟩ : Shape).Idx → EReal) (W1 : (⟨2, ![Df, Dh]⟩ : Shape).Idx → EReal)
    (b1 : (⟨1, ![Dh]⟩ : Shape).Idx → EReal) : hiddenR g L z one x W1 b1 = hiddenK g L z one x W1 b1 := by
  unfold hiddenR hiddenK
  rw [divRows_eq L z one hz hone, recip_eq L z one hz hone]

/-- The hidden layer has real entries when the features, `W1` and `b1` do. -/
theorem hiddenK_real (g : Fin E → Fin N) (L : Fin N → Finset (Fin E)) (z one : EReal) (hz : z = 0) (hone : one = 1)
    (x : (⟨2, ![N, Df]⟩ : Shape).Idx → EReal) (W1 : (⟨2, ![Df, Dh]⟩ : Shape).Idx → EReal)
    (b1 : (⟨1, ![Dh]⟩ : Shape).Idx → EReal) (hx : ∀ i, IsReal (x i)) (hW1 : ∀ i, IsReal (W1 i)) (hb1 : ∀ i, IsReal (b1 i))
    (i : (⟨2, ![N, Dh]⟩ : Shape).Idx) : IsReal (hiddenK g L z one x W1 b1 i) := by
  unfold hiddenK
  rw [recip_eq L z one hz hone]
  obtain ⟨p, q, rfl⟩ : ∃ (p : Fin N) (q : Fin Dh), i = ix2 p q := ⟨i 0, i 1, eq_ix2 i⟩
  show IsReal (max ((∑ k : Fin Df, ((z + ∑ e ∈ L p, x (ix2 (g e) k)) * ((1 / divisorR L p : ℝ) : EReal)) * W1 (ix2 k q))
    + b1 (ix1 q)) 0)
  refine IsReal.max (IsReal.add (isReal_sum _ _ fun k _ => IsReal.mul ?_ (hW1 _)) (hb1 _)) isReal_zero
  exact IsReal.mul (IsReal.add (hz ▸ isReal_zero) (isReal_sum _ _ fun e _ => hx _)) (isReal_coe _)

/-- THE LAW: on real features and real `W1`, `b1`, `W2` the two arrangements are one function. -/
theorem outK_eq_outR (g : Fin E → Fin N) (L : Fin N → Finset (Fin E)) (z one : EReal) (hz : z = 0) (hone : one = 1)
    (x : (⟨2, ![N, Df]⟩ : Shape).Idx → EReal) (W1 : (⟨2, ![Df, Dh]⟩ : Shape).Idx → EReal)
    (b1 : (⟨1, ![Dh]⟩ : Shape).Idx → EReal) (W2 : (⟨2, ![Dh, Dc]⟩ : Shape).Idx → EReal)
    (b2 : (⟨1, ![Dc]⟩ : Shape).Idx → EReal)
    (hx : ∀ i, IsReal (x i)) (hW1 : ∀ i, IsReal (W1 i)) (hb1 : ∀ i, IsReal (b1 i)) (hW2 : ∀ i, IsReal (W2 i)) :
    outK g L z one x W1 b1 W2 b2 = outR g L z one x W1 b1 W2 b2 := by
  unfold outK outR
  rw [hiddenR_eq_hiddenK g L z one hz hone, divRows_eq L z one hz hone, recip_eq L z one hz hone]
  funext i
  obtain ⟨p, q, rfl⟩ : ∃ (p : Fin N) (q : Fin Dc), i = ix2 p q := ⟨i 0, i 1, eq_ix2 i⟩
  show (z + ∑ e ∈ L p, ∑ k : Fin Dh, hiddenK g L z one x W1 b1 (ix2 (g e) k) * W2 (ix2 k q))
        * ((1 / divisorR L p : ℝ) : EReal) + b2 (ix1 q)
      = (∑ k : Fin Dh, ((z + ∑ e ∈ L p, hiddenK g L z one x W1 b1 (ix2 (g e) k))
        * ((1 / divisorR L p : ℝ) : EReal)) * W2 (ix2 k q)) + b2 (ix1 q)
  refine congrArg (· + b2 (ix1 q)) ?_
  exact swap_scale (L p) Finset.univ (fun e k => hiddenK g L z one x W1 b1 (ix2 (g e) k)) (fun k => W2 (ix2 k q))
    _ z hz (isReal_coe _) (fun e k => hiddenK_real g L z one hz hone x W1 b1 hx hW1 hb1 _) (fun k => hW2 _)

end Cert.Gcn

end
-- ==== Proof.LibRowScatter.lean ====
/-
  A row gather and a row scatter-add, read at an index.

  For a table `x` of `N` rows and `C` columns and a column `idx` of `M` integer words:

  * the gather of rows takes result row `e` from the operand row `idx[e]` read as a signed integer and clamped into
    `[0, N − 1]`: entry `(e, c)` of the result is `x (gatherRow idx e, c)`;
  * the scatter-add of rows adds update row `e` into the operand row `idx[e]` read as a signed integer and not
    clamped (an update whose row is outside `[0, N − 1]` is dropped): entry `(n, c)` of the result is
    `x (n, c) + ∑ e ∈ landsOn idx N n, upd (e, c)`, the sum over the update rows whose index is `n`.

  Neither the row `gatherRow idx e` nor the set `landsOn idx N n` depends on the number of columns or on the entries.
-/
import Idealize.ShloMosaic.Lib.ValueIdx
import Idealize.ShloMosaic.PureOps.Ideal.Laws
import Idealize.ShloMosaic.Lib.Pipeline.Value

noncomputable section

open scoped BigOperators

namespace Cert.Lib.RowScatter

open Idealize.ShloMosaic Idealize.ShloMosaic.ValueIdx

/-! ## The gather of rows -/

section Gather
variable {α : Type}

/-- The dimension numbers of a gather of whole rows: operand `[N, C]`, start indices `[M, 1]`, result `[M, C]`;
    the result's axis 1 is the offset axis, the operand's axis 0 is collapsed and is the one the start index names,
    the index vector lies along axis 1 of the start indices, and a slice is one row, `1 × C`. Their conditions `wf`
    are decided on literal shapes. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The operand row that result row `e` reads: the word `idx (e, 0)` as a signed integer, negative values taken to
    `0`, then cut to at most `N − 1`. It depends on neither the number of columns nor the entries. -/
def gatherRow (N : Nat) (hN : 0 < N) {M w : Nat} (idx : IVec ⟨2, ![M, 1]⟩ w) (e : Fin M) : Fin N :=
  ⟨min (idx (ix2 e (0 : Fin 1))).toInt.toNat (N - 1), by omega⟩

/-- On the row axis the operand index of result entry `(e, c)` is the clamped start index: no batching coordinate,
    and no offset coordinate on a collapsed axis. -/
theorem gather_operandIdx_zero {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (c : Fin C) :
    ((rowGatherDims N M C wf).operandIdx (ix2 e c) idx 0).val = min (idx (ix2 e (0 : Fin 1))).toInt.toNat (N - 1) := by
  show (rowGatherDims N M C wf).start (ix2 e c) idx 0 + (rowGatherDims N M C wf).batchCoord (ix2 e c) 0
    + (rowGatherDims N M C wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N M C wf).startIndexMap from List.mem_singleton.mpr rfl)]
  have hsi : (rowGatherDims N M C wf).siIdx (ix2 e c) ⟨List.idxOf (0 : Fin 2) (rowGatherDims N M C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the column axis the operand index of result entry `(e, c)` is `c`: the start is `0` on an axis the start
    index does not name, and the offset coordinate is the result's column. -/
theorem gather_operandIdx_one {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (c : Fin C) :
    ((rowGatherDims N M C wf).operandIdx (ix2 e c) idx 1).val = c.val := by
  show (rowGatherDims N M C wf).start (ix2 e c) idx 1 + (rowGatherDims N M C wf).batchCoord (ix2 e c) 1
    + (rowGatherDims N M C wf).offCoord (ix2 e c) 1 = _
  rw [GatherDims.batchCoord_eq_zero _ _ _ List.not_mem_nil]
  have hs : (rowGatherDims N M C wf).start (ix2 e c) idx 1 = 0 := by
    unfold GatherDims.start
    rw [dif_neg (fun h => absurd (List.mem_singleton.mp h) (show ¬ ((1 : Fin 2) = 0) by decide))]
  rw [hs]
  simp only [Nat.add_zero, Nat.zero_add]
  unfold GatherDims.offCoord
  rw [dif_pos ((GatherDims.mem_sKept _ _).mpr
    ⟨fun h => absurd (List.mem_singleton.mp h) (show ¬ ((1 : Fin 2) = 0) by decide), List.not_mem_nil⟩)]
  rfl

/-- THE GATHER OF ROWS READ AT `(e, c)`: the operand at row `gatherRow N hN idx e` — the start index `idx (e, 0)` read
    signed and clamped into `[0, N − 1]` — and column `c`. -/
theorem gather_rows_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (rowGatherDims N M C wf) x idx (ix2 e c) = x (ix2 (gatherRow N hN idx e) c) := by
  unfold Host.gather
  congr 1
  funext a
  match a with
  | ⟨0, _⟩ => exact Fin.ext (gather_operandIdx_zero wf idx e c)
  | ⟨1, _⟩ => exact Fin.ext (gather_operandIdx_one wf idx e c)

end Gather

/-! ## The scatter-add of rows -/

section Scatter

/-- The dimension numbers of a scatter of whole rows: operand `[N, C]`, scatter indices `[M, 1]`, updates `[M, C]`;
    the updates' axis 1 is the window axis, the operand's axis 0 is inserted and is the one the scatter index names,
    and the index vector lies along axis 1 of the scatter indices. Their conditions `wf` are decided on literal
    shapes. -/
abbrev rowScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- The update rows that land on operand row `n`: the rows `e` whose index word `idx (e, 0)`, read as a signed
    integer and not clamped, is `n`. It depends on neither the number of columns nor the entries. -/
def landsOn {M w : Nat} (idx : IVec ⟨2, ![M, 1]⟩ w) (N : Nat) (n : Fin N) : Finset (Fin M) :=
  Finset.univ.filter (fun e => (idx (ix2 e (0 : Fin 1))).toInt = (n.val : Int))

/-- An axis is among the kept axes exactly when it is not among the removed ones. -/
theorem mem_kept {s : Shape} (axes : List (Fin s.rank)) (a : Fin s.rank) : a ∈ s.kept axes ↔ a ∉ axes := by
  simp [Shape.kept, List.mem_filter, List.mem_finRange]

/-- An update index `j` lands at the operand index `i` exactly when, on every axis, the signed start plus the window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hb
      have h' := Option.some.inj h
      have h2 : (d.start j idx a + (d.window j a : Int)).toNat = (i a).val := congrArg Fin.val (congrFun h' a)
      have := hb a
      omega
    · cases h
  · intro h
    have hb : ∀ a, 0 ≤ d.start j idx a + (d.window j a : Int) ∧ d.start j idx a + (d.window j a : Int) < s.size a := by
      intro a
      rw [h a]
      exact ⟨Int.natCast_nonneg _, by exact_mod_cast (i a).isLt⟩
    rw [dif_pos hb]
    congr 1
    funext a
    apply Fin.ext
    show (d.start j idx a + (d.window j a : Int)).toNat = (i a).val
    rw [h a]
    exact Int.toNat_natCast _

/-- On the row axis the start of update entry `(e, c)` is the index word `idx (e, 0)` read as a signed integer. -/
theorem scatter_start_zero {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (rowScatterDims N M C wf).start (ix2 e c) idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e c)
      ⟨List.idxOf (0 : Fin 2) (rowScatterDims N M C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the scatter index does not name, the start is `0`. -/
theorem scatter_start_one {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (rowScatterDims N M C wf).start (ix2 e c) idx 1 = 0 := by
  unfold ScatterDims.start
  rw [dif_neg (fun h => absurd (List.mem_singleton.mp h) (show ¬ ((1 : Fin 2) = 0) by decide))]

/-- On the row axis, an inserted one, the window coordinate is `0`. -/
theorem scatter_window_zero {N M C : Nat} (wf : ScatterDims.WF ⟨2, ![N, C]⟩ ⟨2, ![M, 1]⟩ ⟨2, ![M, C]⟩ [1] [0] [0] 1)
    (e : Fin M) (c : Fin C) :
    (rowScatterDims N M C wf).window (ix2 e c) 0 = 0 := by
  unfold ScatterDims.window
  rw [dif_neg (fun h => (mem_kept _ _).mp h (List.mem_singleton.mpr rfl))]

/-- On the column axis the window coordinate of update entry `(e, c)` is `c`. -/
theorem scatter_window_one {N M C : Nat} (wf : ScatterDims.WF ⟨2, ![N, C]⟩ ⟨2, ![M, 1]⟩ ⟨2, ![M, C]⟩ [1] [0] [0] 1)
    (e : Fin M) (c : Fin C) :
    (rowScatterDims N M C wf).window (ix2 e c) 1 = c.val := by
  unfold ScatterDims.window
  rw [dif_pos ((mem_kept _ _).mpr
    (fun h => absurd (List.mem_singleton.mp h) (show ¬ ((1 : Fin 2) = 0) by decide)))]
  rfl

/-- Update entry `(e, c')` lands at operand entry `(n, c)` exactly when the columns agree and the signed index word
    of row `e` is `n`. -/
theorem resultIdx?_rows {N M C w : Nat} (wf : ScatterDims.WF ⟨2, ![N, C]⟩ ⟨2, ![M, 1]⟩ ⟨2, ![M, C]⟩ [1] [0] [0] 1)
    (idx : IVec ⟨2, ![M, 1]⟩ w) (e : Fin M) (c' c : Fin C) (n : Fin N) :
    (rowScatterDims N M C wf).resultIdx? (ix2 e c') idx = some (ix2 n c)
      ↔ c' = c ∧ (idx (ix2 e (0 : Fin 1))).toInt = (n.val : Int) := by
  rw [resultIdx?_eq_some_iff]
  rw [Fin.forall_fin_two]
  rw [scatter_start_zero, scatter_window_zero, scatter_start_one, scatter_window_one]
  show ((idx (ix2 e (0 : Fin 1))).toInt + ((0 : Nat) : Int) = (n.val : Int)
    ∧ (0 : Int) + (c'.val : Int) = (c.val : Int)) ↔ _
  constructor
  · rintro ⟨h0, h1⟩
    exact ⟨Fin.ext (by omega), by omega⟩
  · rintro ⟨rfl, h⟩
    exact ⟨by omega, by omega⟩

/-- THE SCATTER-ADD OF ROWS READ AT `(n, c)`: the operand's entry plus the sum, over the update rows `e` whose signed
    index word is `n`, of the update's entry `(e, c)`. -/
theorem scatterAdd_rows_apply {N M C w : Nat}
    (wf : ScatterDims.WF ⟨2, ![N, C]⟩ ⟨2, ![M, 1]⟩ ⟨2, ![M, C]⟩ [1] [0] [0] 1)
    (x : FVec Ideal ⟨2, ![N, C]⟩ .f32) (idx : IVec ⟨2, ![M, 1]⟩ w) (upd : FVec Ideal ⟨2, ![M, C]⟩ .f32)
    (n : Fin N) (c : Fin C) :
    Host.scatterAdd (F := Ideal) (rowScatterDims N M C wf) x idx upd (ix2 n c)
      = x (ix2 n c) + ∑ e ∈ landsOn idx N n, upd (ix2 e c) := by
  unfold Host.scatterAdd
  rw [Ideal.hostScatterAdd_def]
  unfold Ideal.hostScatterAdd
  congr 1
  rw [Finset.sum_filter, sum_idx2]
  unfold landsOn
  rw [Finset.sum_filter]
  refine Finset.sum_congr rfl (fun e _ => ?_)
  simp only [resultIdx?_rows]
  by_cases hP : (idx (ix2 e (0 : Fin 1))).toInt = (n.val : Int)
  · simp [hP]
  · simp [hP]

end Scatter

end Cert.Lib.RowScatter

end
-- ==== Proof.Spec.lean ====
/-
  A three-layer degree-normalised graph convolution followed by the mean over the nodes, as whole-array
  functions on the extended reals.

  The graph has `Nn` nodes and `Ne` edges, given by two vectors of integer words: edge `e` reads the node
  row `rowOf src e` (the source word, wrapped once if negative, read signed and clamped into the table) and its
  message lands on the node whose number is the destination word (`lands dst n` is the set of edges landing on
  `n`; an edge whose word names no node lands nowhere). A node's degree on either side is the starting value
  plus one `ow` per edge of the set, its divisor the larger of that and `ow`, and its normalisation factor
  `nrm` the divisor to the power `hw` (the word of -1/2).

  One layer scales the rows of its input by the source-side factor, sums the rows the edges read over the edges
  landing on each node, scales by the destination-side factor (`hdOf`), and applies a dense layer; the first two
  layers take the positive part. The network's result is the mean over the nodes of the third layer.

  Two arrangements of that last step: `refOut` applies the dense layer to every node's row and then takes the
  mean (sum, then a division by the node count); `kerOut` takes the mean of the rows first (sum, then a product
  with the reciprocal of the node count) and applies the dense layer once to the mean row.
-/
import Idealize.ShloMosaic.Lib.ValueIdx
import Idealize.ShloMosaic.PureOps.Ideal
import proofs.«109770_j54692113547689_1_alg».proof.Proof.LibGcnLaw
import proofs.«109770_j54692113547689_1_alg».proof.Proof.LibRowScatter

noncomputable section

open scoped BigOperators

namespace Cert.Net

open Idealize.ShloMosaic Idealize.ShloMosaic.ValueIdx Cert.Lib.BiasDot Cert.Lib.Dense Cert.Lib.RowScatter Cert.Gcn

/-- The number of nodes. -/
abbrev Nn : Nat := 100000
/-- The number of edges. -/
abbrev Ne : Nat := 1600000
/-- The number of features. -/
abbrev Dd : Nat := 128

/-- An `a × b` matrix of extended reals. -/
abbrev Mat (a b : Nat) : Type := (⟨2, ![a, b]⟩ : Shape).Idx → EReal
/-- A vector of `a` extended reals. -/
abbrev Vect (a : Nat) : Type := (⟨1, ![a]⟩ : Shape).Idx → EReal
/-- One integer word per edge. -/
abbrev IdxV : Type := IVec ⟨1, ![Ne]⟩ 32
/-- The same as a column. -/
abbrev IdxC : Type := IVec ⟨2, ![Ne, 1]⟩ 32

/-- A vector of words as a column. -/
def colOf (x : IdxV) : IdxC := fun i => x (ix1 (i 0))

/-- A word counted from the end of the node table when negative: the node count added once to a negative word. -/
def wrapOf (x : IdxV) : IdxV := select (cmpi .slt x (fun _ => 0#32)) (addi x (fun _ => 100000#32)) x

/-- The starting value of every sum: the zero word. -/
def zw : EReal := Ideal.ofBits .f32 0x00000000#32
/-- The word of 1. -/
def ow : EReal := Ideal.ofBits .f32 0x3F800000#32
/-- The word of -1/2. -/
def hw : EReal := Ideal.ofBits .f32 0xBF000000#32
/-- The word of the node count, 100000. -/
def nw : EReal := Ideal.ofBits .f32 0x47C35000#32

/-- The node row edge `e` reads. -/
def rowOf (src : IdxV) : Fin Ne → Fin Nn := gatherRow Nn (by decide) (colOf (wrapOf src))

/-- The edges whose word is node `n`. -/
def lands (idx : IdxV) : Fin Nn → Finset (Fin Ne) := landsOn (colOf idx) Nn

/-- A node's normalisation factor: `max(degree, 1) ^ (-1/2)`, the degree counted over the words `idx`. -/
def nrm (idx : IdxV) : Fin Nn → EReal := fun n => Ideal.pow (divisor (lands idx) zw ow n) hw

/-- The normalised aggregation of one layer: rows scaled by the source-side factor, summed over the edges landing on
    each node, scaled by the destination-side factor. -/
def hdOf (src dst : IdxV) (x : Mat Nn Dd) : Mat Nn Dd :=
  scaleRows (nrm dst) (agg (rowOf src) (lands dst) zw (scaleRows (nrm src) x))

/-- One layer with the positive part. -/
def layer (src dst : IdxV) (x : Mat Nn Dd) (W : Mat Dd Dd) (b : Vect Dd) : Mat Nn Dd :=
  relu (lin (hdOf src dst x) W b)

/-- The third layer's normalised aggregation, of the first two layers' output. -/
def hd3 (h : Mat Nn Dd) (src dst : IdxV) (W0 : Mat Dd Dd) (b0 : Vect Dd) (W1 : Mat Dd Dd) (b1 : Vect Dd) : Mat Nn Dd :=
  hdOf src dst (layer src dst (layer src dst h W0 b0) W1 b1)

/-- Dense layer on every row, then the mean: the sum over the nodes from `zw`, divided by the node count. -/
def refOut (A : Mat Nn Dd) (W : Mat Dd Dd) (b : Vect Dd) : Mat 1 Dd :=
  fun i => Ideal.div (zw + ∑ n : Fin Nn, lin A W b (ix2 n (i 1))) nw

/-- The mean row first — the sum over the nodes times `c` — then the dense layer on that one row. -/
def kerOut (c : EReal) (A : Mat Nn Dd) (W : Mat Dd Dd) (b : Vect Dd) : Mat 1 Dd :=
  fun i => (∑ k : Fin Dd, ((∑ n : Fin Nn, A (ix2 n k)) * c) * W (ix2 k (i 1))) + b (ix1 (i 1))

end Cert.Net

end
-- ==== Proof.LibScatter1.lean ====
/-
  A scatter-add into a column, read at an index.

  For a column `x` of `N` entries, a column `idx` of `M` integer words (shape `[M, 1]`) and `M` updates, the
  scatter-add puts update `e` onto the operand entry `idx[e]` read as a signed integer and not clamped (an update
  whose entry is outside `[0, N − 1]` is dropped): entry `n` of the result is
  `x n + ∑ e ∈ landsOn idx N n, upd e`, the sum over the updates whose index is `n` — the same set of updates a
  scatter-add of whole rows sends to row `n`.
-/
import Idealize.ShloMosaic.Lib.ValueIdx
import Idealize.ShloMosaic.PureOps.Ideal.Laws
import Idealize.ShloMosaic.Lib.Pipeline.Value
import proofs.«109770_j54692113547689_1_alg».proof.Proof.LibRowScatter

noncomputable section

open scoped BigOperators

namespace Cert.Lib.Scatter1

open Idealize.ShloMosaic Idealize.ShloMosaic.ValueIdx Cert.Lib.RowScatter

/-- The indices of a column of `M` entries are the numbers below `M`. -/
def idx1Equiv (M : Nat) : Fin M ≃ (⟨1, ![M]⟩ : Shape).Idx where
  toFun := ix1
  invFun j := j 0
  left_inv _ := rfl
  right_inv j := (eq_ix1 j).symm

/-- A sum over the indices of a column is the sum over its entries' numbers. -/
theorem sum_idx1 {A : Type*} [AddCommMonoid A] {M : Nat} (f : (⟨1, ![M]⟩ : Shape).Idx → A) :
    ∑ i, f i = ∑ e : Fin M, f (ix1 e) :=
  (Equiv.sum_comp (idx1Equiv M) f).symm

/-- The dimension numbers of a scatter of single entries into a column: operand `[N]`, scatter indices `[M, 1]`,
    updates `[M]`; no window axis, the operand's axis 0 inserted and named by the scatter index, the index vector along
    axis 1 of the scatter indices. Their conditions `wf` are decided on literal shapes. -/
abbrev scatter1Dims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The start of update `e` is the index word `idx (e, 0)` read as a signed integer. -/
theorem scatter1_start {N M w : Nat} (wf : ScatterDims.WF ⟨1, ![N]⟩ ⟨2, ![M, 1]⟩ ⟨1, ![M]⟩ [] [0] [0] 1)
    (idx : IVec ⟨2, ![M, 1]⟩ w) (e : Fin M) :
    (scatter1Dims N M wf).start (ix1 e) idx 0 = (idx (ix2 e (0 : Fin 1))).toInt := by
  unfold ScatterDims.start
  rw [dif_pos (show (0 : Fin 1) ∈ (scatter1Dims N M wf).scatterDimsToOperandDims from List.mem_singleton.mpr rfl)]
  have hsi : (scatter1Dims N M wf).siIdx (ix1 e)
      ⟨List.idxOf (0 : Fin 1) (scatter1Dims N M wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the one axis, an inserted one, the window coordinate is `0`. -/
theorem scatter1_window {N M : Nat} (wf : ScatterDims.WF ⟨1, ![N]⟩ ⟨2, ![M, 1]⟩ ⟨1, ![M]⟩ [] [0] [0] 1) (e : Fin M) :
    (scatter1Dims N M wf).window (ix1 e) 0 = 0 := by
  unfold ScatterDims.window
  rw [dif_neg (fun h => (mem_kept _ _).mp h (List.mem_singleton.mpr rfl))]

/-- Update `e` lands at operand entry `n` exactly when its signed index word is `n`. -/
theorem resultIdx?_one {N M w : Nat} (wf : ScatterDims.WF ⟨1, ![N]⟩ ⟨2, ![M, 1]⟩ ⟨1, ![M]⟩ [] [0] [0] 1)
    (idx : IVec ⟨2, ![M, 1]⟩ w) (e : Fin M) (n : Fin N) :
    (scatter1Dims N M wf).resultIdx? (ix1 e) idx = some (ix1 n)
      ↔ (idx (ix2 e (0 : Fin 1))).toInt = (n.val : Int) := by
  rw [resultIdx?_eq_some_iff]
  constructor
  · intro h
    have h0 := h 0
    rw [scatter1_start, scatter1_window] at h0
    change (idx (ix2 e (0 : Fin 1))).toInt + ((0 : Nat) : Int) = (n.val : Int) at h0
    omega
  · intro h a
    obtain rfl : a = 0 := Subsingleton.elim _ _
    rw [scatter1_start, scatter1_window]
    show _ + ((0 : Nat) : Int) = (n.val : Int)
    omega

/-- THE SCATTER-ADD INTO A COLUMN READ AT `n`: the operand's entry plus the sum, over the updates `e` whose signed
    index word is `n`, of update `e`. -/
theorem scatterAdd1_apply {N M w : Nat}
    (wf : ScatterDims.WF ⟨1, ![N]⟩ ⟨2, ![M, 1]⟩ ⟨1, ![M]⟩ [] [0] [0] 1)
    (x : FVec Ideal ⟨1, ![N]⟩ .f32) (idx : IVec ⟨2, ![M, 1]⟩ w) (upd : FVec Ideal ⟨1, ![M]⟩ .f32) (n : Fin N) :
    Host.scatterAdd (F := Ideal) (scatter1Dims N M wf) x idx upd (ix1 n)
      = x (ix1 n) + ∑ e ∈ landsOn idx N n, upd (ix1 e) := by
  unfold Host.scatterAdd
  rw [Ideal.hostScatterAdd_def]
  unfold Ideal.hostScatterAdd
  congr 1
  rw [Finset.sum_filter, sum_idx1]
  unfold landsOn
  rw [Finset.sum_filter]
  refine Finset.sum_congr rfl (fun e _ => ?_)
  simp only [resultIdx?_one]

end Cert.Lib.Scatter1

end
-- ==== Proof.LibColumn.lean ====
/-
  General facts about a column of row values, read at an entry.

  * A vector of length `M` viewed as an `M × 1` column reads, at `(p, 0)`, the vector at `p` (`col_apply`).
  * An `M × 1` column repeated along `N` lanes reads, at `(p, q)`, the column at `(p, 0)` (`colBroadcast_apply`).
  * Summing an `M × 1` column down its rows gives, at the one entry, the sum of the column's entries (`colSum_apply`).
-/
import Idealize.ShloMosaic.Lib.ValueIdx
import Idealize.ShloMosaic.Lib.Pipeline.Value
import Idealize.ShloMosaic.PureOps.Ideal.Laws

noncomputable section

open scoped BigOperators

namespace Cert.Lib.Column

open Idealize.ShloMosaic Idealize.ShloMosaic.ValueIdx

variable {α : Type} {M N : Nat}

/-- A vector of length `M` viewed as an `M × 1` column: at `(p, 0)`, the vector at `p`. -/
theorem col_apply (v : (⟨1, ![M]⟩ : Shape).Idx → α) (hc : (⟨1, ![M]⟩ : Shape).ShapeCasts ⟨2, ![M, 1]⟩) (p : Fin M) :
    shapeCast ⟨2, ![M, 1]⟩ v hc (ix2 p (0 : Fin 1)) = v (ix1 p) := by
  refine shapeCast_apply v hc (ix2 p (0 : Fin 1)) (ix1 p) ?_
  rw [Shape.rowMajor_val_one, Shape.rowMajor_val_two]
  show p.val = p.val * 1 + 0
  omega

/-- An `M × 1` column repeated along `N` lanes: at `(p, q)`, the column at `(p, 0)`. -/
theorem colBroadcast_apply (v : (⟨2, ![M, 1]⟩ : Shape).Idx → α) (hb : (⟨2, ![M, 1]⟩ : Shape).Broadcasts ⟨2, ![M, N]⟩)
    (p : Fin M) (q : Fin N) :
    broadcastTo ⟨2, ![M, N]⟩ v hb (ix2 p q) = v (ix2 p (0 : Fin 1)) := by
  refine broadcastTo_apply _ hb (ix2 p q) (ix2 p (0 : Fin 1)) (fun a => ?_)
  match a with
  | ⟨0, _⟩ =>
    show p.val = if M = 1 then 0 else p.val
    split
    · have := p.isLt; omega
    · rfl
  | ⟨1, _⟩ => exact (if_pos rfl).symm

/-- Over the one entry of the result, the index with `k` put on the row axis is `(k, 0)`. -/
theorem lift_col (h : (⟨2, ![M, 1]⟩ : Shape).Reduces [0] ⟨1, ![1]⟩) (k : Fin M) :
    h.lift (ix1 (0 : Fin 1)) k = ix2 k (0 : Fin 1) := by
  funext a
  apply Fin.ext
  match a with
  | ⟨0, _⟩ => rfl
  | ⟨1, _⟩ => rfl

/-- The sum of an `M × 1` column down its rows. -/
theorem colSum_apply {φ : FTy} (src : FVec Ideal ⟨2, ![M, 1]⟩ φ) (acc : BitVec φ.bits)
    (h : (⟨2, ![M, 1]⟩ : Shape).Reduces [0] ⟨1, ![1]⟩) (hφ : FKind.Formats φ) (hacc : acc = FKind.add.neutral φ hφ) :
    multiReduction .add [0] ⟨1, ![1]⟩ src acc h hφ hacc (ix1 (0 : Fin 1)) = ∑ k : Fin M, src (ix2 k (0 : Fin 1)) := by
  rw [Ideal.multiReduction_add_single]
  exact Finset.sum_congr rfl fun k _ => congrArg src (lift_col h k)

end Cert.Lib.Column

end
-- ==== Proof.LibGcnHost.lean ====
/-
  The host's spelling of the graph aggregation, read as whole-array functions.

  A mean aggregation is written on the host as a gather of rows followed by a scatter-add of rows into a table of
  zeros: with `gcol` the column of gather indices and `scol` the column of scatter indices, the result at `(n, c)` is the
  zero the table starts from plus the sum, over the edges `e` whose scatter index is `n`, of the operand at the row
  edge `e` gathers and column `c` — the function `Cert.Gcn.agg` at the row map `gatherRow … gcol` and the edge sets
  `landsOn scol`. A node's degree is a scatter-add of ones into a column of zeros with the same scatter indices:
  `Cert.Gcn.degree` at the same edge sets. The two columns a divisor is spread through are read at an entry too.
-/
import Idealize.ShloMosaic.Lib.ValueIdx
import Idealize.ShloMosaic.Lib.Pipeline.Value
import Idealize.ShloMosaic.PureOps.Ideal.Laws
import proofs.«109770_j54692113547689_1_alg».proof.Proof.LibRowScatter
import proofs.«109770_j54692113547689_1_alg».proof.Proof.LibScatter1
import proofs.«109770_j54692113547689_1_alg».proof.Proof.LibColumn
import proofs.«109770_j54692113547689_1_alg».proof.Proof.LibGcnLaw

noncomputable section

open scoped BigOperators

namespace Cert.Gcn.Host

open Idealize.ShloMosaic Idealize.ShloMosaic.ValueIdx Cert.Lib.RowScatter Cert.Lib.Scatter1 Cert.Gcn

variable {N M C : Nat}

/-- A scalar constant broadcast to any shape reads, everywhere, the extended real its word encodes. -/
theorem splat_apply {t : Shape} (dims : Fin 0 → Fin t.rank) (h : (⟨0, ![]⟩ : Shape).BroadcastsInDim t dims)
    (w : BitVec 32) (j : t.Idx) :
    broadcastInDim t dims h (constant (F := Ideal) ⟨0, ![]⟩ .f32 w) j = Ideal.ofBits .f32 w := by
  refine (broadcastInDim_apply (s := ⟨0, ![]⟩) dims h _ j (fun a => a.elim0) (fun a => a.elim0)).trans ?_
  rw [constant_apply]

/-- THE AGGREGATION: a gather of rows scattered and added into a table of one constant. -/
theorem scatter_gather_eq (hN : 0 < N)
    (ds : ScatterDims ⟨2, ![N, C]⟩ ⟨2, ![M, 1]⟩ ⟨2, ![M, C]⟩)
    (wfs : ScatterDims.WF ⟨2, ![N, C]⟩ ⟨2, ![M, 1]⟩ ⟨2, ![M, C]⟩ [1] [0] [0] 1) (hds : ds = rowScatterDims N M C wfs)
    (dg : GatherDims ⟨2, ![N, C]⟩ ⟨2, ![M, 1]⟩ ⟨2, ![M, C]⟩)
    (wfg : GatherDims.WF ⟨2, ![N, C]⟩ ⟨2, ![M, 1]⟩ ⟨2, ![M, C]⟩ [1] [0] [] [0] [] 1 ![1, C]) (hdg : dg = rowGatherDims N M C wfg)
    (dims : Fin 0 → Fin 2) (h0 : (⟨0, ![]⟩ : Shape).BroadcastsInDim ⟨2, ![N, C]⟩ dims) (zw : BitVec 32)
    (x : FVec Ideal ⟨2, ![N, C]⟩ .f32) (gcol scol : IVec ⟨2, ![M, 1]⟩ 32) :
    Host.scatterAdd (F := Ideal) ds (broadcastInDim ⟨2, ![N, C]⟩ dims h0 (constant ⟨0, ![]⟩ .f32 zw)) scol
        (Host.gather dg x gcol)
      = agg (gatherRow N hN gcol) (landsOn scol N) (Ideal.ofBits .f32 zw) x := by
  subst hds hdg
  funext i
  obtain ⟨n, c, rfl⟩ : ∃ (n : Fin N) (c : Fin C), i = ix2 n c := ⟨i 0, i 1, eq_ix2 i⟩
  rw [scatterAdd_rows_apply, splat_apply]
  show _ = Ideal.ofBits .f32 zw + ∑ e ∈ landsOn scol N n, x (ix2 (gatherRow N hN gcol e) c)
  exact congrArg (Ideal.ofBits .f32 zw + ·) (Finset.sum_congr rfl fun e _ => gather_rows_apply hN wfg x gcol e c)

/-- THE DEGREE: ones scattered and added into a column of one constant. -/
theorem scatter_ones_apply
    (d1 : ScatterDims ⟨1, ![N]⟩ ⟨2, ![M, 1]⟩ ⟨1, ![M]⟩)
    (wf1 : ScatterDims.WF ⟨1, ![N]⟩ ⟨2, ![M, 1]⟩ ⟨1, ![M]⟩ [] [0] [0] 1) (hd1 : d1 = scatter1Dims N M wf1)
    (dimsN : Fin 0 → Fin 1) (hN0 : (⟨0, ![]⟩ : Shape).BroadcastsInDim ⟨1, ![N]⟩ dimsN)
    (dimsM : Fin 0 → Fin 1) (hM0 : (⟨0, ![]⟩ : Shape).BroadcastsInDim ⟨1, ![M]⟩ dimsM) (zw ow : BitVec 32)
    (scol : IVec ⟨2, ![M, 1]⟩ 32) (n : Fin N) :
    Host.scatterAdd (F := Ideal) d1 (broadcastInDim ⟨1, ![N]⟩ dimsN hN0 (constant ⟨0, ![]⟩ .f32 zw)) scol
        (broadcastInDim ⟨1, ![M]⟩ dimsM hM0 (constant ⟨0, ![]⟩ .f32 ow)) (ix1 n)
      = degree (landsOn scol N) (Ideal.ofBits .f32 zw) (Ideal.ofBits .f32 ow) n := by
  subst hd1
  rw [scatterAdd1_apply, splat_apply]
  show _ = Ideal.ofBits .f32 zw + ∑ _e ∈ landsOn scol N n, Ideal.ofBits .f32 ow
  exact congrArg (Ideal.ofBits .f32 zw + ·) (Finset.sum_congr rfl fun e _ => splat_apply dimsM hM0 ow (ix1 e))

/-- The divisor `max(degree, one)` as the host computes it, at node `n`. -/
theorem host_divisor_apply
    (d1 : ScatterDims ⟨1, ![N]⟩ ⟨2, ![M, 1]⟩ ⟨1, ![M]⟩)
    (wf1 : ScatterDims.WF ⟨1, ![N]⟩ ⟨2, ![M, 1]⟩ ⟨1, ![M]⟩ [] [0] [0] 1) (hd1 : d1 = scatter1Dims N M wf1)
    (dimsN : Fin 0 → Fin 1) (hN0 : (⟨0, ![]⟩ : Shape).BroadcastsInDim ⟨1, ![N]⟩ dimsN)
    (dimsM : Fin 0 → Fin 1) (hM0 : (⟨0, ![]⟩ : Shape).BroadcastsInDim ⟨1, ![M]⟩ dimsM) (zw ow : BitVec 32)
    (scol : IVec ⟨2, ![M, 1]⟩ 32) (n : Fin N) :
    maximumf (Host.scatterAdd (F := Ideal) d1 (broadcastInDim ⟨1, ![N]⟩ dimsN hN0 (constant ⟨0, ![]⟩ .f32 zw)) scol
        (broadcastInDim ⟨1, ![M]⟩ dimsM hM0 (constant ⟨0, ![]⟩ .f32 ow)))
      (broadcastInDim ⟨1, ![N]⟩ dimsN hN0 (constant ⟨0, ![]⟩ .f32 ow)) (ix1 n)
      = divisor (landsOn scol N) (Ideal.ofBits .f32 zw) (Ideal.ofBits .f32 ow) n := by
  rw [maximumf_apply, scatter_ones_apply d1 wf1 hd1, splat_apply]
  rfl

/-- The reciprocal `one / max(degree, one)` as the host computes it, at node `n`. -/
theorem host_recip_apply
    (d1 : ScatterDims ⟨1, ![N]⟩ ⟨2, ![M, 1]⟩ ⟨1, ![M]⟩)
    (wf1 : ScatterDims.WF ⟨1, ![N]⟩ ⟨2, ![M, 1]⟩ ⟨1, ![M]⟩ [] [0] [0] 1) (hd1 : d1 = scatter1Dims N M wf1)
    (dimsN : Fin 0 → Fin 1) (hN0 : (⟨0, ![]⟩ : Shape).BroadcastsInDim ⟨1, ![N]⟩ dimsN)
    (dimsM : Fin 0 → Fin 1) (hM0 : (⟨0, ![]⟩ : Shape).BroadcastsInDim ⟨1, ![M]⟩ dimsM) (zw ow : BitVec 32)
    (scol : IVec ⟨2, ![M, 1]⟩ 32) (n : Fin N) :
    Host.divf (F := Ideal) (broadcastInDim ⟨1, ![N]⟩ dimsN hN0 (constant ⟨0, ![]⟩ .f32 ow))
      (maximumf (Host.scatterAdd (F := Ideal) d1 (broadcastInDim ⟨1, ![N]⟩ dimsN hN0 (constant ⟨0, ![]⟩ .f32 zw)) scol
          (broadcastInDim ⟨1, ![M]⟩ dimsM hM0 (constant ⟨0, ![]⟩ .f32 ow)))
        (broadcastInDim ⟨1, ![N]⟩ dimsN hN0 (constant ⟨0, ![]⟩ .f32 ow))) (ix1 n)
      = recip (landsOn scol N) (Ideal.ofBits .f32 zw) (Ideal.ofBits .f32 ow) n := by
  show Ideal.div (broadcastInDim ⟨1, ![N]⟩ dimsN hN0 (constant (F := Ideal) ⟨0, ![]⟩ .f32 ow) (ix1 n)) _ = _
  rw [host_divisor_apply d1 wf1 hd1, splat_apply]
  rfl

/-- A vector of `N` row values made an `N × 1` column and spread along `C` columns, both by the host's broadcast,
    reads at `(p, q)` the vector at `p`. -/
theorem hostCol_apply {α : Type} (v : (⟨1, ![N]⟩ : Shape).Idx → α)
    (h1 : (⟨1, ![N]⟩ : Shape).BroadcastsInDim ⟨2, ![N, 1]⟩ ![0])
    (h2 : (⟨2, ![N, 1]⟩ : Shape).BroadcastsInDim ⟨2, ![N, C]⟩ ![0, 1]) (p : Fin N) (q : Fin C) :
    broadcastInDim ⟨2, ![N, C]⟩ ![0, 1] h2 (broadcastInDim ⟨2, ![N, 1]⟩ ![0] h1 v) (ix2 p q) = v (ix1 p) := by
  refine (broadcastInDim_apply ![0, 1] h2 _ (ix2 p q) (ix2 p (0 : Fin 1)) (fun a => ?_)).trans ?_
  · match a with
    | ⟨0, _⟩ =>
      show p.val = if N = 1 then 0 else p.val
      split
      · have := p.isLt; omega
      · rfl
    | ⟨1, _⟩ => exact (if_pos rfl).symm
  · refine broadcastInDim_apply ![0] h1 v (ix2 p (0 : Fin 1)) (ix1 p) (fun a => ?_)
    match a with
    | ⟨0, _⟩ =>
      show p.val = if N = 1 then 0 else p.val
      split
      · have := p.isLt; omega
      · rfl

/-- Dividing by an array whose every row is one value spread along the columns divides each row by its value. -/
theorem hostDiv_rows (X D : FVec Ideal ⟨2, ![N, C]⟩ .f32) (d : Fin N → EReal)
    (h : ∀ (p : Fin N) (q : Fin C), D (ix2 p q) = d p) : Host.divf (F := Ideal) X D = divRows d X := by
  funext i
  obtain ⟨p, q, rfl⟩ : ∃ (p : Fin N) (q : Fin C), i = ix2 p q := ⟨i 0, i 1, eq_ix2 i⟩
  show Ideal.div (X (ix2 p q)) (D (ix2 p q)) = Ideal.div (X (ix2 p q)) (d p)
  rw [h]

/-! ## The two index columns -/

section Columns
variable {M : Nat}

/-- The column of gather indices: each edge's source word, with `nw` added once where the word is negative as a
    signed integer (an index counted from the end of a table of `nw` rows), as an `M × 1` column. -/
def gcolOf (h0 : (⟨0, ![]⟩ : Shape).BroadcastsInDim ⟨1, ![M]⟩ ![])
    (h1 : (⟨1, ![M]⟩ : Shape).BroadcastsInDim ⟨2, ![M, 1]⟩ ![0]) (nw : BitVec 32) (x1 : IVec ⟨1, ![M]⟩ 32) :
    IVec ⟨2, ![M, 1]⟩ 32 :=
  broadcastInDim ⟨2, ![M, 1]⟩ ![0] h1
    (select (cmpi .slt x1 (broadcastInDim ⟨1, ![M]⟩ ![] h0 (constantI ⟨0, ![]⟩ 32 0#32)))
      (addi x1 (broadcastInDim ⟨1, ![M]⟩ ![] h0 (constantI ⟨0, ![]⟩ 32 nw))) x1)

/-- The column of scatter indices: each edge's destination word, as an `M × 1` column. -/
def scolOf (h1 : (⟨1, ![M]⟩ : Shape).BroadcastsInDim ⟨2, ![M, 1]⟩ ![0]) (x2 : IVec ⟨1, ![M]⟩ 32) : IVec ⟨2, ![M, 1]⟩ 32 :=
  broadcastInDim ⟨2, ![M, 1]⟩ ![0] h1 x2

end Columns

end Cert.Gcn.Host

end
-- ==== Proof.LibCatDot.lean ====
/-
  The host's linear layers without a positive part, as whole-array functions on the extended reals.

  A product plus a bias row broadcast in two steps is the linear layer `lin`; two products added, plus such a row,
  the two-product layer `lin2`. A product whose left operand is two blocks set side by side, plus such a bias row, is
  the two-product layer of the blocks against the top and the bottom row ranges of the weight (`rowsTop`,
  `rowsBot`): the sum over the contraction index splits at the seam, which uses only that addition of extended reals
  is associative and commutative, so it holds at infinite entries too. The two row ranges are also what the two
  unit-stride slices of the weight at row offsets `0` and `K` read.
-/
import Idealize.ShloMosaic.Lib.ValueIdx
import Idealize.ShloMosaic.Lib.Pipeline.Value
import Idealize.ShloMosaic.PureOps.Ideal.Laws
import proofs.«109770_j54692113547689_1_alg».proof.Proof.LibDense

noncomputable section

open scoped BigOperators

namespace Cert.Lib.CatDot

open Idealize.ShloMosaic Idealize.ShloMosaic.ValueIdx Cert.Lib.BiasDot Cert.Lib.Dense

variable {M K K' N : Nat}

/-- The first `K` rows of a matrix of `K + K'` rows. -/
def rowsTop (Wc : (⟨2, ![K + K', N]⟩ : Shape).Idx → EReal) : (⟨2, ![K, N]⟩ : Shape).Idx → EReal :=
  fun i => Wc (ix2 (Fin.castAdd K' (i 0)) (i 1))

/-- Its last `K'` rows. -/
def rowsBot (Wc : (⟨2, ![K + K', N]⟩ : Shape).Idx → EReal) : (⟨2, ![K', N]⟩ : Shape).Idx → EReal :=
  fun i => Wc (ix2 (Fin.natAdd K (i 0)) (i 1))

/-- The slice at row offset `0` is the first `K` rows. -/
theorem slice_rowsTop (Wc : (⟨2, ![K + K', N]⟩ : Shape).Idx → EReal)
    (hs1 : (⟨2, ![K + K', N]⟩ : Shape).Slices ![0, 0] ⟨2, ![K, N]⟩) :
    extractStridedSlice ⟨2, ![K, N]⟩ ![0, 0] Wc hs1 = rowsTop Wc := by
  funext i
  obtain ⟨k, q, rfl⟩ : ∃ (k : Fin K) (q : Fin N), i = ix2 k q := ⟨i 0, i 1, eq_ix2 i⟩
  exact slice_top Wc hs1 k q

/-- The slice at row offset `K` is the last `K'` rows. -/
theorem slice_rowsBot (Wc : (⟨2, ![K + K', N]⟩ : Shape).Idx → EReal)
    (hs2 : (⟨2, ![K + K', N]⟩ : Shape).Slices ![K, 0] ⟨2, ![K', N]⟩) :
    extractStridedSlice ⟨2, ![K', N]⟩ ![K, 0] Wc hs2 = rowsBot Wc := by
  funext i
  obtain ⟨k, q, rfl⟩ : ∃ (k : Fin K') (q : Fin N), i = ix2 k q := ⟨i 0, i 1, eq_ix2 i⟩
  exact slice_bot Wc hs2 k q

/-- The sum over the contraction index of the side-by-side operand against the weight splits at the seam into the two
    blocks' sums against the first and the last rows of the weight. -/
theorem sum_concat_rows (A : (⟨2, ![M, K]⟩ : Shape).Idx → EReal) (C : (⟨2, ![M, K']⟩ : Shape).Idx → EReal)
    (Wc : (⟨2, ![K + K', N]⟩ : Shape).Idx → EReal)
    (hcat : Shape.Concatenates [(⟨2, ![M, K]⟩ : Shape), ⟨2, ![M, K']⟩] ⟨2, ![M, K + K']⟩ 1) (p : Fin M) (q : Fin N) :
    (∑ k : Fin (K + K'), concatenate ⟨2, ![M, K + K']⟩ 1 [⟨⟨2, ![M, K]⟩, A⟩, ⟨⟨2, ![M, K']⟩, C⟩] hcat (ix2 p k) * Wc (ix2 k q))
      = (∑ k : Fin K, A (ix2 p k) * rowsTop Wc (ix2 k q)) + (∑ k : Fin K', C (ix2 p k) * rowsBot Wc (ix2 k q)) := by
  rw [Fin.sum_univ_add]
  refine congrArg₂ (· + ·) (Finset.sum_congr rfl fun k _ => ?_) (Finset.sum_congr rfl fun k _ => ?_)
  · rw [concat_left]; rfl
  · rw [concat_right]; rfl

/-- The host's linear layer: product, bias broadcast in two steps, sum. -/
theorem host_lin (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d none X W)
        (broadcastInDim ⟨2, ![M, N]⟩ ![0, 1] h2 (broadcastInDim ⟨2, ![1, N]⟩ ![1] h1 B))
      = lin X W B := by
  subst hd
  funext i
  obtain ⟨p, q, rfl⟩ : ∃ (p : Fin M) (q : Fin N), i = ix2 p q := ⟨i 0, i 1, eq_ix2 i⟩
  rw [addf_apply, hostRow_apply]
  exact congrArg (fun z => z + B (ix1 q)) (Cert.Lib.PlainDot.dotGeneral_apply none _ X W p q)

/-- Two host products added, then a bias row broadcast in two steps added: the two-product layer. -/
theorem host_lin2 (d : DotDims ⟨2, ![M, K]⟩ ⟨2, ![K, N]⟩ ⟨2, ![M, N]⟩) (hd : d = DotDims.plain M K N)
    (d' : DotDims ⟨2, ![M, K']⟩ ⟨2, ![K', N]⟩ ⟨2, ![M, N]⟩) (hd' : d' = DotDims.plain M K' N)
    (A : FVec Ideal ⟨2, ![M, K]⟩ .f32) (Wa : FVec Ideal ⟨2, ![K, N]⟩ .f32)
    (C : FVec Ideal ⟨2, ![M, K']⟩ .f32) (Wb : FVec Ideal ⟨2, ![K', N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (addf (Host.dotGeneral d none A Wa) (Host.dotGeneral d' none C Wb))
        (broadcastInDim ⟨2, ![M, N]⟩ ![0, 1] h2 (broadcastInDim ⟨2, ![1, N]⟩ ![1] h1 B))
      = lin2 A Wa C Wb B := by
  subst hd
  subst hd'
  funext i
  obtain ⟨p, q, rfl⟩ : ∃ (p : Fin M) (q : Fin N), i = ix2 p q := ⟨i 0, i 1, eq_ix2 i⟩
  rw [addf_apply, addf_apply, hostRow_apply]
  exact congrArg₂ (fun y z => y + z + B (ix1 q)) (Cert.Lib.PlainDot.dotGeneral_apply none _ A Wa p q)
    (Cert.Lib.PlainDot.dotGeneral_apply none _ C Wb p q)

/-- The host's layer over a side-by-side operand: the concatenation against the whole weight, plus the bias row, is the
    two-product layer of the two blocks against the first and the last rows of the weight. -/
theorem host_concat_lin2 (d : DotDims ⟨2, ![M, K + K']⟩ ⟨2, ![K + K', N]⟩ ⟨2, ![M, N]⟩) (hd : d = DotDims.plain M (K + K') N)
    (A : FVec Ideal ⟨2, ![M, K]⟩ .f32) (C : FVec Ideal ⟨2, ![M, K']⟩ .f32) (Wc : FVec Ideal ⟨2, ![K + K', N]⟩ .f32)
    (B : FVec Ideal ⟨1, ![N]⟩ .f32)
    (hcat : Shape.Concatenates [(⟨2, ![M, K]⟩ : Shape), ⟨2, ![M, K']⟩] ⟨2, ![M, K + K']⟩ 1)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d none
          (concatenate ⟨2, ![M, K + K']⟩ 1 [⟨⟨2, ![M, K]⟩, A⟩, ⟨⟨2, ![M, K']⟩, C⟩] hcat) Wc)
        (broadcastInDim ⟨2, ![M, N]⟩ ![0, 1] h2 (broadcastInDim ⟨2, ![1, N]⟩ ![1] h1 B))
    = lin2 A (rowsTop Wc) C (rowsBot Wc) B := by
  subst hd
  funext i
  obtain ⟨p, q, rfl⟩ : ∃ (p : Fin M) (q : Fin N), i = ix2 p q := ⟨i 0, i 1, eq_ix2 i⟩
  rw [addf_apply, hostRow_apply]
  refine congrArg (fun z => z + B (ix1 q)) ?_
  exact (Cert.Lib.PlainDot.dotGeneral_apply none _ _ Wc p q).trans (sum_concat_rows A C Wc hcat p q)

end Cert.Lib.CatDot

end
-- ==== Proof.HostForms.lean ====
/-
  The host's spellings of the stages of the network, read as whole-array functions on the extended reals.

  Each stage of the network is written on the host as a short chain of array operations: a vector made a column, a
  scalar spread over a shape, a gather of rows followed by a scatter-add, a power of a maximum, a product with a
  column spread along the lanes, a matrix product plus a bias row. Each lemma here says which function of the
  specification such a chain is. The shape facts and the dimension records of the operations are arguments, so the
  same lemma reads the chain wherever it is written.
-/
import Idealize.ShloMosaic.Lib.ValueIdx
import Idealize.ShloMosaic.Lib.Pipeline.Value
import Idealize.ShloMosaic.PureOps.Ideal.Laws
import proofs.«109770_j54692113547689_1_alg».proof.Proof.Spec
import proofs.«109770_j54692113547689_1_alg».proof.Proof.LibGcnHost
import proofs.«109770_j54692113547689_1_alg».proof.Proof.LibDense
import proofs.«109770_j54692113547689_1_alg».proof.Proof.LibCatDot
import proofs.«109770_j54692113547689_1_alg».proof.Proof.LibColumn
import proofs.«109770_j54692113547689_1_alg».proof.Proof.LibRowLayers

noncomputable section

open scoped BigOperators

namespace Cert.Net.Host

open Idealize.ShloMosaic Idealize.ShloMosaic.ValueIdx Cert.Lib.BiasDot Cert.Lib.Dense Cert.Lib.RowScatter
  Cert.Lib.Scatter1 Cert.Gcn Cert.Gcn.Host Cert.Net

/-! ## Columns and splats -/

/-- A vector of length `M` made an `M × 1` column by the host's broadcast reads, at `(e, 0)`, the vector at `e`. -/
theorem bcastCol_apply {α : Type} {M : Nat} (v : (⟨1, ![M]⟩ : Shape).Idx → α)
    (h1 : (⟨1, ![M]⟩ : Shape).BroadcastsInDim ⟨2, ![M, 1]⟩ ![0]) (i : (⟨2, ![M, 1]⟩ : Shape).Idx) :
    broadcastInDim ⟨2, ![M, 1]⟩ ![0] h1 v i = v (ix1 (i 0)) := by
  refine broadcastInDim_apply ![0] h1 v i (ix1 (i 0)) (fun a => ?_)
  match a with
  | ⟨0, _⟩ =>
    show (i 0).val = if M = 1 then 0 else (i 0).val
    split
    · have : (i 0).val < M := (i 0).isLt
      omega
    · rfl

/-- A vector of edge words made a column by the host's broadcast is `colOf` of it. -/
theorem bcastCol (x : IdxV) (h1 : (⟨1, ![Ne]⟩ : Shape).BroadcastsInDim ⟨2, ![Ne, 1]⟩ ![0]) :
    broadcastInDim ⟨2, ![Ne, 1]⟩ ![0] h1 x = colOf x :=
  funext fun i => bcastCol_apply x h1 i

/-- An integer scalar spread over any shape is that word everywhere. -/
theorem splatI {t : Shape} {n : Nat} (dims : Fin 0 → Fin t.rank) (h : (⟨0, ![]⟩ : Shape).BroadcastsInDim t dims)
    (w : BitVec n) : broadcastInDim t dims h (constantI ⟨0, ![]⟩ n w) = fun _ => w :=
  funext fun j => broadcastInDim_apply (s := ⟨0, ![]⟩) dims h _ j (fun a => a.elim0) (fun a => a.elim0)

/-- The source words wrapped once where negative, made a column: the host's compare, add, select and broadcast. -/
theorem wrapCol (x : IdxV) (dims : Fin 0 → Fin 1) (h0 : (⟨0, ![]⟩ : Shape).BroadcastsInDim ⟨1, ![Ne]⟩ dims)
    (h1 : (⟨1, ![Ne]⟩ : Shape).BroadcastsInDim ⟨2, ![Ne, 1]⟩ ![0]) :
    broadcastInDim ⟨2, ![Ne, 1]⟩ ![0] h1
        (select (cmpi .slt x (broadcastInDim ⟨1, ![Ne]⟩ dims h0 (constantI ⟨0, ![]⟩ 32 0#32)))
          (addi x (broadcastInDim ⟨1, ![Ne]⟩ dims h0 (constantI ⟨0, ![]⟩ 32 100000#32))) x)
      = colOf (wrapOf x) := by
  rw [splatI, splatI]
  exact bcastCol (wrapOf x) h1

/-! ## The normalisation factor -/

/-- The host's power, entry by entry. -/
theorem hostPowf_apply {s : Shape} (x y : FVec Ideal s .f32) (i : s.Idx) :
    Host.powf (F := Ideal) x y i = Ideal.pow (x i) (y i) := rfl

/-- The host's normalisation factor: ones scattered and added into zeros over the column of words, the maximum with
    one, to the power of the word of -1/2. -/
theorem nrmTerm (idx : IdxV)
    (d1 : ScatterDims ⟨1, ![Nn]⟩ ⟨2, ![Ne, 1]⟩ ⟨1, ![Ne]⟩)
    (wf1 : ScatterDims.WF ⟨1, ![Nn]⟩ ⟨2, ![Ne, 1]⟩ ⟨1, ![Ne]⟩ [] [0] [0] 1) (hd1 : d1 = scatter1Dims Nn Ne wf1)
    (dimsN : Fin 0 → Fin 1) (hN0 : (⟨0, ![]⟩ : Shape).BroadcastsInDim ⟨1, ![Nn]⟩ dimsN)
    (dimsE : Fin 0 → Fin 1) (hE0 : (⟨0, ![]⟩ : Shape).BroadcastsInDim ⟨1, ![Ne]⟩ dimsE)
    (h1 : (⟨1, ![Ne]⟩ : Shape).BroadcastsInDim ⟨2, ![Ne, 1]⟩ ![0]) :
    Host.powf (F := Ideal)
        (maximumf (Host.scatterAdd (F := Ideal) d1 (broadcastInDim ⟨1, ![Nn]⟩ dimsN hN0 (constant ⟨0, ![]⟩ .f32 0x00000000#32))
            (broadcastInDim ⟨2, ![Ne, 1]⟩ ![0] h1 idx)
            (broadcastInDim ⟨1, ![Ne]⟩ dimsE hE0 (constant ⟨0, ![]⟩ .f32 0x3F800000#32)))
          (broadcastInDim ⟨1, ![Nn]⟩ dimsN hN0 (constant ⟨0, ![]⟩ .f32 0x3F800000#32)))
        (broadcastInDim ⟨1, ![Nn]⟩ dimsN hN0 (constant ⟨0, ![]⟩ .f32 0xBF000000#32))
      = fun j => nrm idx (j 0) := by
  funext j
  obtain ⟨n, rfl⟩ : ∃ n : Fin Nn, j = ix1 n := ⟨j 0, eq_ix1 j⟩
  rw [hostPowf_apply, host_divisor_apply d1 wf1 hd1, splat_apply, bcastCol]
  rfl

/-! ## Scaling the rows -/

/-- A product with a vector made a column and spread along the lanes scales each row by the vector's entry. -/
theorem scaleByVec {N C : Nat} (X : FVec Ideal ⟨2, ![N, C]⟩ .f32) (v : FVec Ideal ⟨1, ![N]⟩ .f32)
    (h1 : (⟨1, ![N]⟩ : Shape).BroadcastsInDim ⟨2, ![N, 1]⟩ ![0])
    (h2 : (⟨2, ![N, 1]⟩ : Shape).BroadcastsInDim ⟨2, ![N, C]⟩ ![0, 1]) :
    mulf X (broadcastInDim ⟨2, ![N, C]⟩ ![0, 1] h2 (broadcastInDim ⟨2, ![N, 1]⟩ ![0] h1 v))
      = scaleRows (fun n => v (ix1 n)) X := by
  funext i
  obtain ⟨p, q, rfl⟩ : ∃ (p : Fin N) (q : Fin C), i = ix2 p q := ⟨i 0, i 1, eq_ix2 i⟩
  rw [mulf_apply, hostCol_apply]
  rfl

/-- A product with the normalisation factors, made a column and spread along the lanes, is `scaleRows (nrm idx)`. -/
theorem scaleByNrm (idx : IdxV) (X : FVec Ideal ⟨2, ![Nn, Dd]⟩ .f32)
    (h1 : (⟨1, ![Nn]⟩ : Shape).BroadcastsInDim ⟨2, ![Nn, 1]⟩ ![0])
    (h2 : (⟨2, ![Nn, 1]⟩ : Shape).BroadcastsInDim ⟨2, ![Nn, Dd]⟩ ![0, 1]) :
    mulf X (broadcastInDim ⟨2, ![Nn, Dd]⟩ ![0, 1] h2 (broadcastInDim ⟨2, ![Nn, 1]⟩ ![0] h1
        (fun j : (⟨1, ![Nn]⟩ : Shape).Idx => nrm idx (j 0))))
      = scaleRows (nrm idx) X :=
  scaleByVec X (fun j : (⟨1, ![Nn]⟩ : Shape).Idx => nrm idx (j 0)) h1 h2

/-! ## The aggregation -/

/-- The host's aggregation over the two columns of words: rows gathered at the wrapped source words, scattered and
    added into zeros at the destination words. -/
theorem aggTerm (src dst : IdxV) (X : FVec Ideal ⟨2, ![Nn, Dd]⟩ .f32)
    (ds : ScatterDims ⟨2, ![Nn, Dd]⟩ ⟨2, ![Ne, 1]⟩ ⟨2, ![Ne, Dd]⟩)
    (wfs : ScatterDims.WF ⟨2, ![Nn, Dd]⟩ ⟨2, ![Ne, 1]⟩ ⟨2, ![Ne, Dd]⟩ [1] [0] [0] 1) (hds : ds = rowScatterDims Nn Ne Dd wfs)
    (dg : GatherDims ⟨2, ![Nn, Dd]⟩ ⟨2, ![Ne, 1]⟩ ⟨2, ![Ne, Dd]⟩)
    (wfg : GatherDims.WF ⟨2, ![Nn, Dd]⟩ ⟨2, ![Ne, 1]⟩ ⟨2, ![Ne, Dd]⟩ [1] [0] [] [0] [] 1 ![1, Dd])
    (hdg : dg = rowGatherDims Nn Ne Dd wfg)
    (dims : Fin 0 → Fin 2) (h0 : (⟨0, ![]⟩ : Shape).BroadcastsInDim ⟨2, ![Nn, Dd]⟩ dims) :
    Host.scatterAdd (F := Ideal) ds (broadcastInDim ⟨2, ![Nn, Dd]⟩ dims h0 (constant ⟨0, ![]⟩ .f32 0x00000000#32)) (colOf dst)
        (Host.gather dg X (colOf (wrapOf src)))
      = agg (rowOf src) (lands dst) zw X :=
  scatter_gather_eq (by decide) ds wfs hds dg wfg hdg dims h0 0x00000000#32 X (colOf (wrapOf src)) (colOf dst)

/-- The same with the two columns as the host writes them. -/
theorem aggHost (src dst : IdxV) (X : FVec Ideal ⟨2, ![Nn, Dd]⟩ .f32)
    (ds : ScatterDims ⟨2, ![Nn, Dd]⟩ ⟨2, ![Ne, 1]⟩ ⟨2, ![Ne, Dd]⟩)
    (wfs : ScatterDims.WF ⟨2, ![Nn, Dd]⟩ ⟨2, ![Ne, 1]⟩ ⟨2, ![Ne, Dd]⟩ [1] [0] [0] 1) (hds : ds = rowScatterDims Nn Ne Dd wfs)
    (dg : GatherDims ⟨2, ![Nn, Dd]⟩ ⟨2, ![Ne, 1]⟩ ⟨2, ![Ne, Dd]⟩)
    (wfg : GatherDims.WF ⟨2, ![Nn, Dd]⟩ ⟨2, ![Ne, 1]⟩ ⟨2, ![Ne, Dd]⟩ [1] [0] [] [0] [] 1 ![1, Dd])
    (hdg : dg = rowGatherDims Nn Ne Dd wfg)
    (dims : Fin 0 → Fin 2) (h0 : (⟨0, ![]⟩ : Shape).BroadcastsInDim ⟨2, ![Nn, Dd]⟩ dims)
    (dimsE : Fin 0 → Fin 1) (hE0 : (⟨0, ![]⟩ : Shape).BroadcastsInDim ⟨1, ![Ne]⟩ dimsE)
    (h1 : (⟨1, ![Ne]⟩ : Shape).BroadcastsInDim ⟨2, ![Ne, 1]⟩ ![0]) :
    Host.scatterAdd (F := Ideal) ds (broadcastInDim ⟨2, ![Nn, Dd]⟩ dims h0 (constant ⟨0, ![]⟩ .f32 0x00000000#32))
        (broadcastInDim ⟨2, ![Ne, 1]⟩ ![0] h1 dst)
        (Host.gather dg X (broadcastInDim ⟨2, ![Ne, 1]⟩ ![0] h1
          (select (cmpi .slt src (broadcastInDim ⟨1, ![Ne]⟩ dimsE hE0 (constantI ⟨0, ![]⟩ 32 0#32)))
            (addi src (broadcastInDim ⟨1, ![Ne]⟩ dimsE hE0 (constantI ⟨0, ![]⟩ 32 100000#32))) src)))
      = agg (rowOf src) (lands dst) zw X := by
  rw [wrapCol, bcastCol]
  exact aggTerm src dst X ds wfs hds dg wfg hdg dims h0

/-! ## Reshapes -/

/-- A vector of length `M` reshaped to an `M × 1` column reads, at `(p, 0)`, the vector at `p`. -/
theorem colReshape {α : Type} {M : Nat} (v : (⟨1, ![M]⟩ : Shape).Idx → α)
    (hc : (⟨1, ![M]⟩ : Shape).ShapeCasts ⟨2, ![M, 1]⟩) (p : Fin M) :
    shapeCast ⟨2, ![M, 1]⟩ v hc (ix2 p (0 : Fin 1)) = v (ix1 p) :=
  Cert.Lib.Column.col_apply v hc p

/-- A vector of length `N` reshaped to a `1 × N` row and read back as a vector is the vector. -/
theorem rowReshape {N : Nat} (b : (⟨1, ![N]⟩ : Shape).Idx → EReal) (hc : (⟨1, ![N]⟩ : Shape).ShapeCasts ⟨2, ![1, N]⟩) :
    Cert.Lib.RowLayers.rowVec (shapeCast ⟨2, ![1, N]⟩ b hc) = b :=
  Cert.Lib.RowLayers.rowVec_reshape b hc

/-! ## The last dense layer on one row -/

/-- A vector of length `N` made a `1 × N` row by the host's broadcast reads, at `(p, q)`, the vector at `q`. -/
theorem bcastRow_apply {α : Type} {N : Nat} (b : (⟨1, ![N]⟩ : Shape).Idx → α)
    (hb : (⟨1, ![N]⟩ : Shape).BroadcastsInDim ⟨2, ![1, N]⟩ ![1]) (p : Fin 1) (q : Fin N) :
    broadcastInDim ⟨2, ![1, N]⟩ ![1] hb b (ix2 p q) = b (ix1 q) := by
  refine broadcastInDim_apply ![1] hb b (ix2 p q) (ix1 q) (fun a => ?_)
  match a with
  | ⟨0, _⟩ =>
    show q.val = if N = 1 then 0 else q.val
    split
    · have := q.isLt; omega
    · rfl

/-- The host's dense layer on one row: the product with the weights plus the bias made a row. -/
theorem hostTail {K N : Nat} (d : DotDims ⟨2, ![1, K]⟩ ⟨2, ![K, N]⟩ ⟨2, ![1, N]⟩) (hd : d = DotDims.plain 1 K N)
    (v : FVec Ideal ⟨2, ![1, K]⟩ .f32) (W : FVec Ideal ⟨2, ![K, N]⟩ .f32) (b : FVec Ideal ⟨1, ![N]⟩ .f32)
    (hb : (⟨1, ![N]⟩ : Shape).BroadcastsInDim ⟨2, ![1, N]⟩ ![1]) :
    addf (Host.dotGeneral d none v W) (broadcastInDim ⟨2, ![1, N]⟩ ![1] hb b)
      = fun i => (∑ k : Fin K, v (ix2 (0 : Fin 1) k) * W (ix2 k (i 1))) + b (ix1 (i 1)) := by
  subst hd
  funext i
  obtain ⟨p, q, rfl⟩ : ∃ (p : Fin 1) (q : Fin N), i = ix2 p q := ⟨i 0, i 1, eq_ix2 i⟩
  obtain rfl : p = 0 := Subsingleton.elim p 0
  rw [addf_apply, bcastRow_apply]
  exact congrArg (fun z => z + b (ix1 q)) (Cert.Lib.PlainDot.dotGeneral_apply none _ v W 0 q)

end Cert.Net.Host

end
-- ==== Proof.KState.lean ====
/-
  The contents of the buffers the first two kernel regions find, as functions of the launch arrays.

  Before each region the host computes, from the feature table the region before it left (the input features for the
  first region) and the two vectors of edge words: the table scaled by the source-side normalisation factors and
  aggregated over the edges, the column of destination-side factors, and the bias made a row. The factors depend on
  the edge words only; they are computed once, before the first region, and no later operation or region writes
  them, so every later stretch finds them as the first stretch left them. Likewise no operation and no region writes
  an argument array.
-/
import proofs.«109770_j54692113547689_1_alg».proof.Proof.Gen.KernelIdeal.Frame
import proofs.«109770_j54692113547689_1_alg».proof.Proof.Spec
import proofs.«109770_j54692113547689_1_alg».proof.Proof.HostForms

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Cert.Net Cert.Net.Host Cert.Gcn Cert.Lib.RowLayers

variable (m : (ℓ : Loc nD τ sig) → Buf (Elt Ideal) ℓ) (ρ : Dev nD → PrngReg) (c : Dev nD)

/-! ## After the first stretch of host operations -/

/-- The source-side normalisation factors, as the first stretch leaves them. -/
theorem W1_v12 : (W1 m ρ c (Proc.devRef .tc main_v12) : S100000.Idx → EReal)
    = fun j : S100000.Idx => nrm (m ((c : Thread nD τ).loc main_arg1)) (j 0) := by
  show StableHlo.after hostOps0 (W0 m ρ c) (Proc.devRef .tc main_v12) = _
  after_results_simp
  exact nrmTerm _ _ Gen.scatter_S100000_S1600000x1_S1600000_n_0_0_1_wf rfl _ _ _ _ _

/-- The destination-side normalisation factors, as the first stretch leaves them. -/
theorem W1_v14 : (W1 m ρ c (Proc.devRef .tc main_v14) : S100000.Idx → EReal)
    = fun j : S100000.Idx => nrm (m ((c : Thread nD τ).loc main_arg2)) (j 0) := by
  show StableHlo.after hostOps0 (W0 m ρ c) (Proc.devRef .tc main_v14) = _
  after_results_simp
  exact nrmTerm _ _ Gen.scatter_S100000_S1600000x1_S1600000_n_0_0_1_wf rfl _ _ _ _ _

/-- The first stretch writes no argument. -/
theorem W1_arg1 : W1 m ρ c (Proc.devRef .tc main_arg1) = m ((c : Thread nD τ).loc main_arg1) := by
  show StableHlo.after hostOps0 (W0 m ρ c) (Proc.devRef .tc main_arg1) = _
  after_results_simp
theorem W1_arg2 : W1 m ρ c (Proc.devRef .tc main_arg2) = m ((c : Thread nD τ).loc main_arg2) := by
  show StableHlo.after hostOps0 (W0 m ρ c) (Proc.devRef .tc main_arg2) = _
  after_results_simp
theorem W1_arg5 : W1 m ρ c (Proc.devRef .tc main_arg5) = m ((c : Thread nD τ).loc main_arg5) := by
  show StableHlo.after hostOps0 (W0 m ρ c) (Proc.devRef .tc main_arg5) = _
  after_results_simp
theorem W1_arg6 : W1 m ρ c (Proc.devRef .tc main_arg6) = m ((c : Thread nD τ).loc main_arg6) := by
  show StableHlo.after hostOps0 (W0 m ρ c) (Proc.devRef .tc main_arg6) = _
  after_results_simp

/-- The aggregated table the first region finds. -/
theorem V1_v27 : (V1 m ρ c main_v27 : S100000x128.Idx → EReal)
    = agg (rowOf (m ((c : Thread nD τ).loc main_arg1))) (lands (m ((c : Thread nD τ).loc main_arg2))) zw
        (scaleRows (nrm (m ((c : Thread nD τ).loc main_arg1))) (m ((c : Thread nD τ).loc main_arg0))) := by
  show StableHlo.after hostOps0 (W0 m ρ c) (Proc.devRef .tc main_v27) = _
  after_results_simp
  rw [nrmTerm (W0 m ρ c (Proc.devRef .tc main_arg1)) scatter_S100000_S1600000x1_S1600000_n_0_0_1
      Gen.scatter_S100000_S1600000x1_S1600000_n_0_0_1_wf rfl, scaleByNrm,
    aggHost (W0 m ρ c (Proc.devRef .tc main_arg1)) (W0 m ρ c (Proc.devRef .tc main_arg2)) _
      scatter_S100000x128_S1600000x1_S1600000x128_1_0_0_1 Gen.scatter_S100000x128_S1600000x1_S1600000x128_1_0_0_1_wf rfl
      gather_S100000x128_S1600000x1_S1600000x128_1_0_n_n_0_1_1128
      Gen.gather_S100000x128_S1600000x1_S1600000x128_1_0_n_n_0_1_1128_wf rfl]

/-- The column of destination-side factors the first region finds. -/
theorem V1_v28 (p : Fin 100000) : (V1 m ρ c main_v28 : S100000x1.Idx → EReal) (ix2 p (0 : Fin 1))
    = nrm (m ((c : Thread nD τ).loc main_arg2)) p := by
  show StableHlo.after hostOps0 (W0 m ρ c) (Proc.devRef .tc main_v28) (ix2 p (0 : Fin 1)) = _
  after_results_simp
  rw [nrmTerm (W0 m ρ c (Proc.devRef .tc main_arg2)) scatter_S100000_S1600000x1_S1600000_n_0_0_1
    Gen.scatter_S100000_S1600000x1_S1600000_n_0_0_1_wf rfl]
  exact colReshape _ _ p

/-- The first layer's weights are the argument's. -/
theorem V1_arg3 : V1 m ρ c main_arg3 = m ((c : Thread nD τ).loc main_arg3) := by
  show StableHlo.after hostOps0 (W0 m ρ c) (Proc.devRef .tc main_arg3) = _
  after_results_simp

/-- The first layer's bias row is the argument's vector. -/
theorem V1_v29 : rowVec (V1 m ρ c main_v29) = m ((c : Thread nD τ).loc main_arg4) := by
  show rowVec (StableHlo.after hostOps0 (W0 m ρ c) (Proc.devRef .tc main_v29)) = _
  after_results_simp
  exact rowReshape _ _

/-! ## At the first region's exit: what it does not write is as it was -/

theorem W2_v12 : (W2 m ρ c (Proc.devRef .tc main_v12) : S100000.Idx → EReal)
    = fun j : S100000.Idx => nrm (m ((c : Thread nD τ).loc main_arg1)) (j 0) :=
  (W2_of_ne m ρ c main_v12 (by decide)).trans (W1_v12 m ρ c)
theorem W2_v14 : (W2 m ρ c (Proc.devRef .tc main_v14) : S100000.Idx → EReal)
    = fun j : S100000.Idx => nrm (m ((c : Thread nD τ).loc main_arg2)) (j 0) :=
  (W2_of_ne m ρ c main_v14 (by decide)).trans (W1_v14 m ρ c)
theorem W2_arg1 : W2 m ρ c (Proc.devRef .tc main_arg1) = m ((c : Thread nD τ).loc main_arg1) :=
  (W2_of_ne m ρ c main_arg1 (by decide)).trans (W1_arg1 m ρ c)
theorem W2_arg2 : W2 m ρ c (Proc.devRef .tc main_arg2) = m ((c : Thread nD τ).loc main_arg2) :=
  (W2_of_ne m ρ c main_arg2 (by decide)).trans (W1_arg2 m ρ c)
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)

/-! ## After the second stretch of host operations -/

/-- The second stretch writes neither vector of factors and no argument. -/
theorem W3_v12 : (W3 m ρ c (Proc.devRef .tc main_v12) : S100000.Idx → EReal)
    = fun j : S100000.Idx => nrm (m ((c : Thread nD τ).loc main_arg1)) (j 0) := by
  show StableHlo.after hostOps1 (W2 m ρ c) (Proc.devRef .tc main_v12) = _
  after_results_simp
  exact W2_v12 m ρ c
theorem W3_v14 : (W3 m ρ c (Proc.devRef .tc main_v14) : S100000.Idx → EReal)
    = fun j : S100000.Idx => nrm (m ((c : Thread nD τ).loc main_arg2)) (j 0) := by
  show StableHlo.after hostOps1 (W2 m ρ c) (Proc.devRef .tc main_v14) = _
  after_results_simp
  exact W2_v14 m ρ c
theorem W3_arg1 : W3 m ρ c (Proc.devRef .tc main_arg1) = m ((c : Thread nD τ).loc main_arg1) := by
  show StableHlo.after hostOps1 (W2 m ρ c) (Proc.devRef .tc main_arg1) = _
  after_results_simp
  exact W2_arg1 m ρ c
theorem W3_arg2 : W3 m ρ c (Proc.devRef .tc main_arg2) = m ((c : Thread nD τ).loc main_arg2) := by
  show StableHlo.after hostOps1 (W2 m ρ c) (Proc.devRef .tc main_arg2) = _
  after_results_simp
  exact W2_arg2 m ρ c

/-- The aggregated table the second region finds, from what the first region left. -/
theorem V3_v43 (X1 : S100000x128.Idx → EReal) (h30 : V2 m ρ c main_v30 = X1) :
    (V3 m ρ c main_v43 : S100000x128.Idx → EReal)
    = agg (rowOf (m ((c : Thread nD τ).loc main_arg1))) (lands (m ((c : Thread nD τ).loc main_arg2))) zw
        (scaleRows (nrm (m ((c : Thread nD τ).loc main_arg1))) X1) := by
  have h30' : W2 m ρ c (Proc.devRef .tc main_v30) = X1 := h30
  show StableHlo.after hostOps1 (W2 m ρ c) (Proc.devRef .tc main_v43) = _
  after_results_simp
  rw [W2_v12 m ρ c, W2_arg1 m ρ c, W2_arg2 m ρ c, h30', scaleByNrm,
    aggHost (m ((c : Thread nD τ).loc main_arg1)) (m ((c : Thread nD τ).loc main_arg2)) _
      scatter_S100000x128_S1600000x1_S1600000x128_1_0_0_1 Gen.scatter_S100000x128_S1600000x1_S1600000x128_1_0_0_1_wf rfl
      gather_S100000x128_S1600000x1_S1600000x128_1_0_n_n_0_1_1128
      Gen.gather_S100000x128_S1600000x1_S1600000x128_1_0_n_n_0_1_1128_wf rfl]

/-- The column of destination-side factors the second region finds. -/
theorem V3_v44 (p : Fin 100000) : (V3 m ρ c main_v44 : S100000x1.Idx → EReal) (ix2 p (0 : Fin 1))
    = nrm (m ((c : Thread nD τ).loc main_arg2)) p := by
  show StableHlo.after hostOps1 (W2 m ρ c) (Proc.devRef .tc main_v44) (ix2 p (0 : Fin 1)) = _
  after_results_simp
  rw [W2_v14 m ρ c]
  exact colReshape _ _ p

/-- The second layer's weights are the argument's. -/
theorem V3_arg5 : V3 m ρ c main_arg5 = m ((c : Thread nD τ).loc main_arg5) := by
  show StableHlo.after hostOps1 (W2 m ρ c) (Proc.devRef .tc main_arg5) = _
  after_results_simp
  exact W2_arg5 m ρ c

/-- The second layer's bias row is the argument's vector. -/
theorem V3_v45 : rowVec (V3 m ρ c main_v45) = m ((c : Thread nD τ).loc main_arg6) := by
  show rowVec (StableHlo.after hostOps1 (W2 m ρ c) (Proc.devRef .tc main_v45)) = _
  after_results_simp
  rw [W2_arg6 m ρ c]
  exact rowReshape _ _

/-! ## At the second region's exit: what it does not write is as it was -/

theorem W4_v12 : (W4 m ρ c (Proc.devRef .tc main_v12) : S100000.Idx → EReal)
    = fun j : S100000.Idx => nrm (m ((c : Thread nD τ).loc main_arg1)) (j 0) :=
  (W4_of_ne m ρ c main_v12 (by decide)).trans (W3_v12 m ρ c)
theorem W4_v14 : (W4 m ρ c (Proc.devRef .tc main_v14) : S100000.Idx → EReal)
    = fun j : S100000.Idx => nrm (m ((c : Thread nD τ).loc main_arg2)) (j 0) :=
  (W4_of_ne m ρ c main_v14 (by decide)).trans (W3_v14 m ρ c)
theorem W4_arg1 : W4 m ρ c (Proc.devRef .tc main_arg1) = m ((c : Thread nD τ).loc main_arg1) :=
  (W4_of_ne m ρ c main_arg1 (by decide)).trans (W3_arg1 m ρ c)
theorem W4_arg2 : W4 m ρ c (Proc.devRef .tc main_arg2) = m ((c : Thread nD τ).loc main_arg2) :=
  (W4_of_ne m ρ c main_arg2 (by decide)).trans (W3_arg2 m ρ c)

end Cert.KernelIdeal.Hand

end
-- ==== Proof.KStateB.lean ====
/-
  The kernel program's buffers at its later segment boundaries, as functions of the specification.

  Between the regions the program runs stretches of host operations. A buffer that neither a stretch nor a region
  writes holds at every later boundary what it held before: the arguments hold the launch contents, and the two
  vectors of normalisation factors, computed in the first stretch, hold the factors of the source and the
  destination words. With these, the third stretch's aggregation is the aggregation of the specification applied to
  the second layer's output with its rows scaled, the column it reshapes is the destination-side factors, and the last
  stretch is the dense layer on the one row the last region leaves.
-/
import proofs.«109770_j54692113547689_1_alg».proof.Proof.Gen.KernelIdeal.Frame
import proofs.«109770_j54692113547689_1_alg».proof.Proof.HostForms
import proofs.«109770_j54692113547689_1_alg».proof.Proof.Spec

set_option maxRecDepth 16384

noncomputable section

open scoped BigOperators

namespace Cert.KernelIdeal.Hand

open Cert.KernelIdeal Cert.KernelIdeal.Gen Cert.Net Cert.Gcn Idealize.ShloMosaic Idealize.ShloMosaic.TcCoe
  Idealize.SL.Sem Idealize.ShloMosaic.ValueIdx

variable (m : (ℓ : Loc nD τ sig) → Buf (Elt Ideal) ℓ) (ρ : Dev nD → PrngReg) (c : Dev nD)

/-- Closes "no operation of the stretch writes this buffer": one inequality of references per operation. -/
local macro "not_written" : tactic => `(tactic| (
  refine List.forall_iff_forall_mem.mp ?_
  simp only [hostOps0, hostOps1, hostOps2, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## Buffers no later stretch or region writes -/

/-- A buffer that is none of the first two regions' arrays and that the second stretch does not write holds at the
    second region's exit what the first stretch left. -/
private theorem W4_keep (b : Ref sig .tc) (h1 : ∀ w, Pipeline.arrRef spec1 w ≠ b)
    (hops : ∀ op ∈ (hostOps1 : List (HloOp τ sig (Elt Ideal))), (Proc.devRef .tc b : DevRef τ sig) ∉ op.writes)
    (h0 : ∀ w, Pipeline.arrRef spec0 w ≠ b) :
    W4 m ρ c (Proc.devRef .tc b) = W1 m ρ c (Proc.devRef .tc b) :=
  calc W4 m ρ c (Proc.devRef .tc b)
    _ = W3 m ρ c (Proc.devRef .tc b) := W4_of_ne m ρ c b h1
    _ = W2 m ρ c (Proc.devRef .tc b) := StableHlo.after_of_forall_not_mem (b := Proc.devRef .tc b) _ _ hops
    _ = W1 m ρ c (Proc.devRef .tc b) := W2_of_ne m ρ c b h0

/-- A buffer that is not one of the last region's arrays and that the third stretch does not write holds at the last
    region's exit what it held at the second region's exit. -/
private theorem W6_keep (b : Ref sig .tc) (h2 : ∀ w, Pipeline.arrRef spec2 w ≠ b)
    (hops : ∀ op ∈ (hostOps2 : List (HloOp τ sig (Elt Ideal))), (Proc.devRef .tc b : DevRef τ sig) ∉ op.writes) :
    W6 m ρ c (Proc.devRef .tc b) = W4 m ρ c (Proc.devRef .tc b) :=
  calc W6 m ρ c (Proc.devRef .tc b)
    _ = W5 m ρ c (Proc.devRef .tc b) := W6_of_ne m ρ c b h2
    _ = W4 m ρ c (Proc.devRef .tc b) := StableHlo.after_of_forall_not_mem (b := Proc.devRef .tc b) _ _ hops

/-! ## The arguments and the normalisation factors -/

/-- The first stretch writes no argument. -/
private theorem W1_arg1 : W1 m ρ c (Proc.devRef .tc main_arg1) = m ((c : Thread nD τ).loc main_arg1) :=
  (StableHlo.after_of_forall_not_mem (b := Proc.devRef .tc main_arg1) _ _ (by not_written)).trans rfl

private theorem W1_arg2 : W1 m ρ c (Proc.devRef .tc main_arg2) = m ((c : Thread nD τ).loc main_arg2) :=
  (StableHlo.after_of_forall_not_mem (b := Proc.devRef .tc main_arg2) _ _ (by not_written)).trans rfl

/-- The source words at the second region's exit. -/
private theorem W4_arg1 : W4 m ρ c (Proc.devRef .tc main_arg1) = m ((c : Thread nD τ).loc main_arg1) :=
  (W4_keep m ρ c main_arg1 (by decide) (by not_written) (by decide)).trans (W1_arg1 m ρ c)

/-- The destination words at the second region's exit. -/
private theorem W4_arg2 : W4 m ρ c (Proc.devRef .tc main_arg2) = m ((c : Thread nD τ).loc main_arg2) :=
  (W4_keep m ρ c main_arg2 (by decide) (by not_written) (by decide)).trans (W1_arg2 m ρ c)

private theorem W1_arg7 : W1 m ρ c (Proc.devRef .tc main_arg7) = m ((c : Thread nD τ).loc main_arg7) :=
  (StableHlo.after_of_forall_not_mem (b := Proc.devRef .tc main_arg7) _ _ (by not_written)).trans rfl

private theorem W1_arg8 : W1 m ρ c (Proc.devRef .tc main_arg8) = m ((c : Thread nD τ).loc main_arg8) :=
  (StableHlo.after_of_forall_not_mem (b := Proc.devRef .tc main_arg8) _ _ (by not_written)).trans rfl

/-- The last layer's weights at the last region's exit. -/
private theorem W6_arg7 : W6 m ρ c (Proc.devRef .tc main_arg7) = m ((c : Thread nD τ).loc main_arg7) :=
  (W6_keep m ρ c main_arg7 (by decide) (by not_written)).trans
    ((W4_keep m ρ c main_arg7 (by decide) (by not_written) (by decide)).trans (W1_arg7 m ρ c))

/-- The last layer's bias at the last region's exit. -/
private theorem W6_arg8 : W6 m ρ c (Proc.devRef .tc main_arg8) = m ((c : Thread nD τ).loc main_arg8) :=
  (W6_keep m ρ c main_arg8 (by decide) (by not_written)).trans
    ((W4_keep m ρ c main_arg8 (by decide) (by not_written) (by decide)).trans (W1_arg8 m ρ c))

/-- The first stretch leaves the source-side normalisation factors in their vector. -/
private theorem W1_v12 : (W1 m ρ c (Proc.devRef .tc main_v12) : S100000.Idx → EReal)
    = fun j => nrm (m ((c : Thread nD τ).loc main_arg1)) (j 0) := by
  show StableHlo.after hostOps0 (W0 m ρ c) (Proc.devRef .tc main_v12) = _
  after_results
  have h := Cert.Net.Host.nrmTerm (m ((c : Thread nD τ).loc main_arg1)) scatter_S100000_S1600000x1_S1600000_n_0_0_1
    scatter_S100000_S1600000x1_S1600000_n_0_0_1_wf rfl ![] bcast_S_S100000 ![] bcast_S_S1600000 bcast_S1600000_S1600000x1_0
  exact h

/-- And the destination-side factors in theirs. -/
private theorem W1_v14 : (W1 m ρ c (Proc.devRef .tc main_v14) : S100000.Idx → EReal)
    = fun j => nrm (m ((c : Thread nD τ).loc main_arg2)) (j 0) := by
  show StableHlo.after hostOps0 (W0 m ρ c) (Proc.devRef .tc main_v14) = _
  after_results
  have h := Cert.Net.Host.nrmTerm (m ((c : Thread nD τ).loc main_arg2)) scatter_S100000_S1600000x1_S1600000_n_0_0_1
    scatter_S100000_S1600000x1_S1600000_n_0_0_1_wf rfl ![] bcast_S_S100000 ![] bcast_S_S1600000 bcast_S1600000_S1600000x1_0
  exact h

/-- The source-side factors at the second region's exit. -/
private theorem W4_v12 : (W4 m ρ c (Proc.devRef .tc main_v12) : S100000.Idx → EReal)
    = fun j => nrm (m ((c : Thread nD τ).loc main_arg1)) (j 0) :=
  (W4_keep m ρ c main_v12 (by decide) (by not_written) (by decide)).trans (W1_v12 m ρ c)

/-- The destination-side factors at the second region's exit. -/
private theorem W4_v14 : (W4 m ρ c (Proc.devRef .tc main_v14) : S100000.Idx → EReal)
    = fun j => nrm (m ((c : Thread nD τ).loc main_arg2)) (j 0) :=
  (W4_keep m ρ c main_v14 (by decide) (by not_written) (by decide)).trans (W1_v14 m ρ c)

/-! ## The last region's two operands -/

/-- Rows scaled by the source-side factors, gathered at the wrapped source words, scattered and added into zeros at the
    destination words: the aggregation of the specification applied to the scaled rows. -/
private theorem aggScaled (X : FVec Ideal S100000x128 .f32) (x1 x2 : IVec S1600000 32) (v : FVec Ideal S100000 .f32)
    (hv : v = fun j => nrm x1 (j 0)) :
    Host.scatterAdd scatter_S100000x128_S1600000x1_S1600000x128_1_0_0_1
        (broadcastInDim S100000x128 ![] bcast_S_S100000x128 (constant S_ .f32 0x00000000#32))
        (broadcastInDim S1600000x1 ![0] bcast_S1600000_S1600000x1_0 x2)
        (Host.gather gather_S100000x128_S1600000x1_S1600000x128_1_0_n_n_0_1_1128
          (mulf X (broadcastInDim S100000x128 ![0, 1] bcast_S100000x1_S100000x128_0_1
            (broadcastInDim S100000x1 ![0] bcast_S100000_S100000x1_0 v)))
          (broadcastInDim S1600000x1 ![0] bcast_S1600000_S1600000x1_0
            (select (cmpi .slt x1 (broadcastInDim S1600000 ![] bcast_S_S1600000 (constantI S_ 32 0#32)))
              (addi x1 (broadcastInDim S1600000 ![] bcast_S_S1600000 (constantI S_ 32 100000#32))) x1)))
      = agg (rowOf x1) (lands x2) zw (scaleRows (nrm x1) X) := by
  subst hv
  rw [Cert.Net.Host.scaleByNrm]
  have ha := Cert.Net.Host.aggHost x1 x2 (scaleRows (nrm x1) X)
    scatter_S100000x128_S1600000x1_S1600000x128_1_0_0_1 scatter_S100000x128_S1600000x1_S1600000x128_1_0_0_1_wf rfl
    gather_S100000x128_S1600000x1_S1600000x128_1_0_n_n_0_1_1128 gather_S100000x128_S1600000x1_S1600000x128_1_0_n_n_0_1_1128_wf rfl
    ![] bcast_S_S100000x128 ![] bcast_S_S1600000 bcast_S1600000_S1600000x1_0
  exact ha

/-- The third stretch's aggregation: the second layer's output with its rows scaled by the source-side factors, summed
    along the edges into each destination node. -/
theorem V5_v59 (X2 : S100000x128.Idx → EReal) (h46 : V4 m ρ c main_v46 = X2) :
    (V5 m ρ c main_v59 : S100000x128.Idx → EReal)
      = agg (rowOf (m ((c : Thread nD τ).loc main_arg1))) (lands (m ((c : Thread nD τ).loc main_arg2))) zw (scaleRows (nrm (m ((c : Thread nD τ).loc main_arg1))) X2) := by
  have e46 : W4 m ρ c (Proc.devRef .tc main_v46) = X2 := h46
  show StableHlo.after hostOps2 (W4 m ρ c) (Proc.devRef .tc main_v59) = _
  after_results
  rw [W4_arg1, W4_arg2, e46]
  have ha := aggScaled X2 (m ((c : Thread nD τ).loc main_arg1)) (m ((c : Thread nD τ).loc main_arg2)) (W4 m ρ c (Proc.devRef .tc main_v12)) (W4_v12 m ρ c)
  exact ha

/-- The column the third stretch reshapes out of the destination-side factors. -/
theorem V5_v60 (p : Fin 100000) :
    (V5 m ρ c main_v60 : S100000x1.Idx → EReal) (ix2 p (0 : Fin 1)) = nrm (m ((c : Thread nD τ).loc main_arg2)) p := by
  have e : (V5 m ρ c main_v60 : S100000x1.Idx → EReal)
      = shapeCast S100000x1 (W4 m ρ c (Proc.devRef .tc main_v14) : S100000.Idx → EReal) shapeCasts_S100000_S100000x1 := by
    show StableHlo.after hostOps2 (W4 m ρ c) (Proc.devRef .tc main_v60) = _
    after_results
    rfl
  rw [e, W4_v14]
  exact Cert.Net.Host.colReshape _ _ p

/-! ## The last stretch -/

/-- The last stretch is the dense layer on the one row the last region leaves. -/
theorem W7_v64 (R : S1x128.Idx → EReal) (h61 : V6 m ρ c main_v61 = R) :
    (W7 m ρ c (Proc.devRef .tc main_v64) : S1x128.Idx → EReal)
      = fun i => (∑ k : Fin 128, R (ix2 (0 : Fin 1) k) * (m ((c : Thread nD τ).loc main_arg7) : S128x128.Idx → EReal) (ix2 k (i 1)))
          + (m ((c : Thread nD τ).loc main_arg8) : S128.Idx → EReal) (ix1 (i 1)) := by
  have e61 : W6 m ρ c (Proc.devRef .tc main_v61) = R := h61
  show StableHlo.after hostOps3 (W6 m ρ c) (Proc.devRef .tc main_v64) = _
  after_results
  rw [W6_arg7, W6_arg8, e61]
  have ht := Cert.Net.Host.hostTail dot_S1x128_S128x128_S1x128_1_0_0_1_n_n rfl R (m ((c : Thread nD τ).loc main_arg7)) (m ((c : Thread nD τ).loc main_arg8)) bcast_S128_S1x128_1
  exact ht

end Cert.KernelIdeal.Hand

end
-- ==== Proof.KValue.lean ====
/-
  The idealized kernel's result as one function of its arguments.

  Walking the program's segments: the first stretch of host operations computes the two normalisation vectors and the
  first normalised aggregation; the first kernel region applies the first dense layer; the second stretch aggregates
  again; the second region applies the second layer; the third stretch aggregates a third time; the third region takes
  the mean over the nodes of the rows times their destination-side factors; the last stretch applies the third dense
  layer to that one mean row. Together: `kerOut` of the third aggregation `hd3`.
-/
import proofs.«109770_j54692113547689_1_alg».proof.Proof.KRun
import proofs.«109770_j54692113547689_1_alg».proof.Proof.KLayer
import proofs.«109770_j54692113547689_1_alg».proof.Proof.KMean
import proofs.«109770_j54692113547689_1_alg».proof.Proof.KState
import proofs.«109770_j54692113547689_1_alg».proof.Proof.KStateB
import proofs.«109770_j54692113547689_1_alg».proof.Proof.Spec

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Cert.Net Cert.Lib.BiasDot Cert.Lib.Dense Cert.Lib.RowLayers

/-- A block-layer of an aggregated table, a column holding the destination-side factors, a weight and a bias row is the
    network's layer: scaling the rows by the column is scaling them by the factors. -/
theorem blockLayer_eq_layer (src dst : IdxV) (x A : Mat Nn Dd) (S : Mat Nn 1) (W W' : Mat Dd Dd) (R : Mat 1 Dd) (b : Vect Dd)
    (hA : A = Cert.Gcn.agg (rowOf src) (lands dst) zw (Cert.Gcn.scaleRows (nrm src) x))
    (hS : ∀ p : Fin Nn, S (ix2 p (0 : Fin 1)) = nrm dst p) (hW : W = W') (hR : rowVec R = b) :
    blockLayer A S W R = layer src dst x W' b := by
  subst hA hR hW
  unfold blockLayer layer hdOf
  have e : Cert.Gnn.scaleRows (Cert.Gcn.agg (rowOf src) (lands dst) zw (Cert.Gcn.scaleRows (nrm src) x)) S
      = Cert.Gcn.scaleRows (nrm dst) (Cert.Gcn.agg (rowOf src) (lands dst) zw (Cert.Gcn.scaleRows (nrm src) x)) := by
    funext i
    obtain ⟨p, q, rfl⟩ : ∃ (p : Fin Nn) (q : Fin Dd), i = ix2 p q := ⟨i 0, i 1, eq_ix2 i⟩
    show _ * S (ix2 p (0 : Fin 1)) = _ * nrm dst p
    rw [hS]
  rw [e]

/-- The mean row of an aggregated table and a column holding the destination-side factors. -/
theorem meanRow_eq (src dst : IdxV) (x A : Mat Nn Dd) (S : Mat Nn 1)
    (hA : A = Cert.Gcn.agg (rowOf src) (lands dst) zw (Cert.Gcn.scaleRows (nrm src) x))
    (hS : ∀ p : Fin Nn, S (ix2 p (0 : Fin 1)) = nrm dst p) :
    meanRow A S = fun i => (∑ n : Fin Nn, hdOf src dst x (ix2 n (i 1))) * ((1 / 100000 : ℝ) : EReal) := by
  subst hA
  funext i
  unfold meanRow
  refine congrArg (· * ((1 / 100000 : ℝ) : EReal)) (Finset.sum_congr rfl fun n _ => ?_)
  rw [hS]
  rfl

variable (m : (ℓ : Loc nD τ sig) → Buf (Elt Ideal) ℓ) (ρ : Dev nD → PrngReg) (c : Dev nD)

/-- The first region's output: the first layer. -/
theorem X1_eq : (V2 m ρ c main_v30 : S100000x128.Idx → EReal)
    = layer (m ((c : Thread nD τ).loc main_arg1)) (m ((c : Thread nD τ).loc main_arg2)) (m ((c : Thread nD τ).loc main_arg0))
        (m ((c : Thread nD τ).loc main_arg3)) (m ((c : Thread nD τ).loc main_arg4)) := by
  refine ((hF0 m ρ c 4).symm.trans (final0 (V1 m ρ) c)).trans ?_
  exact blockLayer_eq_layer _ _ _ _ _ _ _ _ _ (V1_v27 m ρ c) (V1_v28 m ρ c) (V1_arg3 m ρ c) (V1_v29 m ρ c)

/-- The second region's output: the second layer. -/
theorem X2_eq : (V4 m ρ c main_v46 : S100000x128.Idx → EReal)
    = layer (m ((c : Thread nD τ).loc main_arg1)) (m ((c : Thread nD τ).loc main_arg2))
        (layer (m ((c : Thread nD τ).loc main_arg1)) (m ((c : Thread nD τ).loc main_arg2)) (m ((c : Thread nD τ).loc main_arg0))
          (m ((c : Thread nD τ).loc main_arg3)) (m ((c : Thread nD τ).loc main_arg4)))
        (m ((c : Thread nD τ).loc main_arg5)) (m ((c : Thread nD τ).loc main_arg6)) := by
  refine ((hF1 m ρ c 4).symm.trans (final1 (V3 m ρ) c)).trans ?_
  exact blockLayer_eq_layer _ _ _ _ _ _ _ _ _ (V3_v43 m ρ c _ (X1_eq m ρ c)) (V3_v44 m ρ c) (V3_arg5 m ρ c) (V3_v45 m ρ c)

/-- The third region's output: the mean over the nodes of the third normalised aggregation. -/
theorem R_eq : (V6 m ρ c main_v61 : S1x128.Idx → EReal)
    = fun i => (∑ n : Fin Nn, hd3 (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (ix2 n (i 1))) * ((1 / 100000 : ℝ) : EReal) := by
  refine ((hF2 m ρ c 2).symm.trans (final2 (V5 m ρ) c)).trans ?_
  exact meanRow_eq _ _ _ _ _ (V5_v59 m ρ c _ (X2_eq m ρ c)) (V5_v60 m ρ c)

/-- The result array after the last stretch: the third dense layer applied to the mean row. -/
theorem value_eq : (W7 m ρ c (Proc.devRef .tc main_v64) : S1x128.Idx → EReal)
    = kerOut ((1 / 100000 : ℝ) : EReal)
        (hd3 (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)))
        (m ((c : Thread nD τ).loc main_arg7)) (m ((c : Thread nD τ).loc main_arg8)) := by
  refine (W7_v64 m ρ c _ (R_eq m ρ c)).trans ?_
  funext i
  unfold kerOut
  rfl

/-- The run of the idealized kernel with its result at that function of the arguments, the arguments unchanged. -/
theorem run_value : θ_run defs (onTc (τ := τ) (main (F := Ideal))) ⟨m, fun _ => 0, ρ⟩ (fun r => ∀ c : Dev nD,
      r.2.mem ((c.tc : Thread nD τ).loc main_v64) = kerOut ((1 / 100000 : ℝ) : EReal)
        (hd3 (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)))
        (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (value_eq m ρ c), (h c).2⟩) (run_named m ρ)

end Cert.KernelIdeal.Hand

end
-- ==== Proof.RefValue.lean ====
/-
  The reference program read as whole-array functions on the extended reals.

  Each stage of the three-layer degree-normalised graph convolution is identified with the function of the
  specification it computes: the two normalisation factors (a scatter of ones, the larger of that and one, the
  power -1/2), the column of wrapped source words, one layer's normalised aggregation (rows scaled, gathered along
  the edges, scattered and added into zeros, rows scaled again), the dense layers with their positive part, and at the
  end the dense layer on every node's row followed by the mean over the nodes.
-/
import proofs.«109770_j54692113547689_1_alg».proof.Proof.Gen.ReferenceIdeal.Read
import proofs.«109770_j54692113547689_1_alg».proof.Proof.Spec
import proofs.«109770_j54692113547689_1_alg».proof.Proof.LibGcnHost
import proofs.«109770_j54692113547689_1_alg».proof.Proof.LibDense
import proofs.«109770_j54692113547689_1_alg».proof.Proof.LibCatDot

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.ValueIdx Cert.Lib.BiasDot Cert.Lib.Dense Cert.Lib.CatDot Cert.Lib.RowScatter
  Cert.Lib.Scatter1 Cert.Gcn Cert.Net

/-! ## Elementwise host operations at an index -/

/-- The host's power at an index is the power of the elements. -/
theorem hostPowf_apply {s : Shape} (a b : FVec Ideal s .f32) (i : s.Idx) : Host.powf a b i = Ideal.pow (a i) (b i) := rfl

/-- The host's quotient at an index is the quotient of the elements. -/
theorem hostDivf_apply {s : Shape} (a b : FVec Ideal s .f32) (i : s.Idx) : Host.divf a b i = Ideal.div (a i) (b i) := rfl

/-! ## The index columns -/

/-- A vector of words broadcast to a column is the column of the specification. -/
theorem col_eq (x : IVec S1600000 32) :
    broadcastInDim S1600000x1 ![0] bcast_S1600000_S1600000x1_0 x = colOf x := by
  funext i
  refine (val_main_v2_apply (F := Ideal) x i).trans ?_
  exact congrArg x (funext fun a => by match a with | ⟨0, _⟩ => rfl)

/-- The column of gather indices: the source words, the node count added once to a negative one. -/
theorem wrap_eq (x1 : IVec S1600000 32) : val_main_v23 (F := Ideal) x1 = colOf (wrapOf x1) := by
  have h18 : val_main_v18 (F := Ideal) = fun _ => 0#32 := funext fun i => val_main_v18_apply i
  have h20 : val_main_v20 (F := Ideal) = fun _ => 100000#32 := funext fun i => val_main_v20_apply i
  unfold val_main_v23 val_main_v22 val_main_v19 val_main_v21
  rw [h18, h20, col_eq]
  rfl

/-! ## The normalisation factors -/

/-- The larger of the scattered degree and one, at node `n`, on the source side. -/
theorem v5_apply (x1 : IVec S1600000 32) (n : Fin 100000) :
    val_main_v5 (F := Ideal) x1 (ix1 n) = divisor (lands x1) zw ow n := by
  have h := Cert.Gcn.Host.host_divisor_apply (N := 100000) (M := 1600000) scatter_S100000_S1600000x1_S1600000_n_0_0_1
    scatter_S100000_S1600000x1_S1600000_n_0_0_1_wf rfl ![] bcast_S_S100000 ![] bcast_S_S1600000 0x00000000#32
    0x3F800000#32 (broadcastInDim S1600000x1 ![0] bcast_S1600000_S1600000x1_0 x1) n
  refine h.trans ?_
  rw [col_eq]
  rfl

/-- The same on the destination side. -/
theorem v10_apply (x2 : IVec S1600000 32) (n : Fin 100000) :
    val_main_v10 (F := Ideal) x2 (ix1 n) = divisor (lands x2) zw ow n := by
  have h := Cert.Gcn.Host.host_divisor_apply (N := 100000) (M := 1600000) scatter_S100000_S1600000x1_S1600000_n_0_0_1
    scatter_S100000_S1600000x1_S1600000_n_0_0_1_wf rfl ![] bcast_S_S100000 ![] bcast_S_S1600000 0x00000000#32
    0x3F800000#32 (broadcastInDim S1600000x1 ![0] bcast_S1600000_S1600000x1_0 x2) n
  refine h.trans ?_
  rw [col_eq]
  rfl

/-- The source-side factor: the divisor to the power -1/2. -/
theorem v12_eq (x1 : IVec S1600000 32) : val_main_v12 (F := Ideal) x1 = fun j => nrm x1 (j 0) := by
  funext j
  obtain ⟨n, rfl⟩ : ∃ n : Fin 100000, j = ix1 n := ⟨j 0, eq_ix1 j⟩
  unfold val_main_v12 val_main_v11 val_main_cst_4 nrm
  rw [hostPowf_apply]
  exact congrArg₂ Ideal.pow (v5_apply x1 n) (Cert.Gcn.Host.splat_apply ![] bcast_S_S100000 0xBF000000#32 (ix1 n))

/-- The destination-side factor. -/
theorem v14_eq (x2 : IVec S1600000 32) : val_main_v14 (F := Ideal) x2 = fun j => nrm x2 (j 0) := by
  funext j
  obtain ⟨n, rfl⟩ : ∃ n : Fin 100000, j = ix1 n := ⟨j 0, eq_ix1 j⟩
  unfold val_main_v14 val_main_v13 val_main_cst_5 nrm
  rw [hostPowf_apply]
  exact congrArg₂ Ideal.pow (v10_apply x2 n) (Cert.Gcn.Host.splat_apply ![] bcast_S_S100000 0xBF000000#32 (ix1 n))

/-! ## One layer's normalised aggregation -/

/-- A matrix times a vector of row factors made a column and spread along the columns: every row scaled by its factor. -/
theorem scaled_eq (X : FVec Ideal S100000x128 .f32) (v : FVec Ideal S100000 .f32) (s : Fin 100000 → EReal)
    (hv : v = fun j => s (j 0)) :
    mulf X (broadcastInDim S100000x128 ![0, 1] bcast_S100000x1_S100000x128_0_1
        (broadcastInDim S100000x1 ![0] bcast_S100000_S100000x1_0 v)) = scaleRows s X := by
  subst hv
  funext i
  obtain ⟨p, q, rfl⟩ : ∃ (p : Fin 100000) (q : Fin 128), i = ix2 p q := ⟨i 0, i 1, eq_ix2 i⟩
  rw [mulf_apply, Cert.Gcn.Host.hostCol_apply]
  rfl

/-- Rows scaled by the source-side factor, gathered along the edges, scattered and added into zeros at the destination
    words, rows scaled by the destination-side factor: the normalised aggregation of the specification. -/
theorem host_hdOf (X : FVec Ideal S100000x128 .f32) (x1 x2 : IVec S1600000 32)
    (n1 n2 : FVec Ideal S100000 .f32) (h1 : n1 = fun j => nrm x1 (j 0)) (h2 : n2 = fun j => nrm x2 (j 0))
    (g : IVec S1600000x1 32) (hg : g = colOf (wrapOf x1)) :
    mulf (Host.scatterAdd scatter_S100000x128_S1600000x1_S1600000x128_1_0_0_1
          (broadcastInDim S100000x128 ![] bcast_S_S100000x128 (constant S_ .f32 0x00000000#32))
          (broadcastInDim S1600000x1 ![0] bcast_S1600000_S1600000x1_0 x2)
          (Host.gather gather_S100000x128_S1600000x1_S1600000x128_1_0_n_n_0_1_1128
            (mulf X (broadcastInDim S100000x128 ![0, 1] bcast_S100000x1_S100000x128_0_1
              (broadcastInDim S100000x1 ![0] bcast_S100000_S100000x1_0 n1))) g))
        (broadcastInDim S100000x128 ![0, 1] bcast_S100000x1_S100000x128_0_1
          (broadcastInDim S100000x1 ![0] bcast_S100000_S100000x1_0 n2))
      = hdOf x1 x2 X := by
  rw [scaled_eq X n1 _ h1, col_eq, hg]
  rw [Cert.Gcn.Host.scatter_gather_eq (N := 100000) (M := 1600000) (C := 128) (by decide)
    scatter_S100000x128_S1600000x1_S1600000x128_1_0_0_1 scatter_S100000x128_S1600000x1_S1600000x128_1_0_0_1_wf rfl
    gather_S100000x128_S1600000x1_S1600000x128_1_0_n_n_0_1_1128 gather_S100000x128_S1600000x1_S1600000x128_1_0_n_n_0_1_1128_wf rfl
    ![] bcast_S_S100000x128 0x00000000#32 (scaleRows (nrm x1) X) (colOf (wrapOf x1)) (colOf x2)]
  exact scaled_eq _ n2 _ h2

/-- A dense layer with the positive part. -/
theorem host_layer (H : FVec Ideal S100000x128 .f32) (W : FVec Ideal S128x128 .f32) (b : FVec Ideal S128 .f32) :
    maximumf (addf (Host.dotGeneral dot_S100000x128_S128x128_S100000x128_1_0_0_1_n_n none H W)
        (broadcastInDim S100000x128 ![0, 1] bcast_S1x128_S100000x128_0_1 (broadcastInDim S1x128 ![1] bcast_S128_S1x128_1 b)))
      (broadcastInDim S100000x128 ![] bcast_S_S100000x128 (constant S_ .f32 0x00000000#32))
    = relu (lin H W b) :=
  host_lin_relu _ rfl H W b _ _ _ _

/-! ## The three layers -/

theorem v30_eq (x0 : FVec Ideal S100000x128 .f32) (x1 x2 : IVec S1600000 32) :
    val_main_v30 (F := Ideal) x0 x1 x2 = hdOf x1 x2 x0 :=
  host_hdOf x0 x1 x2 (val_main_v12 (F := Ideal) x1) (val_main_v14 (F := Ideal) x2) (v12_eq x1) (v14_eq x2)
    (val_main_v23 (F := Ideal) x1) (wrap_eq x1)

theorem v35_eq (x0 : FVec Ideal S100000x128 .f32) (x1 x2 : IVec S1600000 32) (x3 : FVec Ideal S128x128 .f32) (x4 : FVec Ideal S128 .f32) :
    val_main_v35 (F := Ideal) x0 x1 x2 x3 x4 = layer x1 x2 x0 x3 x4 := by
  unfold val_main_v35 val_main_v34 val_main_v31
  rw [v30_eq]
  exact host_layer _ x3 x4

theorem v51_eq (x0 : FVec Ideal S100000x128 .f32) (x1 x2 : IVec S1600000 32) (x3 : FVec Ideal S128x128 .f32) (x4 : FVec Ideal S128 .f32) :
    val_main_v51 (F := Ideal) x0 x1 x2 x3 x4 = hdOf x1 x2 (layer x1 x2 x0 x3 x4) := by
  rw [← v35_eq]
  exact host_hdOf (val_main_v35 (F := Ideal) x0 x1 x2 x3 x4) x1 x2 (val_main_v12 (F := Ideal) x1)
    (val_main_v14 (F := Ideal) x2) (v12_eq x1) (v14_eq x2) (val_main_v23 (F := Ideal) x1) (wrap_eq x1)

theorem v56_eq (x0 : FVec Ideal S100000x128 .f32) (x1 x2 : IVec S1600000 32) (x3 : FVec Ideal S128x128 .f32) (x4 : FVec Ideal S128 .f32) (x5 : FVec Ideal S128x128 .f32) (x6 : FVec Ideal S128 .f32) :
    val_main_v56 (F := Ideal) x0 x1 x2 x3 x4 x5 x6 = layer x1 x2 (layer x1 x2 x0 x3 x4) x5 x6 := by
  unfold val_main_v56 val_main_v55 val_main_v52
  rw [v51_eq]
  exact host_layer _ x5 x6

theorem v72_eq (x0 : FVec Ideal S100000x128 .f32) (x1 x2 : IVec S1600000 32) (x3 : FVec Ideal S128x128 .f32) (x4 : FVec Ideal S128 .f32) (x5 : FVec Ideal S128x128 .f32) (x6 : FVec Ideal S128 .f32) :
    val_main_v72 (F := Ideal) x0 x1 x2 x3 x4 x5 x6 = hd3 x0 x1 x2 x3 x4 x5 x6 := by
  show _ = hdOf x1 x2 (layer x1 x2 (layer x1 x2 x0 x3 x4) x5 x6)
  rw [← v56_eq]
  exact host_hdOf (val_main_v56 (F := Ideal) x0 x1 x2 x3 x4 x5 x6) x1 x2 (val_main_v12 (F := Ideal) x1)
    (val_main_v14 (F := Ideal) x2) (v12_eq x1) (v14_eq x2) (val_main_v23 (F := Ideal) x1) (wrap_eq x1)

/-! ## The last dense layer and the mean -/

theorem v76_eq (x0 : FVec Ideal S100000x128 .f32) (x1 x2 : IVec S1600000 32) (x3 : FVec Ideal S128x128 .f32) (x4 : FVec Ideal S128 .f32) (x5 : FVec Ideal S128x128 .f32) (x6 : FVec Ideal S128 .f32) (x7 : FVec Ideal S128x128 .f32) (x8 : FVec Ideal S128 .f32) :
    val_main_v76 (F := Ideal) x0 x1 x2 x3 x4 x5 x6 x7 x8 = lin (hd3 x0 x1 x2 x3 x4 x5 x6) x7 x8 := by
  unfold val_main_v76 val_main_v73
  rw [v72_eq]
  exact host_lin _ rfl _ x7 x8 _ _

/-- The whole reference: the dense layer on every node's row, then the sum over the nodes from zero divided by the node
    count. -/
theorem v80_eq (x0 : FVec Ideal S100000x128 .f32) (x1 x2 : IVec S1600000 32) (x3 : FVec Ideal S128x128 .f32) (x4 : FVec Ideal S128 .f32) (x5 : FVec Ideal S128x128 .f32) (x6 : FVec Ideal S128 .f32) (x7 : FVec Ideal S128x128 .f32) (x8 : FVec Ideal S128 .f32) :
    val_main_v80 (F := Ideal) x0 x1 x2 x3 x4 x5 x6 x7 x8 = refOut (hd3 x0 x1 x2 x3 x4 x5 x6) x7 x8 := by
  funext i
  unfold val_main_v80 refOut
  rw [hostDivf_apply, val_main_v78_apply, val_main_v77_apply, v76_eq]
  unfold val_main_v79 val_main_cst_15
  refine congrArg₂ Ideal.div (congrArg (zw + ·) (Finset.sum_congr rfl fun k _ => congrArg _ ?_))
    (Cert.Gcn.Host.splat_apply ![] bcast_S_S1x128 0x47C35000#32 i)
  funext a
  match a with
  | ⟨0, _⟩ => rfl
  | ⟨1, _⟩ => rfl

/-- The reference program's result is the specification's `refOut` of the third layer's normalised aggregation. -/
theorem res_eq (m : (ℓ : Loc nD τ sig) → Buf (Elt Ideal) ℓ) (c : Dev nD) :
    Cert.ReferenceIdeal.Value.res_out0 (F := Ideal) m c
      = refOut (hd3 (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)))
        (m ((c.tc : Thread nD τ).loc main_arg7)) (m ((c.tc : Thread nD τ).loc main_arg8)) :=
  (val_main_v80_eq (F := Ideal) m c).trans (v80_eq _ _ _ _ _ _ _ _ _)

end Cert.ReferenceIdeal.RefValue

end
-- ==== Proof.LibRealScale.lean ====
/-
  Real numbers among the extended reals.

  * An f32 word whose exponent field is not all ones (neither an infinity nor a NaN pattern) denotes a real number
    (`ofBits_real`) — so a program's finite literals never have to be evaluated to know they are real.
  * A real factor moves across a finite sum of real terms, whatever its sign (`pooled_scale`): for reals `p e` and `t`,
    `(z + ∑ e ∈ S, p e) * t = z + ∑ e ∈ S, p e * t` with `z = 0` the value the sum starts from. On the extended reals
    this fails when the sum meets both infinities, which is why the terms are asked to be real.
-/
import Idealize.ShloMosaic.PureOps.Ideal
import Idealize.ShloMosaic.PureOps.Ideal.Laws

noncomputable section

open scoped BigOperators

namespace Cert.Lib.RealScale

open Idealize.ShloMosaic

/-- An f32 word whose exponent field is not all ones denotes a real number. -/
theorem ofBits_real (b : BitVec 32) (h : (b.extractLsb' 23 8).toNat ≠ 255) :
    ∃ r : ℝ, Ideal.ofBits .f32 b = (r : EReal) := by
  unfold Ideal.ofBits Ideal.ieee
  simp only []
  rw [if_neg (by simpa using h)]
  split <;> exact ⟨_, rfl⟩

/-- A REAL FACTOR ACROSS A SUM OF REALS: for real terms `p e` and a real factor `t`,
    `(z + ∑ e ∈ S, p e) * t = z + ∑ e ∈ S, p e * t`, where `z` is the zero a running sum starts from. -/
theorem pooled_scale {ι : Type*} (S : Finset ι) (P : ι → EReal) (ts z : EReal) (hz : z = 0)
    (hP : ∀ e ∈ S, ∃ r : ℝ, P e = (r : EReal)) (hts : ∃ t : ℝ, ts = (t : EReal)) :
    (z + ∑ e ∈ S, P e) * ts = z + ∑ e ∈ S, P e * ts := by
  classical
  obtain ⟨t, rfl⟩ := hts
  subst hz
  rw [zero_add, zero_add]
  have key : ∀ (S' : Finset ι), S' ⊆ S → (∃ r : ℝ, ∑ e ∈ S', P e = (r : EReal)) ∧
      (∑ e ∈ S', P e) * (t : EReal) = ∑ e ∈ S', P e * (t : EReal) := by
    intro S'
    refine Finset.induction_on S' ?_ ?_
    · intro _; exact ⟨⟨0, by simp⟩, by simp⟩
    · intro a s ha ih hs
      obtain ⟨⟨r, hr⟩, ih2⟩ := ih (fun x hx => hs (Finset.mem_insert_of_mem hx))
      obtain ⟨q, hq⟩ := hP a (hs (Finset.mem_insert_self a s))
      rw [Finset.sum_insert ha, Finset.sum_insert ha, ← ih2, hr, hq]
      refine ⟨⟨q + r, by rw [EReal.coe_add]⟩, ?_⟩
      rw [← EReal.coe_add, ← EReal.coe_mul, ← EReal.coe_mul, ← EReal.coe_mul, ← EReal.coe_add, add_mul]
  exact (key S (Finset.Subset.refl S)).2

end Cert.Lib.RealScale

end
-- ==== Proof.Law.lean ====
/-
  The two arrangements of the last step of the network agree on real entries, and every entry the network
  computes from real inputs is real.

  * The words: the starting value `zw` is `0`; `ow`, `hw`, `nw` are real numbers, and `nw` is `100000`.
  * Realness: a power of two reals is a real, so each normalisation factor is real; sums, products and maxima of
    reals are real, so the aggregation, the dense layers and the positive part keep real entries real.
  * The law: for a real matrix `A` with `N` rows, real weights `W` and a real bias `β`, and `c` with `N · c = 1`,
    `∑ k, ((∑ n, A n k) · c) · W k + β = (∑ n, (∑ k, A n k · W k + β)) · c`: the mean of the rows commutes with
    the dense layer. On the extended reals the division by the real `100000` is the product with `1 / 100000`.
-/
import Mathlib.Tactic.Ring
import Mathlib.Tactic.NormNum
import proofs.«109770_j54692113547689_1_alg».proof.Proof.Spec
import proofs.«109770_j54692113547689_1_alg».proof.Proof.LibGcnLaw
import proofs.«109770_j54692113547689_1_alg».proof.Proof.LibRealOps
import proofs.«109770_j54692113547689_1_alg».proof.Proof.LibRealScale

noncomputable section

open scoped BigOperators

namespace Cert.Net

open Idealize.ShloMosaic Idealize.ShloMosaic.ValueIdx Cert.Lib.BiasDot Cert.Lib.Dense Cert.Lib.RowScatter Cert.Gcn
  ProofLib.RealOps

/-! ## The words -/

/-- The starting value of every sum is zero. -/
theorem zw_eq : zw = 0 := Ideal.ofBits_zero_f32

/-- The word of 1 is a real number. -/
theorem ow_real : IsReal ow := Cert.Lib.RealScale.ofBits_real _ (by decide)

/-- The word of -1/2 is a real number. -/
theorem hw_real : IsReal hw := Cert.Lib.RealScale.ofBits_real _ (by decide)

/-- The word of the node count denotes the real `100000`: significand `2^23 + 4411392 = 12800000`, exponent
    `143 - 127 - 23 = -7`, and `12800000 / 128 = 100000`. -/
theorem nw_eq : nw = ((100000 : ℝ) : EReal) := by
  unfold nw
  simp [Ideal.ofBits, Ideal.ieee, -EReal.coe_mul]; norm_num

/-- The word of the node count is a real number. -/
theorem nw_real : IsReal nw := ⟨_, nw_eq⟩

/-! ## Real entries through the network -/

/-- A power of two reals is a real. -/
theorem isReal_pow {x y : EReal} (hx : IsReal x) (hy : IsReal y) : IsReal (Ideal.pow x y) := by
  obtain ⟨a, rfl⟩ := hx; obtain ⟨b, rfl⟩ := hy; exact ⟨Real.rpow a b, rfl⟩

/-- A node's divisor is real: a finite sum of real words, and a maximum. -/
theorem divisor_real (L : Fin Nn → Finset (Fin Ne)) (n : Fin Nn) : IsReal (divisor L zw ow n) := by
  show IsReal (max (zw + ∑ _e ∈ L n, ow) ow)
  refine IsReal.max (IsReal.add ?_ (isReal_sum _ _ fun _ _ => ow_real)) ow_real
  rw [zw_eq]; exact isReal_zero

/-- Every normalisation factor is real. -/
theorem nrm_real (idx : IdxV) (n : Fin Nn) : IsReal (nrm idx n) :=
  isReal_pow (divisor_real _ n) hw_real

variable {N E C K M : Nat}

/-- Rows of reals scaled by real factors are rows of reals. -/
theorem scaleRows_real (s : Fin N → EReal) (x : (⟨2, ![N, C]⟩ : Shape).Idx → EReal) (hs : ∀ n, IsReal (s n))
    (hx : ∀ i, IsReal (x i)) (i : (⟨2, ![N, C]⟩ : Shape).Idx) : IsReal (scaleRows s x i) :=
  IsReal.mul (hx i) (hs _)

/-- The aggregation of a real table from a real starting value is real. -/
theorem agg_real (g : Fin E → Fin N) (L : Fin N → Finset (Fin E)) (z : EReal) (x : (⟨2, ![N, C]⟩ : Shape).Idx → EReal)
    (hz : IsReal z) (hx : ∀ i, IsReal (x i)) (i : (⟨2, ![N, C]⟩ : Shape).Idx) : IsReal (agg g L z x i) :=
  IsReal.add hz (isReal_sum _ _ fun _ _ => hx _)

/-- A dense layer of real operands has real entries. -/
theorem lin_real (A : (⟨2, ![M, K]⟩ : Shape).Idx → EReal) (W : (⟨2, ![K, C]⟩ : Shape).Idx → EReal)
    (b : (⟨1, ![C]⟩ : Shape).Idx → EReal) (hA : ∀ i, IsReal (A i)) (hW : ∀ i, IsReal (W i)) (hb : ∀ i, IsReal (b i))
    (i : (⟨2, ![M, C]⟩ : Shape).Idx) : IsReal (lin A W b i) :=
  IsReal.add (isReal_sum _ _ fun _ _ => IsReal.mul (hA _) (hW _)) (hb _)

/-- The positive part of a real is real. -/
theorem relu_real {s : Shape} (f : s.Idx → EReal) (hf : ∀ i, IsReal (f i)) (i : s.Idx) : IsReal (relu f i) :=
  IsReal.max (hf i) isReal_zero

/-- The normalised aggregation of a real table is real. -/
theorem hdOf_real (src dst : IdxV) (x : Mat Nn Dd) (hx : ∀ i, IsReal (x i)) (i : (⟨2, ![Nn, Dd]⟩ : Shape).Idx) :
    IsReal (hdOf src dst x i) := by
  have hz : IsReal zw := by rw [zw_eq]; exact isReal_zero
  exact scaleRows_real _ _ (nrm_real dst) (agg_real _ _ _ _ hz (scaleRows_real _ _ (nrm_real src) hx)) i

/-- One layer of real operands has real entries. -/
theorem layer_real (src dst : IdxV) (x : Mat Nn Dd) (W : Mat Dd Dd) (b : Vect Dd) (hx : ∀ i, IsReal (x i))
    (hW : ∀ i, IsReal (W i)) (hb : ∀ i, IsReal (b i)) (i : (⟨2, ![Nn, Dd]⟩ : Shape).Idx) :
    IsReal (layer src dst x W b i) :=
  relu_real _ (lin_real _ _ _ (hdOf_real src dst x hx) hW hb) i

/-- The third layer's normalised aggregation has real entries when the features and the first two layers'
    weights and biases do. -/
theorem hd3_real (h : Mat Nn Dd) (src dst : IdxV) (W0 : Mat Dd Dd) (b0 : Vect Dd) (W1 : Mat Dd Dd) (b1 : Vect Dd)
    (hh : ∀ i, IsReal (h i)) (hW0 : ∀ i, IsReal (W0 i)) (hb0 : ∀ i, IsReal (b0 i)) (hW1 : ∀ i, IsReal (W1 i))
    (hb1 : ∀ i, IsReal (b1 i)) (i : (⟨2, ![Nn, Dd]⟩ : Shape).Idx) : IsReal (hd3 h src dst W0 b0 W1 b1 i) :=
  hdOf_real src dst _ (layer_real src dst _ W1 b1 (layer_real src dst h W0 b0 hh hW0 hb0) hW1 hb1) i

/-! ## The law -/

/-- The mean of the rows commutes with a dense layer, over the reals: with `c` the reciprocal of the number of
    rows, `∑ k, ((∑ n, a n k) · c) · w k + β = (∑ n, (∑ k, a n k · w k + β)) · c`. -/
theorem mean_dense_real {ι κ : Type*} [Fintype ι] [Fintype κ] (a : ι → κ → ℝ) (w : κ → ℝ) (β c : ℝ)
    (hc : (Fintype.card ι : ℝ) * c = 1) :
    (∑ k, (∑ n, a n k) * c * w k) + β = (∑ n, ((∑ k, a n k * w k) + β)) * c := by
  have h1 : ∑ n : ι, ((∑ k, a n k * w k) + β) = (∑ k, (∑ n, a n k) * w k) + (Fintype.card ι : ℝ) * β := by
    rw [Finset.sum_add_distrib, Finset.sum_const, Finset.card_univ, nsmul_eq_mul, Finset.sum_comm]
    refine congrArg (· + _) (Finset.sum_congr rfl fun k _ => ?_)
    rw [Finset.sum_mul]
  rw [h1, add_mul, mul_right_comm, hc, one_mul, Finset.sum_mul]
  refine congrArg (· + β) (Finset.sum_congr rfl fun k _ => ?_)
  ring

/-- THE LAW: on a real matrix, real weights and a real bias, the dense layer of the mean row is the mean of the
    dense layer's rows. -/
theorem ker_eq_ref (A : Mat Nn Dd) (W : Mat Dd Dd) (b : Vect Dd) (hA : ∀ i, IsReal (A i)) (hW : ∀ i, IsReal (W i))
    (hb : ∀ i, IsReal (b i)) : kerOut (((1 / 100000 : ℝ) : EReal)) A W b = refOut A W b := by
  choose a ha using hA
  choose w hwr using hW
  choose β hβ using hb
  funext i
  show (∑ k : Fin Dd, ((∑ n : Fin Nn, A (ix2 n k)) * ((1 / 100000 : ℝ) : EReal)) * W (ix2 k (i 1))) + b (ix1 (i 1))
    = Ideal.div (zw + ∑ n : Fin Nn, ((∑ k : Fin Dd, A (ix2 n k) * W (ix2 k (i 1))) + b (ix1 (i 1)))) nw
  rw [zw_eq, nw_eq, zero_add, Ideal.div_coe (by norm_num : (100000 : ℝ) ≠ 0)]
  have hL : (∑ k : Fin Dd, ((∑ n : Fin Nn, A (ix2 n k)) * ((1 / 100000 : ℝ) : EReal)) * W (ix2 k (i 1))) + b (ix1 (i 1))
      = (((∑ k : Fin Dd, (∑ n : Fin Nn, a (ix2 n k)) * (1 / 100000) * w (ix2 k (i 1))) + β (ix1 (i 1)) : ℝ) : EReal) := by
    rw [EReal.coe_add, coe_sum, hβ]
    refine congrArg (fun t : EReal => t + ((β (ix1 (i 1)) : ℝ) : EReal)) (Finset.sum_congr rfl fun k _ => ?_)
    rw [EReal.coe_mul, EReal.coe_mul, coe_sum, hwr]
    exact congrArg (fun t : EReal => t * ((1 / 100000 : ℝ) : EReal) * ((w (ix2 k (i 1)) : ℝ) : EReal))
      (Finset.sum_congr rfl fun n _ => ha (ix2 n k))
  have hR : (∑ n : Fin Nn, ((∑ k : Fin Dd, A (ix2 n k) * W (ix2 k (i 1))) + b (ix1 (i 1))))
      = ((∑ n : Fin Nn, ((∑ k : Fin Dd, a (ix2 n k) * w (ix2 k (i 1))) + β (ix1 (i 1))) : ℝ) : EReal) := by
    rw [coe_sum]
    refine Finset.sum_congr rfl fun n _ => ?_
    rw [EReal.coe_add, coe_sum, hβ]
    refine congrArg (fun t : EReal => t + ((β (ix1 (i 1)) : ℝ) : EReal)) (Finset.sum_congr rfl fun k _ => ?_)
    rw [EReal.coe_mul, ha, hwr]
  rw [hL, hR, ← EReal.coe_mul]
  refine congrArg _ ?_
  exact mean_dense_real (fun n k => a (ix2 n k)) (fun k => w (ix2 k (i 1))) (β (ix1 (i 1))) (1 / 100000)
    (by rw [Fintype.card_fin]; norm_num)

/-- The network's two arrangements of the last step agree when the features and all weights and biases are real. -/
theorem net_eq (h : Mat Nn Dd) (src dst : IdxV) (W0 : Mat Dd Dd) (b0 : Vect Dd) (W1 : Mat Dd Dd) (b1 : Vect Dd)
    (W2 : Mat Dd Dd) (b2 : Vect Dd) (hh : ∀ i, IsReal (h i)) (hW0 : ∀ i, IsReal (W0 i)) (hb0 : ∀ i, IsReal (b0 i))
    (hW1 : ∀ i, IsReal (W1 i)) (hb1 : ∀ i, IsReal (b1 i)) (hW2 : ∀ i, IsReal (W2 i)) (hb2 : ∀ i, IsReal (b2 i)) :
    kerOut (((1 / 100000 : ℝ) : EReal)) (hd3 h src dst W0 b0 W1 b1) W2 b2 = refOut (hd3 h src dst W0 b0 W1 b1) W2 b2 :=
  ker_eq_ref _ W2 b2 (hd3_real h src dst W0 b0 W1 b1 hh hW0 hb0 hW1 hb1) hW2 hb2

end Cert.Net

end
-- ==== Proof.LibFiniteEntry.lean ====
/-
  Reading a precondition's conjuncts back, at the ideal instance.

  A precondition over float arrays is printed as a conjunction of `jnp.all` tests, each an elementwise comparison
  reduced by `and` over every axis. Two tests are read back here, for an array of ANY shape:
  * `jnp.all(jnp.abs(x) < inf)` — every entry's absolute value below the word `0x7F800000`, which at the ideal
    instance is `⊤` — says every entry of `x` is a REAL (`all_real_of_all_abs_lt_inf`; one value:
    `real_of_hostAbsf_olt_inf`): an extended real is `⊥`, a real or `⊤`, and `max x (−x) < ⊤` excludes both ends.
  * `jnp.all(x != 0)` — every entry unequal to the word `0x00000000`, the ideal `0` — says no entry is zero
    (`all_ne_zero_of_all_une_zero`; one value: `ne_zero_of_une_zero`).
  The conjunction itself is an `and` of one-bit words: it is 1 exactly when both sides are (`andi_eq_one`).
-/
import Idealize.ShloMosaic.PureOps.Ideal.Laws
import Idealize.ShloMosaic.Lib.ReduceAll

noncomputable section

namespace ProofLib.Finite

open Idealize.ShloMosaic

/-- The f32 word of `+∞` denotes the top of the extended reals. -/
theorem ofBits_inf_f32 : Ideal.ofBits .f32 0x7F800000#32 = ⊤ := by simp [Ideal.ofBits, Ideal.ieee]

/-- An extended real whose absolute value `max x (−x)` is below `⊤` is a real. -/
theorem exists_real_of_abs_lt_top (x : EReal) (hlt : max x (-x) < ⊤) : ∃ r : ℝ, x = (r : EReal) := by
  have hx_top : x ≠ ⊤ := fun e => by rw [e] at hlt; simp at hlt
  have hx_bot : x ≠ ⊥ := fun e => by rw [e] at hlt; simp at hlt
  exact ⟨x.toReal, (EReal.coe_toReal hx_top hx_bot).symm⟩

/-- One value: the host's `|x| < +∞`, true, says `x` is a real. -/
theorem real_of_hostAbsf_olt_inf (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf_f32] at h'
  unfold Ideal.cmp at h'
  refine exists_real_of_abs_lt_top x ?_
  by_contra hn
  simp [hn] at h'

/-- One value: the host's `x != 0`, true, says `x` is not zero. -/
theorem ne_zero_of_une_zero (x : Ideal .f32)
    (h : FloatOps.cmpf .une x (FloatOps.ofBits (F := Ideal) .f32 0x00000000#32) = 1#1) : (x : EReal) ≠ 0 := by
  have h' : Ideal.cmp .une (x : EReal) (Ideal.ofBits .f32 0x00000000#32) = 1#1 := h
  rw [Ideal.ofBits_zero_f32] at h'
  unfold Ideal.cmp at h'
  intro hx
  simp [hx] at h'

variable {s t u : Shape} {axes : List (Fin s.rank)}

/-- `jnp.all(jnp.abs(x) < inf)`, true: every entry of `x` is a real. `bound` is the comparison's right operand, the
    `+∞` word at every index (a broadcast of the scalar constant). -/
theorem all_real_of_all_abs_lt_inf [Subsingleton t.Idx] (x bound : FVec Ideal s .f32)
    (hbound : ∀ i, bound i = FloatOps.ofBits (F := Ideal) .f32 0x7F800000#32)
    (init : u.Idx → BitVec 1) (h : s.ReducesTo axes t) (hu : 0 < u.numel) (j : t.Idx)
    (e : Host.reduce IntOp.andi (cmpf .olt (Host.absf x) bound) init h hu j = 1#1) (i : s.Idx) :
    ∃ r : ℝ, (x i : EReal) = (r : EReal) := by
  have hi : cmpf .olt (Host.absf x) bound i = 1#1 := Host.reduce_andi_all _ init h hu j e i
  refine real_of_hostAbsf_olt_inf (x i) ?_
  rw [← hbound i]
  exact hi

/-- `jnp.all(x != 0)`, true: no entry of `x` is zero. `zero` is the comparison's right operand, the zero word at every
    index. -/
theorem all_ne_zero_of_all_une_zero [Subsingleton t.Idx] (x zero : FVec Ideal s .f32)
    (hzero : ∀ i, zero i = FloatOps.ofBits (F := Ideal) .f32 0x00000000#32)
    (init : u.Idx → BitVec 1) (h : s.ReducesTo axes t) (hu : 0 < u.numel) (j : t.Idx)
    (e : Host.reduce IntOp.andi (cmpf .une x zero) init h hu j = 1#1) (i : s.Idx) : (x i : EReal) ≠ 0 := by
  have hi : cmpf .une x zero i = 1#1 := Host.reduce_andi_all _ init h hu j e i
  refine ne_zero_of_une_zero (x i) ?_
  rw [← hzero i]
  exact hi

/-- The conjunction of two one-bit flags is 1 exactly when both are. -/
theorem andi_eq_one (a b : BitVec 1) : a &&& b = 1#1 ↔ a = 1#1 ∧ b = 1#1 := by
  revert a b; decide

end ProofLib.Finite

end
-- ==== Proof.PreReal.lean ====
/-
  The precondition, read back: every float input is an array of real numbers.

  The precondition is a conjunction of seven tests, one per float array, each saying that every entry's absolute
  value lies below `+∞`. At the ideal
  instance the word of `+∞` is the top of the extended reals, and an extended real whose absolute value lies below
  the top is a real number; a conjunction of one-bit flags is 1 exactly when each flag is, and a reduction by
  `and` over every axis is 1 exactly when every entry is.
-/
import Idealize.ShloMosaic.Lib.ReduceAll
import proofs.«109770_j54692113547689_1_alg».proof.Pre_finite_inputs
import proofs.«109770_j54692113547689_1_alg».proof.Proof.LibFiniteEntry
import proofs.«109770_j54692113547689_1_alg».proof.Proof.LibGcnLaw

noncomputable section

namespace Cert.PreReal

open Idealize.ShloMosaic Idealize.ShloMosaic.ValueIdx Cert.Pre_finite_inputs ProofLib.Finite Cert.Gcn

/-- The shape of a scalar has one index. -/
instance : Subsingleton S_.Idx := ⟨fun a b => funext fun d => d.elim0⟩

/-- The word of `+∞` broadcast to any shape is that word at every index. -/
theorem inf_apply {t : Shape} (dims : Fin 0 → Fin t.rank) (h : S_.BroadcastsInDim t dims) (j : t.Idx) :
    broadcastInDim t dims h (constant (F := Ideal) S_ .f32 0x7F800000#32) j
      = FloatOps.ofBits (F := Ideal) .f32 0x7F800000#32 :=
  (broadcastInDim_apply (s := ⟨0, ![]⟩) dims h _ j (fun a => a.elim0) (fun a => a.elim0)).trans rfl

/-- One test, true: every entry's absolute value lies below `+∞`, so every entry of `x` is a real. -/
theorem all_real {s : Shape} {axes : List (Fin s.rank)} (x : FVec Ideal s .f32) (dims : Fin 0 → Fin s.rank)
    (hb : S_.BroadcastsInDim s dims) (hr : s.ReducesTo axes S_) (hu : 0 < S_.numel)
    (e : Host.reduce IntOp.andi (cmpf .olt (Host.absf x) (broadcastInDim s dims hb (constant (F := Ideal) S_ .f32 0x7F800000#32)))
      (constantI S_ 1 1#1) hr hu ix0 = 1#1) (i : s.Idx) : IsReal (x i) :=
  all_real_of_all_abs_lt_inf x _ (inf_apply dims hb) _ hr hu ix0 e i

/-- A conjunction of two scalar flags that is 1 has both flags 1. -/
theorem andi_ix (x y : IVec S_ 1) (h : andi x y ix0 = 1#1) : x ix0 = 1#1 ∧ y ix0 = 1#1 :=
  (andi_eq_one (x ix0) (y ix0)).1 h

variable [Facts]

/-- THE PRECONDITION READ BACK: when it holds, every entry of the seven float arrays is a real number. -/
theorem reals (a0 : FVec Ideal S100000x128 .f32) (a1 a2 : IVec S1600000 32) (a3 : FVec Ideal S128x128 .f32)
    (a4 : FVec Ideal S128 .f32) (a5 : FVec Ideal S128x128 .f32) (a6 : FVec Ideal S128 .f32)
    (a7 : FVec Ideal S128x128 .f32) (a8 : FVec Ideal S128 .f32)
    (h : Cert.Pre_finite_inputs.fn (F := Ideal) a0 a1 a2 a3 a4 a5 a6 a7 a8 = (fun _ => 1#1)) :
    (∀ i, IsReal (a0 i)) ∧ (∀ i, IsReal (a3 i)) ∧ (∀ i, IsReal (a4 i)) ∧ (∀ i, IsReal (a5 i)) ∧ (∀ i, IsReal (a6 i))
      ∧ (∀ i, IsReal (a7 i)) ∧ (∀ i, IsReal (a8 i)) := by
  have h0 := congrFun h ix0
  dsimp only [fn, fn_part1] at h0
  obtain ⟨h1, e8⟩ := andi_ix _ _ h0
  obtain ⟨h2, e7⟩ := andi_ix _ _ h1
  obtain ⟨h3, e6⟩ := andi_ix _ _ h2
  obtain ⟨h4, e5⟩ := andi_ix _ _ h3
  obtain ⟨h5, e4⟩ := andi_ix _ _ h4
  obtain ⟨e0, e3⟩ := andi_ix _ _ h5
  exact ⟨all_real a0 _ _ _ _ e0, all_real a3 _ _ _ _ e3, all_real a4 _ _ _ _ e4, all_real a5 _ _ _ _ e5,
    all_real a6 _ _ _ _ e6, all_real a7 _ _ _ _ e7, all_real a8 _ _ _ _ e8⟩

end Cert.PreReal

end
-- ==== Proof.lean ====
/-
  Three layers of degree-normalised graph convolution and the mean over the nodes, computed by a program with three
  kernel regions, against the plain host program.

  Both programs compute the two normalisation vectors `max(degree, 1) ^ (-1/2)` by scattering ones, and each layer's
  normalised aggregation: rows scaled by the source-side factor, gathered along the edges, summed into their
  destination nodes, scaled by the destination-side factor. The first two layers apply a dense layer with the positive
  part to every row — in the kernel program inside a kernel region, 4000 rows at a time, the operands of the product
  narrowed to a shorter float format, which is the identity on extended reals. They differ in the last step. The host
  program applies the third dense layer to every row and takes the mean: the sum over the 100000 rows divided by the
  word of 100000. The kernel program takes the mean of the rows first — a third kernel region sums the rows block by
  block and multiplies by the named constant 1/100000 — and applies the dense layer once, to the mean row.

  The two are equal because a dense layer is affine in its row: `(Σₙ aₙ / N) · W + b = Σₙ (aₙ · W + b) / N`. On the extended
  reals this needs every `aₙ`, `W` and `b` to be a real number: the precondition makes the float arguments real, and
  every stage of the network keeps real entries real (a power of two reals is a real; sums, products and maxima of
  reals are reals).

  The named constant is the one entry of the idealization's ledger: its statement is that rule's, at the table's value.
-/
import proofs.«109770_j54692113547689_1_alg».proof.Defs
import proofs.«109770_j54692113547689_1_alg».proof.Proof.Gen.Kernel
import proofs.«109770_j54692113547689_1_alg».proof.Proof.Gen.Kernel.Skeleton
import proofs.«109770_j54692113547689_1_alg».proof.Proof.Gen.Kernel.Launch
import proofs.«109770_j54692113547689_1_alg».proof.Proof.Gen.Kernel.Points
import proofs.«109770_j54692113547689_1_alg».proof.Proof.Gen.Kernel.Frame
import proofs.«109770_j54692113547689_1_alg».proof.Proof.Gen.KernelIdeal
import proofs.«109770_j54692113547689_1_alg».proof.Proof.Gen.KernelIdeal.Skeleton
import proofs.«109770_j54692113547689_1_alg».proof.Proof.Gen.KernelIdeal.Launch
import proofs.«109770_j54692113547689_1_alg».proof.Proof.Gen.KernelIdeal.Points
import proofs.«109770_j54692113547689_1_alg».proof.Proof.Gen.KernelIdeal.Frame
import proofs.«109770_j54692113547689_1_alg».proof.Proof.Gen.ReferenceIdeal
import proofs.«109770_j54692113547689_1_alg».proof.Proof.Gen.ReferenceIdeal.Run
import proofs.«109770_j54692113547689_1_alg».proof.Proof.Gen.ReferenceIdeal.Read
import proofs.«109770_j54692113547689_1_alg».proof.Proof.Gen.Pre_finite_inputs
import proofs.«109770_j54692113547689_1_alg».proof.Proof.KValue
import proofs.«109770_j54692113547689_1_alg».proof.Proof.RefValue
import proofs.«109770_j54692113547689_1_alg».proof.Proof.Law
import proofs.«109770_j54692113547689_1_alg».proof.Proof.PreReal
import Idealize.ShloMosaic.Adequacy
import Idealize.ShloMosaic.Init

set_option maxRecDepth 16384

noncomputable section

namespace Cert.Proof

open Idealize.ShloMosaic Idealize.SL.Sem

/-- The program as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The host program's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ledger's one entry: the table gives the named reciprocal of the node count the value 1/100000. -/
theorem preserves : Cert.preserves_Kernel_KernelIdeal :=
  IdealRules.named_const.statement Cert.KernelIdeal.κ "inv_100000" .f32 0x3727C5AC#32 ((1 / 100000 : ℝ) : EReal) rfl

/-- From arguments that agree both programs end with the same result: the kernel program's is the dense layer of the
    mean row, the host program's the mean of the dense layer's rows, and on real entries these are one function. -/
theorem algebraic : Cert.algebraic_KernelIdeal_ReferenceIdeal := by
  intro m ρ m' ρ' hpre hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  refine (Cert.ReferenceIdeal.RefValue.res_eq m' c).trans ?_
  rw [e0, e1, e2, e3, e4, e5, e6, e7, e8]
  obtain ⟨r0, r3, r4, r5, r6, r7, r8⟩ := Cert.PreReal.reals _ _ _ _ _ _ _ _ _ (hpre c)
  exact (Cert.Net.net_eq _ _ _ _ _ _ _ _ _ r0 r3 r4 r5 r6 r7 r8).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
